-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v96)) (v1 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_v100) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_v115) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x5 : Shape := ⟨2, ![50000, 5]⟩
abbrev S2x800000 : Shape := ⟨2, ![2, 800000]⟩
abbrev S5x64 : Shape := ⟨2, ![5, 64]⟩
abbrev S64 : Shape := ⟨1, ![64]⟩
abbrev S3x64x64 : Shape := ⟨3, ![3, 64, 64]⟩
abbrev S3x64 : Shape := ⟨2, ![3, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S50000x5 : S_.BroadcastsInDim S50000x5 (![] : Fin 0 → Fin S50000x5.rank)
  reducesTo_S50000x5_S_d0_1 : S50000x5.ReducesTo [0, 1] S_
  h_S_ : 0 < S_.numel
  bcast_S_S5x64 : S_.BroadcastsInDim S5x64 (![] : Fin 0 → Fin S5x64.rank)
  reducesTo_S5x64_S_d0_1 : S5x64.ReducesTo [0, 1] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S32x1 .f32) (main_arg13 : FVec F S1 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x1 .f32 := Host.absf main_arg12
  let main_cst_20 : FVec F S_ .f32 := constant S_ .f32 0x7F800000#32
  let main_v55 : FVec F S32x1 .f32 := broadcastInDim S32x1 ![] bcast_S_S32x1 main_cst_20
  let main_v56 : IVec S32x1 1 := cmpf .olt main_v54 main_v55
  let main_c_21 : IVec S_ 1 := constantI S_ 1 1#1
  let main_v57 : IVec S_ 1 := (fun x v => Host.reduce IntOp.andi x v reducesTo_S32x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg8 : FVec F S32x1 .f32) (main_arg9 : FVec F S1 .f32) (main_arg10 : FVec F S64x32 .f32) (main_arg11 : FVec F S32 .f32) (main_arg12 : FVec F S32x1 .f32) (main_arg13 : FVec F S1 .f32) (main_v33 : IVec S_ 1) : IVec S_ 1 :=
  let main_v34 : FVec F S32x1 .f32 := Host.absf main_arg8
  let main_cst_12 : FVec F S_ .f32 := constant S_ .f32 0x7F800000#32
  let main_v35 : FVec F S32x1 .f32 := broadcastInDim S32x1 ![] bcast_S_S32x1 main_cst_12
  let main_v36 : IVec S32x1 1 := cmpf .olt main_v34 main_v35
  let main_c_13 : IVec S_ 1 := constantI S_ 1 1#1
  let main_v37 : IVec S_ 1 := (fun x v => Host.reduce IntOp.andi x v reducesTo_S32x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S64x32 .f32 := Host.absf main_arg10
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg11
  let main_cst_18 : FVec F S_ .f32 := constant S_ .f32 0x7F800000#32
  let main_v50 : FVec F S32 .f32 := broadcastInDim S32 ![] bcast_S_S32 main_cst_18
  fn_part3 (F := F) main_arg12 main_arg13 main_v48 main_v49 main_v50

def fn_part1 {F : FTy → Type} [FloatOps F] (main_arg5 : FVec F S3x64 .f32) (main_arg6 : FVec F S64x32 .f32) (main_arg7 : FVec F S32 .f32) (main_arg8 : FVec F S32x1 .f32) (main_arg9 : FVec F S1 .f32) (main_arg10 : FVec F S64x32 .f32) (main_arg11 : FVec F S32 .f32) (main_arg12 : FVec F S32x1 .f32) (main_arg13 : FVec F S1 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg5
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x5 .f32) (main_arg1 : IVec S2x800000 32) (main_arg2 : FVec F S5x64 .f32) (main_arg3 : FVec F S64 .f32) (main_arg4 : FVec F S3x64x64 .f32) (main_arg5 : FVec F S3x64 .f32) (main_arg6 : FVec F S64x32 .f32) (main_arg7 : FVec F S32 .f32) (main_arg8 : FVec F S32x1 .f32) (main_arg9 : FVec F S1 .f32) (main_arg10 : FVec F S64x32 .f32) (main_arg11 : FVec F S32 .f32) (main_arg12 : FVec F S32x1 .f32) (main_arg13 : FVec F S1 .f32) : IVec S_ 1 :=
  let main_v0 : FVec F S50000x5 .f32 := Host.absf main_arg0
  let main_cst : FVec F S_ .f32 := constant S_ .f32 0x7F800000#32
  let main_v1 : FVec F S50000x5 .f32 := broadcastInDim S50000x5 ![] bcast_S_S50000x5 main_cst
  let main_v2 : IVec S50000x5 1 := cmpf .olt main_v0 main_v1
  let main_c : IVec S_ 1 := constantI S_ 1 1#1
  let main_v3 : IVec S_ 1 := (fun x v => Host.reduce IntOp.andi x v reducesTo_S50000x5_S_d0_1 h_S_) main_v2 main_c
  let main_v4 : FVec F S5x64 .f32 := Host.absf main_arg2
  let main_cst_0 : FVec F S_ .f32 := constant S_ .f32 0x7F800000#32
  let main_v5 : FVec F S5x64 .f32 := broadcastInDim S5x64 ![] bcast_S_S5x64 main_cst_0
  let main_v6 : IVec S5x64 1 := cmpf .olt main_v4 main_v5
  let main_c_1 : IVec S_ 1 := constantI S_ 1 1#1
  let main_v7 : IVec S_ 1 := (fun x v => Host.reduce IntOp.andi x v reducesTo_S5x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S3x64x64 .f32 := Host.absf main_arg4
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg5 main_arg6 main_arg7 main_arg8 main_arg9 main_arg10 main_arg11 main_arg12 main_arg13 main_v13 main_v16
-- ==== Kernel.lean ====
abbrev S50000x5 : Shape := ⟨2, ![50000, 5]⟩
abbrev S2x800000 : Shape := ⟨2, ![2, 800000]⟩
abbrev S5x64 : Shape := ⟨2, ![5, 64]⟩
abbrev S64 : Shape := ⟨1, ![64]⟩
abbrev S3x64x64 : Shape := ⟨3, ![3, 64, 64]⟩
abbrev S3x64 : Shape := ⟨2, ![3, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x64 : Shape := ⟨2, ![1, 64]⟩
abbrev S50000x64 : Shape := ⟨2, ![50000, 64]⟩
abbrev S5000x5 : Shape := ⟨2, ![5000, 5]⟩
abbrev S5000x64 : Shape := ⟨2, ![5000, 64]⟩
abbrev S1x64x64 : Shape := ⟨3, ![1, 64, 64]⟩
abbrev S64x64 : Shape := ⟨2, ![64, 64]⟩
abbrev S850000x64 : Shape := ⟨2, ![850000, 64]⟩
abbrev S1x32 : Shape := ⟨2, ![1, 32]⟩
abbrev S50000x32 : Shape := ⟨2, ![50000, 32]⟩
abbrev S5000x32 : Shape := ⟨2, ![5000, 32]⟩
abbrev S1x1 : Shape := ⟨2, ![1, 1]⟩
abbrev S50000x1 : Shape := ⟨2, ![50000, 1]⟩
abbrev S5000x1 : Shape := ⟨2, ![5000, 1]⟩

abbrev nBuf : Space → Nat
  | .hbm => 131
  | .vmem => 63
  | .smem => 0
  | _ => 0

abbrev hbmTy0_0 (i : Nat) : BufTy := match i % 128 with
  | 0 => ⟨S50000x5, .f32⟩
  | 1 => ⟨S2x800000, .i32⟩
  | 2 => ⟨S5x64, .f32⟩
  | 3 => ⟨S64, .f32⟩
  | 4 => ⟨S3x64x64, .f32⟩
  | 5 => ⟨S3x64, .f32⟩
  | 6 => ⟨S64x32, .f32⟩
  | 7 => ⟨S32, .f32⟩
  | 8 => ⟨S32x1, .f32⟩
  | 9 => ⟨S1, .f32⟩
  | 10 => ⟨S64x32, .f32⟩
  | 11 => ⟨S32, .f32⟩
  | 12 => ⟨S32x1, .f32⟩
  | 13 => ⟨S1, .f32⟩
  | 14 => ⟨S50000, .i32⟩
  | 15 => ⟨S1x800000, .i32⟩
  | 16 => ⟨S800000, .i32⟩
  | 17 => ⟨S850000, .i32⟩
  | 18 => ⟨S1x800000, .i32⟩
  | 19 => ⟨S800000, .i32⟩
  | 20 => ⟨S850000, .i32⟩
  | 21 => ⟨S_, .f32⟩
  | 22 => ⟨S850000, .f32⟩
  | 23 => ⟨S_, .f32⟩
  | 24 => ⟨S50000, .f32⟩
  | 25 => ⟨S850000x1, .i32⟩
  | 26 => ⟨S50000, .f32⟩
  | 27 => ⟨S50000, .f32⟩
  | 28 => ⟨S_, .i32⟩
  | 29 => ⟨S850000, .i32⟩
  | 30 => ⟨S850000, .i1⟩
  | 31 => ⟨S_, .i32⟩
  | 32 => ⟨S850000, .i32⟩
  | 33 => ⟨S850000, .i32⟩
  | 34 => ⟨S850000, .i32⟩
  | 35 => ⟨S850000x1, .i32⟩
  | 36 => ⟨S850000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S850000, .f32⟩
  | 47 => ⟨S_, .f32⟩
  | 48 => ⟨S64, .f32⟩
  | 49 => ⟨S1x64, .f32⟩
  | 50 => ⟨S50000x64, .f32⟩
  | 51 => ⟨S1x64x64, .f32⟩
  | 52 => ⟨S64x64, .f32⟩
  | 53 => ⟨S1x64, .f32⟩
  | 54 => ⟨S50000x64, .f32⟩
  | 55 => ⟨S_, .i32⟩
  | 56 => ⟨S850000, .i32⟩
  | 57 => ⟨S850000, .i1⟩
  | 58 => ⟨S_, .i32⟩
  | 59 => ⟨S850000, .i32⟩
  | 60 => ⟨S850000, .i32⟩
  | 61 => ⟨S850000, .i32⟩
  | 62 => ⟨S850000x1, .i32⟩
  | 63 => ⟨S850000x64, .f32⟩
  | 64 => ⟨S850000x1, .f32⟩
  | 65 => ⟨S850000x64, .f32⟩
  | 66 => ⟨S850000x64, .f32⟩
  | 67 => ⟨S_, .f32⟩
  | 68 => ⟨S50000x64, .f32⟩
  | 69 => ⟨S850000x1, .i32⟩
  | 70 => ⟨S50000x64, .f32⟩
  | 71 => ⟨S1x64, .f32⟩
  | 72 => ⟨S64, .f32⟩
  | 73 => ⟨S1x64, .f32⟩
  | 74 => ⟨S50000x64, .f32⟩
  | 75 => ⟨S1x64x64, .f32⟩
  | 76 => ⟨S64x64, .f32⟩
  | 77 => ⟨S1x64, .f32⟩
  | 78 => ⟨S50000x64, .f32⟩
  | 79 => ⟨S_, .i32⟩
  | 80 => ⟨S850000, .i32⟩
  | 81 => ⟨S850000, .i1⟩
  | 82 => ⟨S_, .i32⟩
  | 83 => ⟨S850000, .i32⟩
  | 84 => ⟨S850000, .i32⟩
  | 85 => ⟨S850000, .i32⟩
  | 86 => ⟨S850000x1, .i32⟩
  | 87 => ⟨S850000x64, .f32⟩
  | 88 => ⟨S850000x1, .f32⟩
  | 89 => ⟨S850000x64, .f32⟩
  | 90 => ⟨S850000x64, .f32⟩
  | 91 => ⟨S_, .f32⟩
  | 92 => ⟨S50000x64, .f32⟩
  | 93 => ⟨S850000x1, .i32⟩
  | 94 => ⟨S50000x64, .f32⟩
  | 95 => ⟨S1x64, .f32⟩
  | 96 => ⟨S64, .f32⟩
  | 97 => ⟨S1x64, .f32⟩
  | 98 => ⟨S50000x64, .f32⟩
  | 99 => ⟨S1x64x64, .f32⟩
  | 100 => ⟨S64x64, .f32⟩
  | 101 => ⟨S1x64, .f32⟩
  | 102 => ⟨S50000x64, .f32⟩
  | 103 => ⟨S_, .i32⟩
  | 104 => ⟨S850000, .i32⟩
  | 105 => ⟨S850000, .i1⟩
  | 106 => ⟨S_, .i32⟩
  | 107 => ⟨S850000, .i32⟩
  | 108 => ⟨S850000, .i32⟩
  | 109 => ⟨S850000, .i32⟩
  | 110 => ⟨S850000x1, .i32⟩
  | 111 => ⟨S850000x64, .f32⟩
  | 112 => ⟨S850000x1, .f32⟩
  | 113 => ⟨S850000x64, .f32⟩
  | 114 => ⟨S850000x64, .f32⟩
  | 115 => ⟨S_, .f32⟩
  | 116 => ⟨S50000x64, .f32⟩
  | 117 => ⟨S850000x1, .i32⟩
  | 118 => ⟨S50000x64, .f32⟩
  | 119 => ⟨S1x64, .f32⟩
  | 120 => ⟨S64, .f32⟩
  | 121 => ⟨S1x64, .f32⟩
  | 122 => ⟨S50000x64, .f32⟩
  | 123 => ⟨S1x32, .f32⟩
  | 124 => ⟨S50000x32, .f32⟩
  | 125 => ⟨S1x1, .f32⟩
  | 126 => ⟨S50000x1, .f32⟩
  | 127 => ⟨S1x32, .f32⟩
  | _ => ⟨S50000x5, .f32⟩

abbrev hbmTy0_1 (i : Nat) : BufTy := match i % 128 with
  | 0 => ⟨S50000x32, .f32⟩
  | 1 => ⟨S1x1, .f32⟩
  | 2 => ⟨S50000x1, .f32⟩
  | _ => ⟨S50000x5, .f32⟩

abbrev hbmTy (i : Nat) : BufTy := match i / 128 with
  | 0 => hbmTy0_0 i
  | 1 => hbmTy0_1 i
  | _ => ⟨S50000x5, .f32⟩

abbrev bufTy : (tb : Table) → Fin (tcTables nBuf tb) → BufTy
  | .hbm, ⟨i, _⟩ => hbmTy i
  | .local _ .vmem, ⟨0, _⟩ => ⟨S5000x5, .f32⟩
  | .local _ .vmem, ⟨1, _⟩ => ⟨S5000x5, .f32⟩
  | .local _ .vmem, ⟨2, _⟩ => ⟨S5x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S1x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S64x64, .f32⟩
  | .local _ .vmem, ⟨20, _⟩ => ⟨S1x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S64x64, .f32⟩
  | .local _ .vmem, ⟨31, _⟩ => ⟨S1x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S1x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S64x32, .f32⟩
  | .local _ .vmem, ⟨42, _⟩ => ⟨S1x32, .f32⟩
  | .local _ .vmem, ⟨43, _⟩ => ⟨S5000x32, .f32⟩
  | .local _ .vmem, ⟨44, _⟩ => ⟨S5000x32, .f32⟩
  | .local _ .vmem, ⟨45, _⟩ => ⟨S5000x32, .f32⟩
  | .local _ .vmem, ⟨46, _⟩ => ⟨S5000x32, .f32⟩
  | .local _ .vmem, ⟨47, _⟩ => ⟨S32x1, .f32⟩
  | .local _ .vmem, ⟨48, _⟩ => ⟨S1x1, .f32⟩
  | .local _ .vmem, ⟨49, _⟩ => ⟨S5000x1, .f32⟩
  | .local _ .vmem, ⟨50, _⟩ => ⟨S5000x1, .f32⟩
  | .local _ .vmem, ⟨51, _⟩ => ⟨S5000x64, .f32⟩
  | .local _ .vmem, ⟨52, _⟩ => ⟨S5000x64, .f32⟩
  | .local _ .vmem, ⟨53, _⟩ => ⟨S64x32, .f32⟩
  | .local _ .vmem, ⟨54, _⟩ => ⟨S1x32, .f32⟩
  | .local _ .vmem, ⟨55, _⟩ => ⟨S5000x32, .f32⟩
  | .local _ .vmem, ⟨56, _⟩ => ⟨S5000x32, .f32⟩
  | .local _ .vmem, ⟨57, _⟩ => ⟨S5000x32, .f32⟩
  | .local _ .vmem, ⟨58, _⟩ => ⟨S5000x32, .f32⟩
  | .local _ .vmem, ⟨59, _⟩ => ⟨S32x1, .f32⟩
  | .local _ .vmem, ⟨60, _⟩ => ⟨S1x1, .f32⟩
  | .local _ .vmem, ⟨61, _⟩ => ⟨S5000x1, .f32⟩
  | .local _ .vmem, ⟨62, _⟩ => ⟨S5000x1, .f32⟩
  | _, _ => ⟨S50000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_2 : Ref sig .tc := ⟨.hbm, 37, rfl⟩
abbrev main_v19 : Ref sig .tc := ⟨.hbm, 38, rfl⟩
abbrev main_v20 : Ref sig .tc := ⟨.hbm, 39, rfl⟩
abbrev main_c_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_4 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_5 : Ref sig .tc := ⟨.hbm, 55, rfl⟩
abbrev main_v34 : Ref sig .tc := ⟨.hbm, 56, rfl⟩
abbrev main_v35 : Ref sig .tc := ⟨.hbm, 57, rfl⟩
abbrev main_c_6 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_7 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c_8 : Ref sig .tc := ⟨.hbm, 79, rfl⟩
abbrev main_v55 : Ref sig .tc := ⟨.hbm, 80, rfl⟩
abbrev main_v56 : Ref sig .tc := ⟨.hbm, 81, rfl⟩
abbrev main_c_9 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_10 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_c_11 : Ref sig .tc := ⟨.hbm, 103, rfl⟩
abbrev main_v76 : Ref sig .tc := ⟨.hbm, 104, rfl⟩
abbrev main_v77 : Ref sig .tc := ⟨.hbm, 105, rfl⟩
abbrev main_c_12 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_13 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg3_0 : Ref sig .tc := ⟨.vmem, 32, rfl⟩
abbrev cc5_stg3_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg2_0 : Ref sig .tc := ⟨.vmem, 37, rfl⟩
abbrev cc6_stg2_1 : Ref sig .tc := ⟨.vmem, 38, rfl⟩
abbrev cc7_stg0_0 : Ref sig .tc := ⟨.vmem, 39, rfl⟩
abbrev cc7_stg0_1 : Ref sig .tc := ⟨.vmem, 40, rfl⟩
abbrev cc7_stg1_0 : Ref sig .tc := ⟨.vmem, 41, rfl⟩
abbrev cc7_stg2_0 : Ref sig .tc := ⟨.vmem, 42, rfl⟩
abbrev cc7_stg3_0 : Ref sig .tc := ⟨.vmem, 43, rfl⟩
abbrev cc7_stg3_1 : Ref sig .tc := ⟨.vmem, 44, rfl⟩
abbrev cc8_stg0_0 : Ref sig .tc := ⟨.vmem, 45, rfl⟩
abbrev cc8_stg0_1 : Ref sig .tc := ⟨.vmem, 46, rfl⟩
abbrev cc8_stg1_0 : Ref sig .tc := ⟨.vmem, 47, rfl⟩
abbrev cc8_stg2_0 : Ref sig .tc := ⟨.vmem, 48, rfl⟩
abbrev cc8_stg3_0 : Ref sig .tc := ⟨.vmem, 49, rfl⟩
abbrev cc8_stg3_1 : Ref sig .tc := ⟨.vmem, 50, rfl⟩
abbrev cc9_stg0_0 : Ref sig .tc := ⟨.vmem, 51, rfl⟩
abbrev cc9_stg0_1 : Ref sig .tc := ⟨.vmem, 52, rfl⟩
abbrev cc9_stg1_0 : Ref sig .tc := ⟨.vmem, 53, rfl⟩
abbrev cc9_stg2_0 : Ref sig .tc := ⟨.vmem, 54, rfl⟩
abbrev cc9_stg3_0 : Ref sig .tc := ⟨.vmem, 55, rfl⟩
abbrev cc9_stg3_1 : Ref sig .tc := ⟨.vmem, 56, rfl⟩
abbrev cc10_stg0_0 : Ref sig .tc := ⟨.vmem, 57, rfl⟩
abbrev cc10_stg0_1 : Ref sig .tc := ⟨.vmem, 58, rfl⟩
abbrev cc10_stg1_0 : Ref sig .tc := ⟨.vmem, 59, rfl⟩
abbrev cc10_stg2_0 : Ref sig .tc := ⟨.vmem, 60, rfl⟩
abbrev cc10_stg3_0 : Ref sig .tc := ⟨.vmem, 61, rfl⟩
abbrev cc10_stg3_1 : Ref sig .tc := ⟨.vmem, 62, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem3_0 : DmaSem sig := 32
abbrev cc5_sem3_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem2_1 : DmaSem sig := 38
abbrev cc7_sem0_0 : DmaSem sig := 39
abbrev cc7_sem0_1 : DmaSem sig := 40
abbrev cc7_sem1_0 : DmaSem sig := 41
abbrev cc7_sem2_0 : DmaSem sig := 42
abbrev cc7_sem3_0 : DmaSem sig := 43
abbrev cc7_sem3_1 : DmaSem sig := 44
abbrev cc8_sem0_0 : DmaSem sig := 45
abbrev cc8_sem0_1 : DmaSem sig := 46
abbrev cc8_sem1_0 : DmaSem sig := 47
abbrev cc8_sem2_0 : DmaSem sig := 48
abbrev cc8_sem3_0 : DmaSem sig := 49
abbrev cc8_sem3_1 : DmaSem sig := 50
abbrev cc9_sem0_0 : DmaSem sig := 51
abbrev cc9_sem0_1 : DmaSem sig := 52
abbrev cc9_sem1_0 : DmaSem sig := 53
abbrev cc9_sem2_0 : DmaSem sig := 54
abbrev cc9_sem3_0 : DmaSem sig := 55
abbrev cc9_sem3_1 : DmaSem sig := 56
abbrev cc10_sem0_0 : DmaSem sig := 57
abbrev cc10_sem0_1 : DmaSem sig := 58
abbrev cc10_sem1_0 : DmaSem sig := 59
abbrev cc10_sem2_0 : DmaSem sig := 60
abbrev cc10_sem3_0 : DmaSem sig := 61
abbrev cc10_sem3_1 : DmaSem sig := 62

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x32 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x32 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x32 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x32 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S32x1 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x1 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S5000x1 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x32 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x32 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S5000x32 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x32 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S32x1 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x1 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S5000x1 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S_S64 : S_.BroadcastsInDim S64 (![] : Fin 0 → Fin S64.rank)
  shapeCasts_S64_S1x64 : S64.ShapeCasts S1x64
  inb_S5000x5_S5000x5_0_0 : ∀ a, (![0, 0] : Fin 2 → Nat) a + S5000x5.size a ≤ S5000x5.size a
  h_S5000x5 : 0 < S5000x5.numel
  bitsLt_bf16_f32 : FTy.bits .bf16 < FTy.bits .f32
  inb_S5x64_S5x64_0_0 : ∀ a, (![0, 0] : Fin 2 → Nat) a + S5x64.size a ≤ S5x64.size a
  h_S5x64 : 0 < S5x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  slices_S3x64x64_S1x64x64_0_0_0 : S3x64x64.Slices ![0, 0, 0] S1x64x64
  shapeCasts_S1x64x64_S64x64 : S1x64x64.ShapeCasts S64x64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  slices_S3x64_S1x64_0_0 : S3x64.Slices ![0, 0] S1x64
  shapeCasts_S1x64_S64 : S1x64.ShapeCasts S64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  shapeCasts_S32_S1x32 : S32.ShapeCasts S1x32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  shapeCasts_S1_S1x1 : S1.ShapeCasts S1x1
  shapeCasts_S5000x32_S5000x32 : S5000x32.ShapeCasts S5000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x5_S5x64_S5000x64_1_0_0_1_n_n_wf : DotDims.WF S5000x5 S5x64 S5000x64 [1] [0] [0] [1] [] []
  dot_S5000x64_S64x64_S5000x64_1_0_0_1_n_n_wf : DotDims.WF S5000x64 S64x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x32_S5000x32_1_0_0_1_n_n_wf : DotDims.WF S5000x64 S64x32 S5000x32 [1] [0] [0] [1] [] []
  dot_S5000x32_S32x1_S5000x1_1_0_0_1_n_n_wf : DotDims.WF S5000x32 S32x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x5.size a ≤ S50000x5.size a
  hwx0_0 : ∀ i : grid0.Coords, EltTy.bits .f32 = 32 ∨ (Rect.block (s := S50000x5) S5000x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x64.size a ≤ S5x64.size a
  hwx0_1 : ∀ i : grid0.Coords, EltTy.bits .f32 = 32 ∨ (Rect.block (s := S5x64) S5x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S50000x64.size a
  hwx5_3 : ∀ i : grid5.Coords, EltTy.bits .f32 = 32 ∨ (Rect.block (s := S50000x64) S5000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x64.size a ≤ S1x64.size a
  hwx6_1 : ∀ i : grid6.Coords, EltTy.bits .f32 = 32 ∨ (Rect.block (s := S1x64) S1x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S50000x64.size a
  hwx6_2 : ∀ i : grid6.Coords, EltTy.bits .f32 = 32 ∨ (Rect.block (s := S50000x64) S5000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S50000x64.size a
  hwx7_0 : ∀ i : grid7.Coords, EltTy.bits .f32 = 32 ∨ (Rect.block (s := S50000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x32.size a ≤ S64x32.size a
  hwx7_1 : ∀ i : grid7.Coords, EltTy.bits .f32 = 32 ∨ (Rect.block (s := S64x32) S64x32.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x32.size a ≤ S1x32.size a
  hwx7_2 : ∀ i : grid7.Coords, EltTy.bits .f32 = 32 ∨ (Rect.block (s := S1x32) S1x32.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x32.size a ≤ S50000x32.size a
  hwx7_3 : ∀ i : grid7.Coords, EltTy.bits .f32 = 32 ∨ (Rect.block (s := S50000x32) S5000x32.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x32.size a ≤ S50000x32.size a
  hwx8_0 : ∀ i : grid8.Coords, EltTy.bits .f32 = 32 ∨ (Rect.block (s := S50000x32) S5000x32.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S32x1.size a ≤ S32x1.size a
  hwx8_1 : ∀ i : grid8.Coords, EltTy.bits .f32 = 32 ∨ (Rect.block (s := S32x1) S32x1.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x1.size a ≤ S1x1.size a
  hwx8_2 : ∀ i : grid8.Coords, EltTy.bits .f32 = 32 ∨ (Rect.block (s := S1x1) S1x1.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x1.size a ≤ S50000x1.size a
  hwx8_3 : ∀ i : grid8.Coords, EltTy.bits .f32 = 32 ∨ (Rect.block (s := S50000x1) S5000x1.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S50000x64.size a
  hwx9_0 : ∀ i : grid9.Coords, EltTy.bits .f32 = 32 ∨ (Rect.block (s := S50000x64) S5000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x32.size a ≤ S64x32.size a
  hwx9_1 : ∀ i : grid9.Coords, EltTy.bits .f32 = 32 ∨ (Rect.block (s := S64x32) S64x32.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x32.size a ≤ S1x32.size a
  hwx9_2 : ∀ i : grid9.Coords, EltTy.bits .f32 = 32 ∨ (Rect.block (s := S1x32) S1x32.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x32.size a ≤ S50000x32.size a
  hwx9_3 : ∀ i : grid9.Coords, EltTy.bits .f32 = 32 ∨ (Rect.block (s := S50000x32) S5000x32.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x32.size a ≤ S50000x32.size a
  hwx10_0 : ∀ i : grid10.Coords, EltTy.bits .f32 = 32 ∨ (Rect.block (s := S50000x32) S5000x32.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S32x1.size a ≤ S32x1.size a
  hwx10_1 : ∀ i : grid10.Coords, EltTy.bits .f32 = 32 ∨ (Rect.block (s := S32x1) S32x1.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x1.size a ≤ S1x1.size a
  hwx10_2 : ∀ i : grid10.Coords, EltTy.bits .f32 = 32 ∨ (Rect.block (s := S1x1) S1x1.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S5000x1.size a ≤ S50000x1.size a
  hwx10_3 : ∀ i : grid10.Coords, EltTy.bits .f32 = 32 ∨ (Rect.block (s := S50000x1) S5000x1.size (cc10_transform_3 i) (hinb10_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x5_S5x64_S5000x64_1_0_0_1_n_n : DotDims S5000x5 S5x64 S5000x64 where
  lhsContracting := [1]
  rhsContracting := [0]
  lhsNonContracting := [0]
  rhsNonContracting := [1]
  lhsBatch := []
  rhsBatch := []
  wf := dot_S5000x5_S5x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf

abbrev win0_0 : Pipeline.Window sig grid0 :=
  Pipeline.Window.ofSpec (Memref.whole main_arg0) S5000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S5x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v46) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v50) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v53) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v54) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v67) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v70) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v71) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v71) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v73) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v74) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v75) S5000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v88) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v91) S1x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v92) S5000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v92) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg6) S64x32.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v93) S1x32.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v94) S5000x32.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v94) S5000x32.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg8) S32x1.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v95) S1x1.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v96) S5000x1.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v92) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg10) S64x32.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v97) S1x32.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v98) S5000x32.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v98) S5000x32.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg12) S32x1.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v99) S1x1.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v100) S5000x1.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

class Facts : Prop extends Facts₀ where

variable [Facts]
-- ==== ReferenceIdeal.lean ====
abbrev S50000x5 : Shape := ⟨2, ![50000, 5]⟩
abbrev S2x800000 : Shape := ⟨2, ![2, 800000]⟩
abbrev S5x64 : Shape := ⟨2, ![5, 64]⟩
abbrev S64 : Shape := ⟨1, ![64]⟩
abbrev S3x64x64 : Shape := ⟨3, ![3, 64, 64]⟩
abbrev S3x64 : Shape := ⟨2, ![3, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S1x64 : Shape := ⟨2, ![1, 64]⟩
abbrev S1x64x64 : Shape := ⟨3, ![1, 64, 64]⟩
abbrev S64x64 : Shape := ⟨2, ![64, 64]⟩
abbrev S850000x64 : Shape := ⟨2, ![850000, 64]⟩
abbrev S50000x32 : Shape := ⟨2, ![50000, 32]⟩
abbrev S1x32 : Shape := ⟨2, ![1, 32]⟩
abbrev S50000x1 : Shape := ⟨2, ![50000, 1]⟩
abbrev S1x1 : Shape := ⟨2, ![1, 1]⟩

abbrev nBuf : Space → Nat
  | .hbm => 157
  | .vmem => 0
  | .smem => 0
  | _ => 0

abbrev hbmTy0_0 (i : Nat) : BufTy := match i % 128 with
  | 0 => ⟨S50000x5, .f32⟩
  | 1 => ⟨S2x800000, .i32⟩
  | 2 => ⟨S5x64, .f32⟩
  | 3 => ⟨S64, .f32⟩
  | 4 => ⟨S3x64x64, .f32⟩
  | 5 => ⟨S3x64, .f32⟩
  | 6 => ⟨S64x32, .f32⟩
  | 7 => ⟨S32, .f32⟩
  | 8 => ⟨S32x1, .f32⟩
  | 9 => ⟨S1, .f32⟩
  | 10 => ⟨S64x32, .f32⟩
  | 11 => ⟨S32, .f32⟩
  | 12 => ⟨S32x1, .f32⟩
  | 13 => ⟨S1, .f32⟩
  | 14 => ⟨S50000, .i32⟩
  | 15 => ⟨S1x800000, .i32⟩
  | 16 => ⟨S800000, .i32⟩
  | 17 => ⟨S850000, .i32⟩
  | 18 => ⟨S1x800000, .i32⟩
  | 19 => ⟨S800000, .i32⟩
  | 20 => ⟨S850000, .i32⟩
  | 21 => ⟨S_, .f32⟩
  | 22 => ⟨S850000, .f32⟩
  | 23 => ⟨S_, .f32⟩
  | 24 => ⟨S50000, .f32⟩
  | 25 => ⟨S850000x1, .i32⟩
  | 26 => ⟨S50000, .f32⟩
  | 27 => ⟨S50000, .f32⟩
  | 28 => ⟨S_, .i32⟩
  | 29 => ⟨S850000, .i32⟩
  | 30 => ⟨S850000, .i1⟩
  | 31 => ⟨S_, .i32⟩
  | 32 => ⟨S850000, .i32⟩
  | 33 => ⟨S850000, .i32⟩
  | 34 => ⟨S850000, .i32⟩
  | 35 => ⟨S850000x1, .i32⟩
  | 36 => ⟨S850000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S850000, .f32⟩
  | 47 => ⟨S50000x64, .f32⟩
  | 48 => ⟨S1x64, .f32⟩
  | 49 => ⟨S50000x64, .f32⟩
  | 50 => ⟨S50000x64, .f32⟩
  | 51 => ⟨S_, .f32⟩
  | 52 => ⟨S50000x64, .f32⟩
  | 53 => ⟨S50000x64, .f32⟩
  | 54 => ⟨S1x64x64, .f32⟩
  | 55 => ⟨S64x64, .f32⟩
  | 56 => ⟨S50000x64, .f32⟩
  | 57 => ⟨S_, .i32⟩
  | 58 => ⟨S850000, .i32⟩
  | 59 => ⟨S850000, .i1⟩
  | 60 => ⟨S_, .i32⟩
  | 61 => ⟨S850000, .i32⟩
  | 62 => ⟨S850000, .i32⟩
  | 63 => ⟨S850000, .i32⟩
  | 64 => ⟨S850000x1, .i32⟩
  | 65 => ⟨S850000x64, .f32⟩
  | 66 => ⟨S850000x1, .f32⟩
  | 67 => ⟨S850000x64, .f32⟩
  | 68 => ⟨S850000x64, .f32⟩
  | 69 => ⟨S_, .f32⟩
  | 70 => ⟨S50000x64, .f32⟩
  | 71 => ⟨S850000x1, .i32⟩
  | 72 => ⟨S50000x64, .f32⟩
  | 73 => ⟨S1x64, .f32⟩
  | 74 => ⟨S64, .f32⟩
  | 75 => ⟨S1x64, .f32⟩
  | 76 => ⟨S50000x64, .f32⟩
  | 77 => ⟨S50000x64, .f32⟩
  | 78 => ⟨S_, .f32⟩
  | 79 => ⟨S50000x64, .f32⟩
  | 80 => ⟨S50000x64, .f32⟩
  | 81 => ⟨S1x64x64, .f32⟩
  | 82 => ⟨S64x64, .f32⟩
  | 83 => ⟨S50000x64, .f32⟩
  | 84 => ⟨S_, .i32⟩
  | 85 => ⟨S850000, .i32⟩
  | 86 => ⟨S850000, .i1⟩
  | 87 => ⟨S_, .i32⟩
  | 88 => ⟨S850000, .i32⟩
  | 89 => ⟨S850000, .i32⟩
  | 90 => ⟨S850000, .i32⟩
  | 91 => ⟨S850000x1, .i32⟩
  | 92 => ⟨S850000x64, .f32⟩
  | 93 => ⟨S850000x1, .f32⟩
  | 94 => ⟨S850000x64, .f32⟩
  | 95 => ⟨S850000x64, .f32⟩
  | 96 => ⟨S_, .f32⟩
  | 97 => ⟨S50000x64, .f32⟩
  | 98 => ⟨S850000x1, .i32⟩
  | 99 => ⟨S50000x64, .f32⟩
  | 100 => ⟨S1x64, .f32⟩
  | 101 => ⟨S64, .f32⟩
  | 102 => ⟨S1x64, .f32⟩
  | 103 => ⟨S50000x64, .f32⟩
  | 104 => ⟨S50000x64, .f32⟩
  | 105 => ⟨S_, .f32⟩
  | 106 => ⟨S50000x64, .f32⟩
  | 107 => ⟨S50000x64, .f32⟩
  | 108 => ⟨S1x64x64, .f32⟩
  | 109 => ⟨S64x64, .f32⟩
  | 110 => ⟨S50000x64, .f32⟩
  | 111 => ⟨S_, .i32⟩
  | 112 => ⟨S850000, .i32⟩
  | 113 => ⟨S850000, .i1⟩
  | 114 => ⟨S_, .i32⟩
  | 115 => ⟨S850000, .i32⟩
  | 116 => ⟨S850000, .i32⟩
  | 117 => ⟨S850000, .i32⟩
  | 118 => ⟨S850000x1, .i32⟩
  | 119 => ⟨S850000x64, .f32⟩
  | 120 => ⟨S850000x1, .f32⟩
  | 121 => ⟨S850000x64, .f32⟩
  | 122 => ⟨S850000x64, .f32⟩
  | 123 => ⟨S_, .f32⟩
  | 124 => ⟨S50000x64, .f32⟩
  | 125 => ⟨S850000x1, .i32⟩
  | 126 => ⟨S50000x64, .f32⟩
  | 127 => ⟨S1x64, .f32⟩
  | _ => ⟨S50000x5, .f32⟩

abbrev hbmTy0_1 (i : Nat) : BufTy := match i % 128 with
  | 0 => ⟨S64, .f32⟩
  | 1 => ⟨S1x64, .f32⟩
  | 2 => ⟨S50000x64, .f32⟩
  | 3 => ⟨S50000x64, .f32⟩
  | 4 => ⟨S_, .f32⟩
  | 5 => ⟨S50000x64, .f32⟩
  | 6 => ⟨S50000x64, .f32⟩
  | 7 => ⟨S50000x32, .f32⟩
  | 8 => ⟨S1x32, .f32⟩
  | 9 => ⟨S50000x32, .f32⟩
  | 10 => ⟨S50000x32, .f32⟩
  | 11 => ⟨S_, .f32⟩
  | 12 => ⟨S50000x32, .f32⟩
  | 13 => ⟨S50000x32, .f32⟩
  | 14 => ⟨S50000x1, .f32⟩
  | 15 => ⟨S1x1, .f32⟩
  | 16 => ⟨S50000x1, .f32⟩
  | 17 => ⟨S50000x1, .f32⟩
  | 18 => ⟨S50000x32, .f32⟩
  | 19 => ⟨S1x32, .f32⟩
  | 20 => ⟨S50000x32, .f32⟩
  | 21 => ⟨S50000x32, .f32⟩
  | 22 => ⟨S_, .f32⟩
  | 23 => ⟨S50000x32, .f32⟩
  | 24 => ⟨S50000x32, .f32⟩
  | 25 => ⟨S50000x1, .f32⟩
  | 26 => ⟨S1x1, .f32⟩
  | 27 => ⟨S50000x1, .f32⟩
  | 28 => ⟨S50000x1, .f32⟩
  | _ => ⟨S50000x5, .f32⟩

abbrev hbmTy (i : Nat) : BufTy := match i / 128 with
  | 0 => hbmTy0_0 i
  | 1 => hbmTy0_1 i
  | _ => ⟨S50000x5, .f32⟩

abbrev bufTy : (tb : Table) → Fin (tcTables nBuf tb) → BufTy
  | .hbm, ⟨i, _⟩ => hbmTy i
  | _, _ => ⟨S50000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_2 : Ref sig .tc := ⟨.hbm, 37, rfl⟩
abbrev main_v19 : Ref sig .tc := ⟨.hbm, 38, rfl⟩
abbrev main_v20 : Ref sig .tc := ⟨.hbm, 39, rfl⟩
abbrev main_c_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call0_cst : Ref sig .tc := ⟨.hbm, 51, rfl⟩
abbrev main_call0_v0 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_4 : Ref sig .tc := ⟨.hbm, 57, rfl⟩
abbrev main_v35 : Ref sig .tc := ⟨.hbm, 58, rfl⟩
abbrev main_v36 : Ref sig .tc := ⟨.hbm, 59, rfl⟩
abbrev main_c_5 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_6 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call1_cst : Ref sig .tc := ⟨.hbm, 78, rfl⟩
abbrev main_call1_v0 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_c_7 : Ref sig .tc := ⟨.hbm, 84, rfl⟩
abbrev main_v57 : Ref sig .tc := ⟨.hbm, 85, rfl⟩
abbrev main_v58 : Ref sig .tc := ⟨.hbm, 86, rfl⟩
abbrev main_c_8 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_9 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_call2_cst : Ref sig .tc := ⟨.hbm, 105, rfl⟩
abbrev main_call2_v0 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_10 : Ref sig .tc := ⟨.hbm, 111, rfl⟩
abbrev main_v79 : Ref sig .tc := ⟨.hbm, 112, rfl⟩
abbrev main_v80 : Ref sig .tc := ⟨.hbm, 113, rfl⟩
abbrev main_c_11 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_12 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_call3_cst : Ref sig .tc := ⟨.hbm, 132, rfl⟩
abbrev main_call3_v0 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_call4_cst : Ref sig .tc := ⟨.hbm, 139, rfl⟩
abbrev main_call4_v0 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_call5_cst : Ref sig .tc := ⟨.hbm, 150, rfl⟩
abbrev main_call5_v0 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  slices_S3x64x64_S1x64x64_0_0_0 : S3x64x64.Slices ![0, 0, 0] S1x64x64
  shapeCasts_S1x64x64_S64x64 : S1x64x64.ShapeCasts S64x64
  bcast_S850000x1_S850000x64_0_1 : S850000x1.BroadcastsInDim S850000x64 (![0, 1] : Fin 2 → Fin S850000x64.rank)
  slices_S3x64_S1x64_0_0 : S3x64.Slices ![0, 0] S1x64
  shapeCasts_S1x64_S64 : S1x64.ShapeCasts S64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x32 : S_.BroadcastsInDim S50000x32 (![] : Fin 0 → Fin S50000x32.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x5_S5x64_S50000x64_1_0_0_1_n_n_wf : DotDims.WF S50000x5 S5x64 S50000x64 [1] [0] [0] [1] [] []
  dot_S50000x64_S64x64_S50000x64_1_0_0_1_n_n_wf : DotDims.WF S50000x64 S64x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x32_S50000x32_1_0_0_1_n_n_wf : DotDims.WF S50000x64 S64x32 S50000x32 [1] [0] [0] [1] [] []
  dot_S50000x32_S32x1_S50000x1_1_0_0_1_n_n_wf : DotDims.WF S50000x32 S32x1 S50000x1 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x5_S5x64_S50000x64_1_0_0_1_n_n : DotDims S50000x5 S5x64 S50000x64 where
  lhsContracting := [1]
  rhsContracting := [0]
  lhsNonContracting := [0]
  rhsNonContracting := [1]
  lhsBatch := []
  rhsBatch := []
  wf := dot_S50000x5_S5x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def dot_S50000x32_S32x1_S50000x1_1_0_0_1_n_n : DotDims S50000x32 S32x1 S50000x1 where
  lhsContracting := [1]
  rhsContracting := [0]
  lhsNonContracting := [0]
  rhsNonContracting := [1]
  lhsBatch := []
  rhsBatch := []
  wf := dot_S50000x32_S32x1_S50000x1_1_0_0_1_n_n_wf

class Facts : Prop extends Facts₀ where

variable [Facts]
-- ==== Proof.KernelRun.lean ====
/-
  The idealized kernel's run with its two result buffers named.  The program is eleven pipelined regions among
  stretches of host operations; the buffer contents at each boundary are a fold from the launch memory (the
  valuations `W0 … W22` of the generated frame module).  Here the same launch is read once more at the end, now
  also at the two result buffers: after every weakly fair execution the buffers `main_v96` (demand) and
  `main_v100` (inventory) hold what the last boundary's valuation `W22` holds there, and the arguments are unchanged.
-/
import proofs.«166900_j88373247083004_1_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel terminates without a fault; the two result buffers end at the
    last boundary's contents, and every argument array ends as launched. -/
theorem run_vals : θ_run defs (onTc (τ := τ) (main (F := F))) ⟨m, fun _ => 0, ρ⟩ (fun r => ∀ c : Dev nD,
      r.2.mem ((c.tc : Thread nD τ).loc main_v96) = W22 m ρ c (Proc.devRef .tc main_v96)
      ∧ r.2.mem ((c.tc : Thread nD τ).loc main_v100) = W22 m ρ c (Proc.devRef .tc main_v100)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c =>
      ⟨h c _ (mem_uc main_v96 (by decide)),
       h c _ (mem_uc main_v100 (by decide)),
       (h c _ (mem_uc main_arg0 (by decide))).trans (W22_main_arg0 m ρ c),
       (h c _ (mem_uc main_arg1 (by decide))).trans (W22_main_arg1 m ρ c),
       (h c _ (mem_uc main_arg2 (by decide))).trans (W22_main_arg2 m ρ c),
       (h c _ (mem_uc main_arg3 (by decide))).trans (W22_main_arg3 m ρ c),
       (h c _ (mem_uc main_arg4 (by decide))).trans (W22_main_arg4 m ρ c),
       (h c _ (mem_uc main_arg5 (by decide))).trans (W22_main_arg5 m ρ c),
       (h c _ (mem_uc main_arg6 (by decide))).trans (W22_main_arg6 m ρ c),
       (h c _ (mem_uc main_arg7 (by decide))).trans (W22_main_arg7 m ρ c),
       (h c _ (mem_uc main_arg8 (by decide))).trans (W22_main_arg8 m ρ c),
       (h c _ (mem_uc main_arg9 (by decide))).trans (W22_main_arg9 m ρ c),
       (h c _ (mem_uc main_arg10 (by decide))).trans (W22_main_arg10 m ρ c),
       (h c _ (mem_uc main_arg11 (by decide))).trans (W22_main_arg11 m ρ c),
       (h c _ (mem_uc main_arg12 (by decide))).trans (W22_main_arg12 m ρ c),
       (h c _ (mem_uc main_arg13 (by decide))).trans (W22_main_arg13 m ρ c)⟩)

end Cert.KernelIdeal.RunV

end
-- ==== Proof.WalkLib.lean ====
/-
  How a buffer's contents travel through the idealized kernel's run.  The run alternates stretches of host operations
  and pipelined regions; the generated frame module names the buffer contents at each of the 23 boundaries
  (`W0 … W22`).  A host stretch changes only the buffers its operations write; a region changes only its output array.
  So a buffer that nobody writes between two boundaries holds the same contents at both: the lemmas here are the single
  steps of that walk.
-/
import proofs.«166900_j88373247083004_1_alg».proof.Proof.Gen.KernelIdeal.Frame

set_option maxRecDepth 16384

noncomputable section

namespace Cert.KernelIdeal.Chain

open Cert.KernelIdeal Cert.KernelIdeal.Gen Idealize.ShloMosaic Idealize.ShloMosaic.TcCoe Idealize.SL.Sem
open Idealize.ShloMosaic.Pipeline (Dat)

/-- A stretch of host operations leaves a buffer that none of them writes as it was: the stretch's list is opened and each
    operation's written buffer is told apart from the buffer in hand. -/
macro "host_keep " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

variable {F : FTy → Type} [FloatOps F]
variable (m : (ℓ : Loc nD τ sig) → Buf (Elt F) ℓ) (ρ : Dev nD → PrngReg)

/-- Region 0 changes only its output array: any other buffer leaves the region as it entered (an input array is staged
    and never written back; a buffer outside the region's windows is not touched). -/
theorem reg_step0 (c : Dev nD) (b : Ref sig .tc) (hb : b ≠ main_v29) :
    W2 m ρ c (Proc.devRef .tc b) = W1 m ρ c (Proc.devRef .tc b) := by
  by_cases h : ∃ w, Pipeline.arrRef spec0 w = b
  · obtain ⟨w, rfl⟩ := h
    match w with
    | ⟨0, _⟩ => exact (W2_arr m ρ c 0).trans (((dat0 (V1 m ρ) c).arrAt_in 0 rfl _).trans (A_eq0 (V1 m ρ) c 0))
    | ⟨1, _⟩ => exact (W2_arr m ρ c 1).trans (((dat0 (V1 m ρ) c).arrAt_in 1 rfl _).trans (A_eq0 (V1 m ρ) c 1))
    | ⟨2, _⟩ => exact (W2_arr m ρ c 2).trans (((dat0 (V1 m ρ) c).arrAt_in 2 rfl _).trans (A_eq0 (V1 m ρ) c 2))
    | ⟨3, _⟩ => exact absurd rfl hb
  · exact W2_of_ne m ρ c b (fun w e => h ⟨w, e⟩)

/-- Region 1 changes only its output array: any other buffer leaves the region as it entered (an input array is staged
    and never written back; a buffer outside the region's windows is not touched). -/
theorem reg_step1 (c : Dev nD) (b : Ref sig .tc) (hb : b ≠ main_v33) :
    W4 m ρ c (Proc.devRef .tc b) = W3 m ρ c (Proc.devRef .tc b) := by
  by_cases h : ∃ w, Pipeline.arrRef spec1 w = b
  · obtain ⟨w, rfl⟩ := h
    match w with
    | ⟨0, _⟩ => exact (W4_arr m ρ c 0).trans (((dat1 (V3 m ρ) c).arrAt_in 0 rfl _).trans (A_eq1 (V3 m ρ) c 0))
    | ⟨1, _⟩ => exact (W4_arr m ρ c 1).trans (((dat1 (V3 m ρ) c).arrAt_in 1 rfl _).trans (A_eq1 (V3 m ρ) c 1))
    | ⟨2, _⟩ => exact (W4_arr m ρ c 2).trans (((dat1 (V3 m ρ) c).arrAt_in 2 rfl _).trans (A_eq1 (V3 m ρ) c 2))
    | ⟨3, _⟩ => exact absurd rfl hb
  · exact W4_of_ne m ρ c b (fun w e => h ⟨w, e⟩)

/-- Region 2 changes only its output array: any other buffer leaves the region as it entered (an input array is staged
    and never written back; a buffer outside the region's windows is not touched). -/
theorem reg_step2 (c : Dev nD) (b : Ref sig .tc) (hb : b ≠ main_v50) :
    W6 m ρ c (Proc.devRef .tc b) = W5 m ρ c (Proc.devRef .tc b) := by
  by_cases h : ∃ w, Pipeline.arrRef spec2 w = b
  · obtain ⟨w, rfl⟩ := h
    match w with
    | ⟨0, _⟩ => exact (W6_arr m ρ c 0).trans (((dat2 (V5 m ρ) c).arrAt_in 0 rfl _).trans (A_eq2 (V5 m ρ) c 0))
    | ⟨1, _⟩ => exact (W6_arr m ρ c 1).trans (((dat2 (V5 m ρ) c).arrAt_in 1 rfl _).trans (A_eq2 (V5 m ρ) c 1))
    | ⟨2, _⟩ => exact absurd rfl hb
  · exact W6_of_ne m ρ c b (fun w e => h ⟨w, e⟩)

/-- Region 3 changes only its output array: any other buffer leaves the region as it entered (an input array is staged
    and never written back; a buffer outside the region's windows is not touched). -/
theorem reg_step3 (c : Dev nD) (b : Ref sig .tc) (hb : b ≠ main_v54) :
    W8 m ρ c (Proc.devRef .tc b) = W7 m ρ c (Proc.devRef .tc b) := by
  by_cases h : ∃ w, Pipeline.arrRef spec3 w = b
  · obtain ⟨w, rfl⟩ := h
    match w with
    | ⟨0, _⟩ => exact (W8_arr m ρ c 0).trans (((dat3 (V7 m ρ) c).arrAt_in 0 rfl _).trans (A_eq3 (V7 m ρ) c 0))
    | ⟨1, _⟩ => exact (W8_arr m ρ c 1).trans (((dat3 (V7 m ρ) c).arrAt_in 1 rfl _).trans (A_eq3 (V7 m ρ) c 1))
    | ⟨2, _⟩ => exact (W8_arr m ρ c 2).trans (((dat3 (V7 m ρ) c).arrAt_in 2 rfl _).trans (A_eq3 (V7 m ρ) c 2))
    | ⟨3, _⟩ => exact absurd rfl hb
  · exact W8_of_ne m ρ c b (fun w e => h ⟨w, e⟩)

/-- Region 4 changes only its output array: any other buffer leaves the region as it entered (an input array is staged
    and never written back; a buffer outside the region's windows is not touched). -/
theorem reg_step4 (c : Dev nD) (b : Ref sig .tc) (hb : b ≠ main_v71) :
    W10 m ρ c (Proc.devRef .tc b) = W9 m ρ c (Proc.devRef .tc b) := by
  by_cases h : ∃ w, Pipeline.arrRef spec4 w = b
  · obtain ⟨w, rfl⟩ := h
    match w with
    | ⟨0, _⟩ => exact (W10_arr m ρ c 0).trans (((dat4 (V9 m ρ) c).arrAt_in 0 rfl _).trans (A_eq4 (V9 m ρ) c 0))
    | ⟨1, _⟩ => exact (W10_arr m ρ c 1).trans (((dat4 (V9 m ρ) c).arrAt_in 1 rfl _).trans (A_eq4 (V9 m ρ) c 1))
    | ⟨2, _⟩ => exact absurd rfl hb
  · exact W10_of_ne m ρ c b (fun w e => h ⟨w, e⟩)

/-- Region 5 changes only its output array: any other buffer leaves the region as it entered (an input array is staged
    and never written back; a buffer outside the region's windows is not touched). -/
theorem reg_step5 (c : Dev nD) (b : Ref sig .tc) (hb : b ≠ main_v75) :
    W12 m ρ c (Proc.devRef .tc b) = W11 m ρ c (Proc.devRef .tc b) := by
  by_cases h : ∃ w, Pipeline.arrRef spec5 w = b
  · obtain ⟨w, rfl⟩ := h
    match w with
    | ⟨0, _⟩ => exact (W12_arr m ρ c 0).trans (((dat5 (V11 m ρ) c).arrAt_in 0 rfl _).trans (A_eq5 (V11 m ρ) c 0))
    | ⟨1, _⟩ => exact (W12_arr m ρ c 1).trans (((dat5 (V11 m ρ) c).arrAt_in 1 rfl _).trans (A_eq5 (V11 m ρ) c 1))
    | ⟨2, _⟩ => exact (W12_arr m ρ c 2).trans (((dat5 (V11 m ρ) c).arrAt_in 2 rfl _).trans (A_eq5 (V11 m ρ) c 2))
    | ⟨3, _⟩ => exact absurd rfl hb
  · exact W12_of_ne m ρ c b (fun w e => h ⟨w, e⟩)

/-- Region 6 changes only its output array: any other buffer leaves the region as it entered (an input array is staged
    and never written back; a buffer outside the region's windows is not touched). -/
theorem reg_step6 (c : Dev nD) (b : Ref sig .tc) (hb : b ≠ main_v92) :
    W14 m ρ c (Proc.devRef .tc b) = W13 m ρ c (Proc.devRef .tc b) := by
  by_cases h : ∃ w, Pipeline.arrRef spec6 w = b
  · obtain ⟨w, rfl⟩ := h
    match w with
    | ⟨0, _⟩ => exact (W14_arr m ρ c 0).trans (((dat6 (V13 m ρ) c).arrAt_in 0 rfl _).trans (A_eq6 (V13 m ρ) c 0))
    | ⟨1, _⟩ => exact (W14_arr m ρ c 1).trans (((dat6 (V13 m ρ) c).arrAt_in 1 rfl _).trans (A_eq6 (V13 m ρ) c 1))
    | ⟨2, _⟩ => exact absurd rfl hb
  · exact W14_of_ne m ρ c b (fun w e => h ⟨w, e⟩)

/-- Region 7 changes only its output array: any other buffer leaves the region as it entered (an input array is staged
    and never written back; a buffer outside the region's windows is not touched). -/
theorem reg_step7 (c : Dev nD) (b : Ref sig .tc) (hb : b ≠ main_v94) :
    W16 m ρ c (Proc.devRef .tc b) = W15 m ρ c (Proc.devRef .tc b) := by
  by_cases h : ∃ w, Pipeline.arrRef spec7 w = b
  · obtain ⟨w, rfl⟩ := h
    match w with
    | ⟨0, _⟩ => exact (W16_arr m ρ c 0).trans (((dat7 (V15 m ρ) c).arrAt_in 0 rfl _).trans (A_eq7 (V15 m ρ) c 0))
    | ⟨1, _⟩ => exact (W16_arr m ρ c 1).trans (((dat7 (V15 m ρ) c).arrAt_in 1 rfl _).trans (A_eq7 (V15 m ρ) c 1))
    | ⟨2, _⟩ => exact (W16_arr m ρ c 2).trans (((dat7 (V15 m ρ) c).arrAt_in 2 rfl _).trans (A_eq7 (V15 m ρ) c 2))
    | ⟨3, _⟩ => exact absurd rfl hb
  · exact W16_of_ne m ρ c b (fun w e => h ⟨w, e⟩)

/-- Region 8 changes only its output array: any other buffer leaves the region as it entered (an input array is staged
    and never written back; a buffer outside the region's windows is not touched). -/
theorem reg_step8 (c : Dev nD) (b : Ref sig .tc) (hb : b ≠ main_v96) :
    W18 m ρ c (Proc.devRef .tc b) = W17 m ρ c (Proc.devRef .tc b) := by
  by_cases h : ∃ w, Pipeline.arrRef spec8 w = b
  · obtain ⟨w, rfl⟩ := h
    match w with
    | ⟨0, _⟩ => exact (W18_arr m ρ c 0).trans (((dat8 (V17 m ρ) c).arrAt_in 0 rfl _).trans (A_eq8 (V17 m ρ) c 0))
    | ⟨1, _⟩ => exact (W18_arr m ρ c 1).trans (((dat8 (V17 m ρ) c).arrAt_in 1 rfl _).trans (A_eq8 (V17 m ρ) c 1))
    | ⟨2, _⟩ => exact (W18_arr m ρ c 2).trans (((dat8 (V17 m ρ) c).arrAt_in 2 rfl _).trans (A_eq8 (V17 m ρ) c 2))
    | ⟨3, _⟩ => exact absurd rfl hb
  · exact W18_of_ne m ρ c b (fun w e => h ⟨w, e⟩)

/-- Region 9 changes only its output array: any other buffer leaves the region as it entered (an input array is staged
    and never written back; a buffer outside the region's windows is not touched). -/
theorem reg_step9 (c : Dev nD) (b : Ref sig .tc) (hb : b ≠ main_v98) :
    W20 m ρ c (Proc.devRef .tc b) = W19 m ρ c (Proc.devRef .tc b) := by
  by_cases h : ∃ w, Pipeline.arrRef spec9 w = b
  · obtain ⟨w, rfl⟩ := h
    match w with
    | ⟨0, _⟩ => exact (W20_arr m ρ c 0).trans (((dat9 (V19 m ρ) c).arrAt_in 0 rfl _).trans (A_eq9 (V19 m ρ) c 0))
    | ⟨1, _⟩ => exact (W20_arr m ρ c 1).trans (((dat9 (V19 m ρ) c).arrAt_in 1 rfl _).trans (A_eq9 (V19 m ρ) c 1))
    | ⟨2, _⟩ => exact (W20_arr m ρ c 2).trans (((dat9 (V19 m ρ) c).arrAt_in 2 rfl _).trans (A_eq9 (V19 m ρ) c 2))
    | ⟨3, _⟩ => exact absurd rfl hb
  · exact W20_of_ne m ρ c b (fun w e => h ⟨w, e⟩)

/-- Region 10 changes only its output array: any other buffer leaves the region as it entered (an input array is staged
    and never written back; a buffer outside the region's windows is not touched). -/
theorem reg_step10 (c : Dev nD) (b : Ref sig .tc) (hb : b ≠ main_v100) :
    W22 m ρ c (Proc.devRef .tc b) = W21 m ρ c (Proc.devRef .tc b) := by
  by_cases h : ∃ w, Pipeline.arrRef spec10 w = b
  · obtain ⟨w, rfl⟩ := h
    match w with
    | ⟨0, _⟩ => exact (W22_arr m ρ c 0).trans (((dat10 (V21 m ρ) c).arrAt_in 0 rfl _).trans (A_eq10 (V21 m ρ) c 0))
    | ⟨1, _⟩ => exact (W22_arr m ρ c 1).trans (((dat10 (V21 m ρ) c).arrAt_in 1 rfl _).trans (A_eq10 (V21 m ρ) c 1))
    | ⟨2, _⟩ => exact (W22_arr m ρ c 2).trans (((dat10 (V21 m ρ) c).arrAt_in 2 rfl _).trans (A_eq10 (V21 m ρ) c 2))
    | ⟨3, _⟩ => exact absurd rfl hb
  · exact W22_of_ne m ρ c b (fun w e => h ⟨w, e⟩)

end Cert.KernelIdeal.Chain

end
-- ==== Proof.Layers.lean ====
/-
  The layers of the network as whole-array functions over the extended reals, index by index.
  A dense layer sends the activation matrix `x` (one row per node), the weight matrix `w` and the bias row `b` to
  `x · w + b`: entry `(r, q)` is the sum over the input features `k` of `x (r, k) * w (k, q)`, plus `b (0, q)`.
  The rectified forms clamp each entry below at zero.  The graph-convolution layers add the bias to the aggregated
  messages and rectify.  No rounding is left at the ideal values, so these are the textbook formulas.
-/
import Idealize.ShloMosaic.PureOps.Ideal
import Idealize.ShloMosaic.Lib.ValueIdx

noncomputable section

namespace Cert.Layers

open Idealize.ShloMosaic Idealize.ShloMosaic.ValueIdx

/-- An `a × b` matrix of extended reals. -/
abbrev Mat (a b : Nat) : Type := (⟨(⟨2, ![a, b]⟩ : Shape), .f32⟩ : BufTy).Contents (Elt Ideal)

/-- `x · w + b`, the bias row `b` added to every row. -/
def dense {n kin kout : Nat} (x : Mat n kin) (w : Mat kin kout) (b : Mat 1 kout) : Mat n kout :=
  fun i => (∑ k : Fin kin, x (ix2 (n0 := n) (i 0) k) * w (ix2 k (n1 := kout) (i 1))) + b (ix2 (0 : Fin 1) (n1 := kout) (i 1))

/-- `max (x · w + b) 0`. -/
def denseRelu {n kin kout : Nat} (x : Mat n kin) (w : Mat kin kout) (b : Mat 1 kout) : Mat n kout :=
  fun i => max (dense x w b i) 0

/-- `max (x + b) 0`, the bias row `b` added to every row. -/
def biasRelu {n h : Nat} (x : Mat n h) (b : Mat 1 h) : Mat n h :=
  fun i => max (x i + b (ix2 (0 : Fin 1) (n1 := h) (i 1))) 0

theorem dense_apply {n kin kout : Nat} (x : Mat n kin) (w : Mat kin kout) (b : Mat 1 kout) (r : Fin n) (q : Fin kout) :
    dense x w b (ix2 r q) = (∑ k : Fin kin, x (ix2 r k) * w (ix2 k q)) + b (ix2 (0 : Fin 1) q) := rfl

theorem denseRelu_apply {n kin kout : Nat} (x : Mat n kin) (w : Mat kin kout) (b : Mat 1 kout) (r : Fin n) (q : Fin kout) :
    denseRelu x w b (ix2 r q) = max ((∑ k : Fin kin, x (ix2 r k) * w (ix2 k q)) + b (ix2 (0 : Fin 1) q)) 0 := rfl

theorem biasRelu_apply {n h : Nat} (x : Mat n h) (b : Mat 1 h) (r : Fin n) (q : Fin h) :
    biasRelu x b (ix2 r q) = max (x (ix2 r q) + b (ix2 (0 : Fin 1) q)) 0 := rfl

end Cert.Layers

end
-- ==== Proof.RegionsA.lean ====
/-
  What each pipelined region of the idealized kernel leaves in its output array, as one function of the arrays it finds.
  A region walks the 50000 rows in ten blocks of 5000: at each grid point it stages a block of rows of its input, the whole
  weight matrix and the bias row, computes the block of outputs, and writes it back.  Entry `(p, q)` of the stored block is
  row `p` of the staged rows against column `q` of the weights (the encoder and the first graph convolution's product); the staged row `p` of block `t` is row `5000·t + p`
  of the array, so what point `t` writes back is block `t` of the layer function applied to the whole arrays; the ten blocks
  tile the output array, which therefore ends holding that function.
-/
import proofs.«166900_j88373247083004_1_alg».proof.Proof.Gen.KernelIdeal.Frame
import proofs.«166900_j88373247083004_1_alg».proof.Proof.Layers
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegV

open Cert.KernelIdeal Cert.KernelIdeal.Gen Idealize.ShloMosaic Idealize.ShloMosaic.TcCoe Idealize.SL.Sem
open Idealize.ShloMosaic.Pipeline (Dat)
open Idealize.ShloMosaic.ValueIdx

theorem hz2_a : (![0, 0] : Fin 2 → Nat) = fun _ => 0 := funext fun a => by fin_cases a <;> rfl

/-- The left operand's row coordinate of the block product is the output's row. -/
theorem lhs0_0 (i : S5000x64.Idx) (r : dot_S5000x5_S5x64_S5000x64_1_0_0_1_n_n.contr.Idx) : (dot_S5000x5_S5x64_S5000x64_1_0_0_1_n_n.lhsIdx i r 0).val = (i 0).val := by
  unfold DotDims.lhsIdx
  rw [dif_neg (show ¬(0 : Fin S5000x5.rank) ∈ dot_S5000x5_S5x64_S5000x64_1_0_0_1_n_n.lhsBatch by decide), dif_pos (show (0 : Fin S5000x5.rank) ∈ dot_S5000x5_S5x64_S5000x64_1_0_0_1_n_n.lhsNonContracting by decide)]
  rfl
/-- The right operand's column coordinate of the block product is the output's column. -/
theorem rhs0_1 (i : S5000x64.Idx) (r : dot_S5000x5_S5x64_S5000x64_1_0_0_1_n_n.contr.Idx) : (dot_S5000x5_S5x64_S5000x64_1_0_0_1_n_n.rhsIdx i r 1).val = (i 1).val := by
  unfold DotDims.rhsIdx
  rw [dif_neg (show ¬(1 : Fin S5x64.rank) ∈ dot_S5000x5_S5x64_S5000x64_1_0_0_1_n_n.rhsBatch by decide), dif_pos (show (1 : Fin S5x64.rank) ∈ dot_S5000x5_S5x64_S5000x64_1_0_0_1_n_n.rhsNonContracting by decide)]
  rfl

/-- One grid point's stored block at row `p`, column `q`: the row of the activations' block times the column of the weights,
    summed over the 5 input features, plus the bias row's entry, clamped below at zero. At the ideal values the narrowing to bf16 changes nothing and the
    product accumulates into zero, so the entry is the plain sum. -/
theorem pay0_apply (x0 : Vec Ideal S5000x5 .f32) (x1 : Vec Ideal S5x64 .f32) (x2 : Vec Ideal S1x64 .f32) (p : Fin 5000) (q : Fin 64) :
    k0_pay1 (F := Ideal) x0 x1 x2 (ix2 p q) = max ((∑ k : Fin 5, x0 (ix2 p k) * x1 (ix2 k q)) + x2 (ix2 (0 : Fin 1) q)) 0 := by
  unfold k0_pay1
  simp only [shapeCast_self]
  rw [maximumf_apply, broadcast_apply]
  show max (_ + _) (Ideal.ofBits .f32 0x00000000#32) = _
  rw [Ideal.ofBits_zero_f32, broadcastTo_1b_ab_apply]
  refine congrArg (fun z => max (z + x2 (ix2 (0 : Fin 1) q)) 0) ?_
  simp only [matmul]
  rw [Ideal.matmul_constant_zero_apply, ← Equiv.sum_comp (contrEquiv1 dot_S5000x5_S5x64_S5000x64_1_0_0_1_n_n 5 rfl rfl).symm]
  refine Finset.sum_congr rfl fun k _ => ?_
  have hk := contrEquiv1_symm_val dot_S5000x5_S5x64_S5000x64_1_0_0_1_n_n 5 rfl rfl k
  have el : dot_S5000x5_S5x64_S5000x64_1_0_0_1_n_n.lhsIdx (ix2 p q) ((contrEquiv1 dot_S5000x5_S5x64_S5000x64_1_0_0_1_n_n 5 rfl rfl).symm k) = ix2 p k := funext fun a => Fin.ext (by
    match a with
    | ⟨0, _⟩ => exact lhs0_0 _ _
    | ⟨1, _⟩ => exact (dot_S5000x5_S5x64_S5000x64_1_0_0_1_n_n.lhsIdx_val_of_single rfl _ _).trans hk)
  have er : dot_S5000x5_S5x64_S5000x64_1_0_0_1_n_n.rhsIdx (ix2 p q) ((contrEquiv1 dot_S5000x5_S5x64_S5000x64_1_0_0_1_n_n 5 rfl rfl).symm k) = ix2 k q := funext fun a => Fin.ext (by
    match a with
    | ⟨0, _⟩ => exact (dot_S5000x5_S5x64_S5000x64_1_0_0_1_n_n.rhsIdx_val_of_single rfl _ _).trans hk
    | ⟨1, _⟩ => exact rhs0_1 _ _)
  rw [truncf_apply, truncf_apply, el, er]

section Region0

/-- The printed index maps of region 0, decided over its ten grid points: the activations' block and the output's
    block move together down the rows, block `t` at rows `5000·t …`; the weights and the bias row are one block. -/
theorem idx_facts0 : ∀ t : Fin cfg0.N, win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 9 :=
  (by decide +kernel : ∀ t : Fin grid0.N, _)

/-- Every block of rows is some grid point's. -/
theorem idx_onto0 : ∀ (q0 : Fin 10), ∃ t : Fin cfg0.N, win0_3.index t = ![q0.val, 0] :=
  (by decide +kernel : ∀ (q0 : Fin 10), ∃ t : Fin grid0.N, win0_3.index t = ![q0.val, 0])

variable (V : (c : Dev nD) → (b : Ref sig .tc) → Buf (Elt Ideal) ((c : Thread nD τ).loc b))

set_option maxHeartbeats 2000000 in
/-- What grid point `t` writes back is block `t` of the layer applied to the whole arrays the region finds. -/
theorem flushed0_eq (c : Dev nD) (t : Fin cfg0.N) :
    (dat0 V c).flushed 3 t = ((cfg0.win 3).blk t).view.read (Elt Ideal)
      (Cert.Layers.denseRelu (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz2_a]
  simp only [View.ld_unit_zero (S := S5000x5) hz2_a, View.ld_unit_zero (S := S5x64) hz2_a, View.ld_unit_zero (S := S1x64) hz2_a]
  obtain ⟨e0, e1, e2, e3, e4, e5, e6, e7⟩ := idx_facts0 t
  funext j
  obtain ⟨p, q, rfl⟩ : ∃ (p : Fin 5000) (q : Fin 64), j = ix2 p q := ⟨j 0, j 1, eq_ix2 j⟩
  have hr : win0_3.index t (0 : Fin 2) * 5000 + p.val < 50000 := by have := p.isLt; omega
  have h3 : ((cfg0.win 3).blk t).view.emb (ix2 p q) = ix2 (⟨win0_3.index t (0 : Fin 2) * 5000 + p.val, hr⟩ : Fin 50000) q := by
    funext a; apply Fin.ext
    match a with
    | ⟨0, _⟩ => show win0_3.index t (0 : Fin 2) * 5000 + 1 * p.val = win0_3.index t (0 : Fin 2) * 5000 + p.val; omega
    | ⟨1, _⟩ => show win0_3.index t (1 : Fin 2) * 64 + 1 * q.val = q.val; omega
  have h0 : ∀ k : Fin 5, ((cfg0.win 0).blk t).view.emb (ix2 p k) = ix2 (⟨win0_3.index t (0 : Fin 2) * 5000 + p.val, hr⟩ : Fin 50000) k := fun k => by
    funext a; apply Fin.ext
    match a with
    | ⟨0, _⟩ => show win0_0.index t (0 : Fin 2) * 5000 + 1 * p.val = win0_3.index t (0 : Fin 2) * 5000 + p.val; omega
    | ⟨1, _⟩ => show win0_0.index t (1 : Fin 2) * 5 + 1 * k.val = k.val; omega
  have h1 : ∀ k : Fin 5, ((cfg0.win 1).blk t).view.emb (ix2 k q) = ix2 k q := fun k => by
    funext a; apply Fin.ext
    match a with
    | ⟨0, _⟩ => show win0_1.index t (0 : Fin 2) * 5 + 1 * k.val = k.val; omega
    | ⟨1, _⟩ => show win0_1.index t (1 : Fin 2) * 64 + 1 * q.val = q.val; omega
  have h2 : ((cfg0.win 2).blk t).view.emb (ix2 (0 : Fin 1) q) = ix2 (0 : Fin 1) q := by
    funext a; apply Fin.ext
    match a with
    | ⟨0, _⟩ => show win0_2.index t (0 : Fin 2) * 1 + 1 * 0 = 0; omega
    | ⟨1, _⟩ => show win0_2.index t (1 : Fin 2) * 64 + 1 * q.val = q.val; omega
  show k0_pay1 (F := Ideal) (iblk0 V c 0 t) (iblk0 V c 1 t) (iblk0 V c 2 t) (ix2 p q)
    = Cert.Layers.denseRelu (V c (Pipeline.arrRef spec0 0)) (V c (Pipeline.arrRef spec0 1)) (V c (Pipeline.arrRef spec0 2)) (((cfg0.win 3).blk t).view.emb (ix2 p q))
  rw [h3, Cert.Layers.denseRelu_apply]
  refine (pay0_apply _ _ _ p q).trans ?_
  have e0 : ∀ k : Fin 5, iblk0 V c 0 t (ix2 p k) = V c (Pipeline.arrRef spec0 0) (ix2 (⟨win0_3.index t (0 : Fin 2) * 5000 + p.val, hr⟩ : Fin 50000) k) :=
    fun k => congrArg (V c (Pipeline.arrRef spec0 0)) (h0 k)
  have e1 : ∀ k : Fin 5, iblk0 V c 1 t (ix2 k q) = V c (Pipeline.arrRef spec0 1) (ix2 k q) :=
    fun k => congrArg (V c (Pipeline.arrRef spec0 1)) (h1 k)
  have e2 : iblk0 V c 2 t (ix2 (0 : Fin 1) q) = V c (Pipeline.arrRef spec0 2) (ix2 (0 : Fin 1) q) :=
    congrArg (V c (Pipeline.arrRef spec0 2)) h2
  simp only [e0, e1, e2]

/-- An index of the output array is in point `t`'s block iff each coordinate is in the block's range on its axis. -/
theorem mem_blk0 (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v29).slice (win0_3.rect t)).set ↔ _
  rw [View.set_slice_whole, Rect.mem_set_unit]
  exact Iff.rfl

/-- The ten blocks of 5000 rows tile the output array: row `r` is in block `r / 5000`. -/
theorem cover0 (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  obtain ⟨t, ht⟩ := idx_onto0 ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- After region 0 its output array holds the layer applied to the arrays the region found. -/
theorem final0 (c : Dev nD) : (dat0 V c).arrAt 3 cfg0.N
    = Cert.Layers.denseRelu (V c (Pipeline.arrRef spec0 0)) (V c (Pipeline.arrRef spec0 1)) (V c (Pipeline.arrRef spec0 2)) :=
  (dat0 V c).arrAt_eq_of_cover 3 _ (fun t _ => flushed0_eq V c t) (cover0)

end Region0

/-- The left operand's row coordinate of the block product is the output's row. -/
theorem lhs1_0 (i : S5000x64.Idx) (r : dot_S5000x64_S64x64_S5000x64_1_0_0_1_n_n.contr.Idx) : (dot_S5000x64_S64x64_S5000x64_1_0_0_1_n_n.lhsIdx i r 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- The right operand's column coordinate of the block product is the output's column. -/
theorem rhs1_1 (i : S5000x64.Idx) (r : dot_S5000x64_S64x64_S5000x64_1_0_0_1_n_n.contr.Idx) : (dot_S5000x64_S64x64_S5000x64_1_0_0_1_n_n.rhsIdx i r 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- One grid point's stored block at row `p`, column `q`: the row of the activations' block times the column of the weights,
    summed over the 64 input features, plus the bias row's entry. At the ideal values the narrowing to bf16 changes nothing and the
    product accumulates into zero, so the entry is the plain sum. -/
theorem pay1_apply (x0 : Vec Ideal S5000x64 .f32) (x1 : Vec Ideal S64x64 .f32) (x2 : Vec Ideal S1x64 .f32) (p : Fin 5000) (q : Fin 64) :
    k1_pay1 (F := Ideal) x0 x1 x2 (ix2 p q) = (∑ k : Fin 64, x0 (ix2 p k) * x1 (ix2 k q)) + x2 (ix2 (0 : Fin 1) q) := by
  unfold k1_pay1
  simp only [shapeCast_self]
  rw [addf_apply, broadcastTo_1b_ab_apply]
  refine congrArg (· + x2 (ix2 (0 : Fin 1) q)) ?_
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs1_0 _ _
    | ⟨1, _⟩ => exact (dot_S5000x64_S64x64_S5000x64_1_0_0_1_n_n.lhsIdx_val_of_single rfl _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (dot_S5000x64_S64x64_S5000x64_1_0_0_1_n_n.rhsIdx_val_of_single rfl _ _).trans hk
    | ⟨1, _⟩ => exact rhs1_1 _ _)
  rw [truncf_apply, truncf_apply, el, er]

section Region1

/-- The printed index maps of region 1, decided over its ten grid points: the activations' block and the output's
    block move together down the rows, block `t` at rows `5000·t …`; the weights and the bias row are one block. -/
theorem idx_facts1 : ∀ t : Fin cfg1.N, win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 9 :=
  (by decide +kernel : ∀ t : Fin grid1.N, _)

/-- Every block of rows is some grid point's. -/
theorem idx_onto1 : ∀ (q0 : Fin 10), ∃ t : Fin cfg1.N, win1_3.index t = ![q0.val, 0] :=
  (by decide +kernel : ∀ (q0 : Fin 10), ∃ t : Fin grid1.N, win1_3.index t = ![q0.val, 0])

variable (V : (c : Dev nD) → (b : Ref sig .tc) → Buf (Elt Ideal) ((c : Thread nD τ).loc b))

set_option maxHeartbeats 2000000 in
/-- What grid point `t` writes back is block `t` of the layer applied to the whole arrays the region finds. -/
theorem flushed1_eq (c : Dev nD) (t : Fin cfg1.N) :
    (dat1 V c).flushed 3 t = ((cfg1.win 3).blk t).view.read (Elt Ideal)
      (Cert.Layers.dense (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz2_a]
  simp only [View.ld_unit_zero (S := S5000x64) hz2_a, View.ld_unit_zero (S := S64x64) hz2_a, View.ld_unit_zero (S := S1x64) hz2_a]
  obtain ⟨e0, e1, e2, e3, e4, e5, e6, e7⟩ := idx_facts1 t
  funext j
  obtain ⟨p, q, rfl⟩ : ∃ (p : Fin 5000) (q : Fin 64), j = ix2 p q := ⟨j 0, j 1, eq_ix2 j⟩
  have hr : win1_3.index t (0 : Fin 2) * 5000 + p.val < 50000 := by have := p.isLt; omega
  have h3 : ((cfg1.win 3).blk t).view.emb (ix2 p q) = ix2 (⟨win1_3.index t (0 : Fin 2) * 5000 + p.val, hr⟩ : Fin 50000) q := by
    funext a; apply Fin.ext
    match a with
    | ⟨0, _⟩ => show win1_3.index t (0 : Fin 2) * 5000 + 1 * p.val = win1_3.index t (0 : Fin 2) * 5000 + p.val; omega
    | ⟨1, _⟩ => show win1_3.index t (1 : Fin 2) * 64 + 1 * q.val = q.val; omega
  have h0 : ∀ k : Fin 64, ((cfg1.win 0).blk t).view.emb (ix2 p k) = ix2 (⟨win1_3.index t (0 : Fin 2) * 5000 + p.val, hr⟩ : Fin 50000) k := fun k => by
    funext a; apply Fin.ext
    match a with
    | ⟨0, _⟩ => show win1_0.index t (0 : Fin 2) * 5000 + 1 * p.val = win1_3.index t (0 : Fin 2) * 5000 + p.val; omega
    | ⟨1, _⟩ => show win1_0.index t (1 : Fin 2) * 64 + 1 * k.val = k.val; omega
  have h1 : ∀ k : Fin 64, ((cfg1.win 1).blk t).view.emb (ix2 k q) = ix2 k q := fun k => by
    funext a; apply Fin.ext
    match a with
    | ⟨0, _⟩ => show win1_1.index t (0 : Fin 2) * 64 + 1 * k.val = k.val; omega
    | ⟨1, _⟩ => show win1_1.index t (1 : Fin 2) * 64 + 1 * q.val = q.val; omega
  have h2 : ((cfg1.win 2).blk t).view.emb (ix2 (0 : Fin 1) q) = ix2 (0 : Fin 1) q := by
    funext a; apply Fin.ext
    match a with
    | ⟨0, _⟩ => show win1_2.index t (0 : Fin 2) * 1 + 1 * 0 = 0; omega
    | ⟨1, _⟩ => show win1_2.index t (1 : Fin 2) * 64 + 1 * q.val = q.val; omega
  show k1_pay1 (F := Ideal) (iblk1 V c 0 t) (iblk1 V c 1 t) (iblk1 V c 2 t) (ix2 p q)
    = Cert.Layers.dense (V c (Pipeline.arrRef spec1 0)) (V c (Pipeline.arrRef spec1 1)) (V c (Pipeline.arrRef spec1 2)) (((cfg1.win 3).blk t).view.emb (ix2 p q))
  rw [h3, Cert.Layers.dense_apply]
  refine (pay1_apply _ _ _ p q).trans ?_
  have e0 : ∀ k : Fin 64, iblk1 V c 0 t (ix2 p k) = V c (Pipeline.arrRef spec1 0) (ix2 (⟨win1_3.index t (0 : Fin 2) * 5000 + p.val, hr⟩ : Fin 50000) k) :=
    fun k => congrArg (V c (Pipeline.arrRef spec1 0)) (h0 k)
  have e1 : ∀ k : Fin 64, iblk1 V c 1 t (ix2 k q) = V c (Pipeline.arrRef spec1 1) (ix2 k q) :=
    fun k => congrArg (V c (Pipeline.arrRef spec1 1)) (h1 k)
  have e2 : iblk1 V c 2 t (ix2 (0 : Fin 1) q) = V c (Pipeline.arrRef spec1 2) (ix2 (0 : Fin 1) q) :=
    congrArg (V c (Pipeline.arrRef spec1 2)) h2
  simp only [e0, e1, e2]

/-- An index of the output array is in point `t`'s block iff each coordinate is in the block's range on its axis. -/
theorem mem_blk1 (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v33).slice (win1_3.rect t)).set ↔ _
  rw [View.set_slice_whole, Rect.mem_set_unit]
  exact Iff.rfl

/-- The ten blocks of 5000 rows tile the output array: row `r` is in block `r / 5000`. -/
theorem cover1 (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  obtain ⟨t, ht⟩ := idx_onto1 ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- After region 1 its output array holds the layer applied to the arrays the region found. -/
theorem final1 (c : Dev nD) : (dat1 V c).arrAt 3 cfg1.N
    = Cert.Layers.dense (V c (Pipeline.arrRef spec1 0)) (V c (Pipeline.arrRef spec1 1)) (V c (Pipeline.arrRef spec1 2)) :=
  (dat1 V c).arrAt_eq_of_cover 3 _ (fun t _ => flushed1_eq V c t) (cover1)

end Region1

end Cert.KernelIdeal.RegV

end
-- ==== Proof.RefLayers.lean ====
/-
  The reference's layers, as it spells them on the host — a matrix product, the bias vector laid out as a row and
  repeated down the rows, an addition, a maximum with the zero splat — are the layer functions of `Cert.Layers`,
  entry by entry.  The statements take the bias as ANY one-row matrix `b` whose entries are the bias vector's (`hb`),
  because the kernel reaches its bias row by a reshape where the reference uses a broadcast.  The graph-convolution
  products add no bias: there `b` is any row of zeros, and `x + 0 = x` holds on all extended reals.
-/
import proofs.«166900_j88373247083004_1_alg».proof.Proof.Gen.ReferenceIdeal
import proofs.«166900_j88373247083004_1_alg».proof.Proof.Layers
import Idealize.ShloMosaic.Lib.Pipeline.Value
import Idealize.ShloMosaic.Lib.ValueIdx
import Idealize.ShloMosaic.PureOps.Ideal.Laws

set_option maxRecDepth 16384

noncomputable section

namespace Cert.ReferenceIdeal.RefLayers

open Cert.ReferenceIdeal Cert.ReferenceIdeal.Gen Idealize.ShloMosaic Idealize.ShloMosaic.TcCoe Idealize.SL.Sem
open Idealize.ShloMosaic.ValueIdx Cert.Layers

/-- The left operand's row coordinate of the product is the output's row. -/
theorem dotEnc_lhs0 (i : S50000x64.Idx) (r : dot_S50000x5_S5x64_S50000x64_1_0_0_1_n_n.contr.Idx) : (dot_S50000x5_S5x64_S50000x64_1_0_0_1_n_n.lhsIdx i r 0).val = (i 0).val := by
  unfold DotDims.lhsIdx
  rw [dif_neg (show ¬(0 : Fin S50000x5.rank) ∈ dot_S50000x5_S5x64_S50000x64_1_0_0_1_n_n.lhsBatch by decide), dif_pos (show (0 : Fin S50000x5.rank) ∈ dot_S50000x5_S5x64_S50000x64_1_0_0_1_n_n.lhsNonContracting by decide)]
  rfl
/-- The right operand's column coordinate of the product is the output's column. -/
theorem dotEnc_rhs1 (i : S50000x64.Idx) (r : dot_S50000x5_S5x64_S50000x64_1_0_0_1_n_n.contr.Idx) : (dot_S50000x5_S5x64_S50000x64_1_0_0_1_n_n.rhsIdx i r 1).val = (i 1).val := by
  unfold DotDims.rhsIdx
  rw [dif_neg (show ¬(1 : Fin S5x64.rank) ∈ dot_S50000x5_S5x64_S50000x64_1_0_0_1_n_n.rhsBatch by decide), dif_pos (show (1 : Fin S5x64.rank) ∈ dot_S50000x5_S5x64_S50000x64_1_0_0_1_n_n.rhsNonContracting by decide)]
  rfl
/-- The host's matrix product at entry `(r, q)`: the sum over the 5 contracted features of row times column. -/
theorem dotEnc_apply (y0 : Mat 50000 5) (y1 : Mat 5 64) (r : Fin 50000) (q : Fin 64) :
    Host.dotGeneral (F := Ideal) (φ₁ := .f32) (φ₂ := .f32) dot_S50000x5_S5x64_S50000x64_1_0_0_1_n_n none y0 y1 (ix2 r q) = ∑ k : Fin 5, y0 (ix2 r k) * y1 (ix2 k q) := by
  simp only [Host.dotGeneral]
  rw [Ideal.dotGeneral_apply, ← Equiv.sum_comp (contrEquiv1 dot_S50000x5_S5x64_S50000x64_1_0_0_1_n_n 5 rfl rfl).symm]
  refine Finset.sum_congr rfl fun k _ => ?_
  have hk := contrEquiv1_symm_val dot_S50000x5_S5x64_S50000x64_1_0_0_1_n_n 5 rfl rfl k
  have el : dot_S50000x5_S5x64_S50000x64_1_0_0_1_n_n.lhsIdx (ix2 r q) ((contrEquiv1 dot_S50000x5_S5x64_S50000x64_1_0_0_1_n_n 5 rfl rfl).symm k) = ix2 r k := funext fun a => Fin.ext (by
    match a with
    | ⟨0, _⟩ => exact dotEnc_lhs0 _ _
    | ⟨1, _⟩ => exact (dot_S50000x5_S5x64_S50000x64_1_0_0_1_n_n.lhsIdx_val_of_single rfl _ _).trans hk)
  have er : dot_S50000x5_S5x64_S50000x64_1_0_0_1_n_n.rhsIdx (ix2 r q) ((contrEquiv1 dot_S50000x5_S5x64_S50000x64_1_0_0_1_n_n 5 rfl rfl).symm k) = ix2 k q := funext fun a => Fin.ext (by
    match a with
    | ⟨0, _⟩ => exact (dot_S50000x5_S5x64_S50000x64_1_0_0_1_n_n.rhsIdx_val_of_single rfl _ _).trans hk
    | ⟨1, _⟩ => exact dotEnc_rhs1 _ _)
  rw [el, er]

/-- The left operand's row coordinate of the product is the output's row. -/
theorem dotConv_lhs0 (i : S50000x64.Idx) (r : dot_S50000x64_S64x64_S50000x64_1_0_0_1_n_n.contr.Idx) : (dot_S50000x64_S64x64_S50000x64_1_0_0_1_n_n.lhsIdx i r 0).val = (i 0).val := by
  unfold DotDims.lhsIdx
  rw [dif_neg (show ¬(0 : Fin S50000x64.rank) ∈ dot_S50000x64_S64x64_S50000x64_1_0_0_1_n_n.lhsBatch by decide), dif_pos (show (0 : Fin S50000x64.rank) ∈ dot_S50000x64_S64x64_S50000x64_1_0_0_1_n_n.lhsNonContracting by decide)]
  rfl
/-- The right operand's column coordinate of the product is the output's column. -/
theorem dotConv_rhs1 (i : S50000x64.Idx) (r : dot_S50000x64_S64x64_S50000x64_1_0_0_1_n_n.contr.Idx) : (dot_S50000x64_S64x64_S50000x64_1_0_0_1_n_n.rhsIdx i r 1).val = (i 1).val := by
  unfold DotDims.rhsIdx
  rw [dif_neg (show ¬(1 : Fin S64x64.rank) ∈ dot_S50000x64_S64x64_S50000x64_1_0_0_1_n_n.rhsBatch by decide), dif_pos (show (1 : Fin S64x64.rank) ∈ dot_S50000x64_S64x64_S50000x64_1_0_0_1_n_n.rhsNonContracting by decide)]
  rfl
/-- The host's matrix product at entry `(r, q)`: the sum over the 64 contracted features of row times column. -/
theorem dotConv_apply (y0 : Mat 50000 64) (y1 : Mat 64 64) (r : Fin 50000) (q : Fin 64) :
    Host.dotGeneral (F := Ideal) (φ₁ := .f32) (φ₂ := .f32) dot_S50000x64_S64x64_S50000x64_1_0_0_1_n_n none y0 y1 (ix2 r q) = ∑ k : Fin 64, y0 (ix2 r k) * y1 (ix2 k q) := by
  simp only [Host.dotGeneral]
  rw [Ideal.dotGeneral_apply, ← Equiv.sum_comp (contrEquiv1 dot_S50000x64_S64x64_S50000x64_1_0_0_1_n_n 64 rfl rfl).symm]
  refine Finset.sum_congr rfl fun k _ => ?_
  have hk := contrEquiv1_symm_val dot_S50000x64_S64x64_S50000x64_1_0_0_1_n_n 64 rfl rfl k
  have el : dot_S50000x64_S64x64_S50000x64_1_0_0_1_n_n.lhsIdx (ix2 r q) ((contrEquiv1 dot_S50000x64_S64x64_S50000x64_1_0_0_1_n_n 64 rfl rfl).symm k) = ix2 r k := funext fun a => Fin.ext (by
    match a with
    | ⟨0, _⟩ => exact dotConv_lhs0 _ _
    | ⟨1, _⟩ => exact (dot_S50000x64_S64x64_S50000x64_1_0_0_1_n_n.lhsIdx_val_of_single rfl _ _).trans hk)
  have er : dot_S50000x64_S64x64_S50000x64_1_0_0_1_n_n.rhsIdx (ix2 r q) ((contrEquiv1 dot_S50000x64_S64x64_S50000x64_1_0_0_1_n_n 64 rfl rfl).symm k) = ix2 k q := funext fun a => Fin.ext (by
    match a with
    | ⟨0, _⟩ => exact (dot_S50000x64_S64x64_S50000x64_1_0_0_1_n_n.rhsIdx_val_of_single rfl _ _).trans hk
    | ⟨1, _⟩ => exact dotConv_rhs1 _ _)
  rw [el, er]

/-- The left operand's row coordinate of the product is the output's row. -/
theorem dotHid_lhs0 (i : S50000x32.Idx) (r : dot_S50000x64_S64x32_S50000x32_1_0_0_1_n_n.contr.Idx) : (dot_S50000x64_S64x32_S50000x32_1_0_0_1_n_n.lhsIdx i r 0).val = (i 0).val := by
  unfold DotDims.lhsIdx
  rw [dif_neg (show ¬(0 : Fin S50000x64.rank) ∈ dot_S50000x64_S64x32_S50000x32_1_0_0_1_n_n.lhsBatch by decide), dif_pos (show (0 : Fin S50000x64.rank) ∈ dot_S50000x64_S64x32_S50000x32_1_0_0_1_n_n.lhsNonContracting by decide)]
  rfl
/-- The right operand's column coordinate of the product is the output's column. -/
theorem dotHid_rhs1 (i : S50000x32.Idx) (r : dot_S50000x64_S64x32_S50000x32_1_0_0_1_n_n.contr.Idx) : (dot_S50000x64_S64x32_S50000x32_1_0_0_1_n_n.rhsIdx i r 1).val = (i 1).val := by
  unfold DotDims.rhsIdx
  rw [dif_neg (show ¬(1 : Fin S64x32.rank) ∈ dot_S50000x64_S64x32_S50000x32_1_0_0_1_n_n.rhsBatch by decide), dif_pos (show (1 : Fin S64x32.rank) ∈ dot_S50000x64_S64x32_S50000x32_1_0_0_1_n_n.rhsNonContracting by decide)]
  rfl
/-- The host's matrix product at entry `(r, q)`: the sum over the 64 contracted features of row times column. -/
theorem dotHid_apply (y0 : Mat 50000 64) (y1 : Mat 64 32) (r : Fin 50000) (q : Fin 32) :
    Host.dotGeneral (F := Ideal) (φ₁ := .f32) (φ₂ := .f32) dot_S50000x64_S64x32_S50000x32_1_0_0_1_n_n none y0 y1 (ix2 r q) = ∑ k : Fin 64, y0 (ix2 r k) * y1 (ix2 k q) := by
  simp only [Host.dotGeneral]
  rw [Ideal.dotGeneral_apply, ← Equiv.sum_comp (contrEquiv1 dot_S50000x64_S64x32_S50000x32_1_0_0_1_n_n 64 rfl rfl).symm]
  refine Finset.sum_congr rfl fun k _ => ?_
  have hk := contrEquiv1_symm_val dot_S50000x64_S64x32_S50000x32_1_0_0_1_n_n 64 rfl rfl k
  have el : dot_S50000x64_S64x32_S50000x32_1_0_0_1_n_n.lhsIdx (ix2 r q) ((contrEquiv1 dot_S50000x64_S64x32_S50000x32_1_0_0_1_n_n 64 rfl rfl).symm k) = ix2 r k := funext fun a => Fin.ext (by
    match a with
    | ⟨0, _⟩ => exact dotHid_lhs0 _ _
    | ⟨1, _⟩ => exact (dot_S50000x64_S64x32_S50000x32_1_0_0_1_n_n.lhsIdx_val_of_single rfl _ _).trans hk)
  have er : dot_S50000x64_S64x32_S50000x32_1_0_0_1_n_n.rhsIdx (ix2 r q) ((contrEquiv1 dot_S50000x64_S64x32_S50000x32_1_0_0_1_n_n 64 rfl rfl).symm k) = ix2 k q := funext fun a => Fin.ext (by
    match a with
    | ⟨0, _⟩ => exact (dot_S50000x64_S64x32_S50000x32_1_0_0_1_n_n.rhsIdx_val_of_single rfl _ _).trans hk
    | ⟨1, _⟩ => exact dotHid_rhs1 _ _)
  rw [el, er]

/-- The left operand's row coordinate of the product is the output's row. -/
theorem dotOut_lhs0 (i : S50000x1.Idx) (r : dot_S50000x32_S32x1_S50000x1_1_0_0_1_n_n.contr.Idx) : (dot_S50000x32_S32x1_S50000x1_1_0_0_1_n_n.lhsIdx i r 0).val = (i 0).val := by
  unfold DotDims.lhsIdx
  rw [dif_neg (show ¬(0 : Fin S50000x32.rank) ∈ dot_S50000x32_S32x1_S50000x1_1_0_0_1_n_n.lhsBatch by decide), dif_pos (show (0 : Fin S50000x32.rank) ∈ dot_S50000x32_S32x1_S50000x1_1_0_0_1_n_n.lhsNonContracting by decide)]
  rfl
/-- The right operand's column coordinate of the product is the output's column. -/
theorem dotOut_rhs1 (i : S50000x1.Idx) (r : dot_S50000x32_S32x1_S50000x1_1_0_0_1_n_n.contr.Idx) : (dot_S50000x32_S32x1_S50000x1_1_0_0_1_n_n.rhsIdx i r 1).val = (i 1).val := by
  unfold DotDims.rhsIdx
  rw [dif_neg (show ¬(1 : Fin S32x1.rank) ∈ dot_S50000x32_S32x1_S50000x1_1_0_0_1_n_n.rhsBatch by decide), dif_pos (show (1 : Fin S32x1.rank) ∈ dot_S50000x32_S32x1_S50000x1_1_0_0_1_n_n.rhsNonContracting by decide)]
  rfl
/-- The host's matrix product at entry `(r, q)`: the sum over the 32 contracted features of row times column. -/
theorem dotOut_apply (y0 : Mat 50000 32) (y1 : Mat 32 1) (r : Fin 50000) (q : Fin 1) :
    Host.dotGeneral (F := Ideal) (φ₁ := .f32) (φ₂ := .f32) dot_S50000x32_S32x1_S50000x1_1_0_0_1_n_n none y0 y1 (ix2 r q) = ∑ k : Fin 32, y0 (ix2 r k) * y1 (ix2 k q) := by
  simp only [Host.dotGeneral]
  rw [Ideal.dotGeneral_apply, ← Equiv.sum_comp (contrEquiv1 dot_S50000x32_S32x1_S50000x1_1_0_0_1_n_n 32 rfl rfl).symm]
  refine Finset.sum_congr rfl fun k _ => ?_
  have hk := contrEquiv1_symm_val dot_S50000x32_S32x1_S50000x1_1_0_0_1_n_n 32 rfl rfl k
  have el : dot_S50000x32_S32x1_S50000x1_1_0_0_1_n_n.lhsIdx (ix2 r q) ((contrEquiv1 dot_S50000x32_S32x1_S50000x1_1_0_0_1_n_n 32 rfl rfl).symm k) = ix2 r k := funext fun a => Fin.ext (by
    match a with
    | ⟨0, _⟩ => exact dotOut_lhs0 _ _
    | ⟨1, _⟩ => exact (dot_S50000x32_S32x1_S50000x1_1_0_0_1_n_n.lhsIdx_val_of_single rfl _ _).trans hk)
  have er : dot_S50000x32_S32x1_S50000x1_1_0_0_1_n_n.rhsIdx (ix2 r q) ((contrEquiv1 dot_S50000x32_S32x1_S50000x1_1_0_0_1_n_n 32 rfl rfl).symm k) = ix2 k q := funext fun a => Fin.ext (by
    match a with
    | ⟨0, _⟩ => exact (dot_S50000x32_S32x1_S50000x1_1_0_0_1_n_n.rhsIdx_val_of_single rfl _ _).trans hk
    | ⟨1, _⟩ => exact dotOut_rhs1 _ _)
  rw [el, er]

/-- A bias vector laid out as a row and repeated down all 50000 rows reads, at `(r, q)`, the vector's entry `q`. -/
theorem biasRow64_apply (v : (⟨S64, .f32⟩ : BufTy).Contents (Elt Ideal)) (r : Fin 50000) (q : Fin 64) :
    broadcastInDim S50000x64 ![0, 1] bcast_S1x64_S50000x64_0_1 (broadcastInDim S1x64 ![1] bcast_S64_S1x64_1 v) (ix2 r q) = v (ix1 q) := by
  rw [broadcastInDim_apply _ bcast_S1x64_S50000x64_0_1 _ (ix2 r q) (ix2 (0 : Fin 1) q) (fun a => match a with
    | ⟨0, _⟩ => by show 0 = if (1 : Nat) = 1 then 0 else r.val; rw [if_pos rfl]
    | ⟨1, _⟩ => by show q.val = if (64 : Nat) = 1 then 0 else q.val; rw [if_neg (by decide)])]
  exact broadcastInDim_apply _ bcast_S64_S1x64_1 v (ix2 (0 : Fin 1) q) (ix1 q) (fun a => match a with
    | ⟨0, _⟩ => by show q.val = if (64 : Nat) = 1 then 0 else q.val; rw [if_neg (by decide)])
/-- The zero splat read at any entry is zero. -/
theorem zeroSplat64_apply (i : S50000x64.Idx) :
    broadcastInDim S50000x64 ![] bcast_S_S50000x64 (constant (F := Ideal) S_ .f32 0x00000000#32) i = 0 := by
  rw [broadcastInDim_apply _ bcast_S_S50000x64 _ i ix0 (fun a => a.elim0)]
  show Ideal.ofBits .f32 0x00000000#32 = 0
  exact Ideal.ofBits_zero_f32

/-- A bias vector laid out as a row and repeated down all 50000 rows reads, at `(r, q)`, the vector's entry `q`. -/
theorem biasRow32_apply (v : (⟨S32, .f32⟩ : BufTy).Contents (Elt Ideal)) (r : Fin 50000) (q : Fin 32) :
    broadcastInDim S50000x32 ![0, 1] bcast_S1x32_S50000x32_0_1 (broadcastInDim S1x32 ![1] bcast_S32_S1x32_1 v) (ix2 r q) = v (ix1 q) := by
  rw [broadcastInDim_apply _ bcast_S1x32_S50000x32_0_1 _ (ix2 r q) (ix2 (0 : Fin 1) q) (fun a => match a with
    | ⟨0, _⟩ => by show 0 = if (1 : Nat) = 1 then 0 else r.val; rw [if_pos rfl]
    | ⟨1, _⟩ => by show q.val = if (32 : Nat) = 1 then 0 else q.val; rw [if_neg (by decide)])]
  exact broadcastInDim_apply _ bcast_S32_S1x32_1 v (ix2 (0 : Fin 1) q) (ix1 q) (fun a => match a with
    | ⟨0, _⟩ => by show q.val = if (32 : Nat) = 1 then 0 else q.val; rw [if_neg (by decide)])
/-- The zero splat read at any entry is zero. -/
theorem zeroSplat32_apply (i : S50000x32.Idx) :
    broadcastInDim S50000x32 ![] bcast_S_S50000x32 (constant (F := Ideal) S_ .f32 0x00000000#32) i = 0 := by
  rw [broadcastInDim_apply _ bcast_S_S50000x32 _ i ix0 (fun a => a.elim0)]
  show Ideal.ofBits .f32 0x00000000#32 = 0
  exact Ideal.ofBits_zero_f32

/-- The one-entry bias laid out as a row and repeated down all 50000 rows reads the entry everywhere. -/
theorem biasRow1_apply (v : (⟨S1, .f32⟩ : BufTy).Contents (Elt Ideal)) (r : Fin 50000) (q : Fin 1) :
    broadcastInDim S50000x1 ![0, 1] bcast_S1x1_S50000x1_0_1 (broadcastInDim S1x1 ![1] bcast_S1_S1x1_1 v) (ix2 r q) = v (ix1 q) := by
  have hq : q.val = 0 := by omega
  rw [broadcastInDim_apply _ bcast_S1x1_S50000x1_0_1 _ (ix2 r q) (ix2 (0 : Fin 1) q) (fun a => match a with
    | ⟨0, _⟩ => by show 0 = if (1 : Nat) = 1 then 0 else r.val; rw [if_pos rfl]
    | ⟨1, _⟩ => by show q.val = if (1 : Nat) = 1 then 0 else q.val; rw [if_pos rfl]; exact hq)]
  exact broadcastInDim_apply _ bcast_S1_S1x1_1 v (ix2 (0 : Fin 1) q) (ix1 q) (fun a => match a with
    | ⟨0, _⟩ => by show q.val = if (1 : Nat) = 1 then 0 else q.val; rw [if_pos rfl]; exact hq)

/-- The encoder: `max (x · W + b) 0`. -/
theorem encoder_eq (x0 : Mat 50000 5) (x2 : Mat 5 64) (x3 : (⟨S64, .f32⟩ : BufTy).Contents (Elt Ideal)) (b : Mat 1 64)
    (hb : ∀ q : Fin 64, b (ix2 (0 : Fin 1) q) = x3 (ix1 q)) :
    maximumf (addf (Host.dotGeneral (F := Ideal) (φ₁ := .f32) (φ₂ := .f32) dot_S50000x5_S5x64_S50000x64_1_0_0_1_n_n none x0 x2)
        (broadcastInDim S50000x64 ![0, 1] bcast_S1x64_S50000x64_0_1 (broadcastInDim S1x64 ![1] bcast_S64_S1x64_1 x3)))
      (broadcastInDim S50000x64 ![] bcast_S_S50000x64 (constant S_ .f32 0x00000000#32)) = denseRelu x0 x2 b := by
  funext i
  obtain ⟨r, q, rfl⟩ : ∃ (r : Fin 50000) (q : Fin 64), i = ix2 r q := ⟨i 0, i 1, eq_ix2 i⟩
  rw [denseRelu_apply, maximumf_apply, addf_apply, dotEnc_apply, biasRow64_apply, zeroSplat64_apply, hb]

/-- A graph-convolution layer's product `h · W`: a dense layer whose bias row is zero. -/
theorem conv_eq (y0 : Mat 50000 64) (y1 : Mat 64 64) (b : Mat 1 64) (hb : ∀ q : Fin 64, b (ix2 (0 : Fin 1) q) = 0) :
    Host.dotGeneral (F := Ideal) (φ₁ := .f32) (φ₂ := .f32) dot_S50000x64_S64x64_S50000x64_1_0_0_1_n_n none y0 y1 = dense y0 y1 b := by
  funext i
  obtain ⟨r, q, rfl⟩ : ∃ (r : Fin 50000) (q : Fin 64), i = ix2 r q := ⟨i 0, i 1, eq_ix2 i⟩
  rw [dense_apply, dotConv_apply, hb, add_zero]

/-- A graph-convolution layer's output: `max (agg + b) 0`. -/
theorem convOut_eq (y : Mat 50000 64) (v : (⟨S64, .f32⟩ : BufTy).Contents (Elt Ideal)) (b : Mat 1 64)
    (hb : ∀ q : Fin 64, b (ix2 (0 : Fin 1) q) = v (ix1 q)) :
    maximumf (addf y (broadcastInDim S50000x64 ![0, 1] bcast_S1x64_S50000x64_0_1 (broadcastInDim S1x64 ![1] bcast_S64_S1x64_1 v)))
      (broadcastInDim S50000x64 ![] bcast_S_S50000x64 (constant (F := Ideal) S_ .f32 0x00000000#32)) = biasRelu y b := by
  funext i
  obtain ⟨r, q, rfl⟩ : ∃ (r : Fin 50000) (q : Fin 64), i = ix2 r q := ⟨i 0, i 1, eq_ix2 i⟩
  rw [biasRelu_apply, maximumf_apply, addf_apply, biasRow64_apply, zeroSplat64_apply, hb]

/-- A head's hidden layer: `max (h · W + b) 0`. -/
theorem hidden_eq (y0 : Mat 50000 64) (y1 : Mat 64 32) (v : (⟨S32, .f32⟩ : BufTy).Contents (Elt Ideal)) (b : Mat 1 32)
    (hb : ∀ q : Fin 32, b (ix2 (0 : Fin 1) q) = v (ix1 q)) :
    maximumf (addf (Host.dotGeneral (F := Ideal) (φ₁ := .f32) (φ₂ := .f32) dot_S50000x64_S64x32_S50000x32_1_0_0_1_n_n none y0 y1)
        (broadcastInDim S50000x32 ![0, 1] bcast_S1x32_S50000x32_0_1 (broadcastInDim S1x32 ![1] bcast_S32_S1x32_1 v)))
      (broadcastInDim S50000x32 ![] bcast_S_S50000x32 (constant S_ .f32 0x00000000#32)) = denseRelu y0 y1 b := by
  funext i
  obtain ⟨r, q, rfl⟩ : ∃ (r : Fin 50000) (q : Fin 32), i = ix2 r q := ⟨i 0, i 1, eq_ix2 i⟩
  rw [denseRelu_apply, maximumf_apply, addf_apply, dotHid_apply, biasRow32_apply, zeroSplat32_apply, hb]

/-- A head's output layer: `h · W + b`. -/
theorem output_eq (y0 : Mat 50000 32) (y1 : Mat 32 1) (v : (⟨S1, .f32⟩ : BufTy).Contents (Elt Ideal)) (b : Mat 1 1)
    (hb : ∀ q : Fin 1, b (ix2 (0 : Fin 1) q) = v (ix1 q)) :
    addf (Host.dotGeneral (F := Ideal) (φ₁ := .f32) (φ₂ := .f32) dot_S50000x32_S32x1_S50000x1_1_0_0_1_n_n none y0 y1)
        (broadcastInDim S50000x1 ![0, 1] bcast_S1x1_S50000x1_0_1 (broadcastInDim S1x1 ![1] bcast_S1_S1x1_1 v)) = dense y0 y1 b := by
  funext i
  obtain ⟨r, q, rfl⟩ : ∃ (r : Fin 50000) (q : Fin 1), i = ix2 r q := ⟨i 0, i 1, eq_ix2 i⟩
  rw [dense_apply, addf_apply, dotOut_apply, biasRow1_apply, hb]

end Cert.ReferenceIdeal.RefLayers

end
-- ==== Proof.ChainA.lean ====
/-
  The idealized kernel's buffers, boundary by boundary, up to the first graph convolution's product (boundaries 0–4).
  Each statement names what one buffer holds at one boundary of the run, as a function of the launch arguments: the
  argument itself where nothing wrote it; for a buffer a host stretch computes, the stretch's operations applied to what
  they read; for a region's output array, the layer function of the arrays the region found (the region modules),
  restated as the reference's own stage of the same name (the reference's layers are the same functions, entry by entry).
-/
import proofs.«166900_j88373247083004_1_alg».proof.Proof.WalkLib
import proofs.«166900_j88373247083004_1_alg».proof.Proof.RegionsA
import proofs.«166900_j88373247083004_1_alg».proof.Proof.RefLayers
import proofs.«166900_j88373247083004_1_alg».proof.Proof.Gen.ReferenceIdeal.Read
import Idealize.ShloMosaic.Lib.ValueLayout

set_option maxRecDepth 16384

noncomputable section

namespace Cert.KernelIdeal.Chain

open Cert.KernelIdeal Cert.KernelIdeal.Gen Idealize.ShloMosaic Idealize.ShloMosaic.TcCoe Idealize.SL.Sem
open Idealize.ShloMosaic.Pipeline (Dat)
open Idealize.ShloMosaic.StableHlo Idealize.ShloMosaic.ValueIdx

variable (m : (ℓ : Loc nD τ sig) → Buf (Elt Ideal) ℓ) (ρ : Dev nD → PrngReg)

/-- A row of zeros: the zero splat reshaped to one row reads zero at every entry. -/
theorem zero_row64 (q : Fin 64) : shapeCast S1x64 (broadcastInDim S64 ![] bcast_S_S64 (constant (F := Ideal) S_ .f32 0x00000000#32)) shapeCasts_S64_S1x64 (ix2 (0 : Fin 1) q) = 0 := by
  rw [shapeCast_a_1a_apply, broadcastInDim_apply _ bcast_S_S64 _ (ix1 q) ix0 (fun a => a.elim0)]
  show Ideal.ofBits .f32 0x00000000#32 = 0
  exact Ideal.ofBits_zero_f32

/-- Argument 0 is still as launched at boundary 1: nothing before it writes an argument. -/
theorem arg0_at1 (c : Dev nD) : W1 m ρ c (Proc.devRef .tc main_arg0) = (m ((c : Thread nD τ).loc main_arg0)) :=
  ((by host_keep hostOps0 : W1 m ρ c (Proc.devRef .tc main_arg0) = W0 m ρ c (Proc.devRef .tc main_arg0))).trans rfl

/-- Argument 2 is still as launched at boundary 1: nothing before it writes an argument. -/
theorem arg2_at1 (c : Dev nD) : W1 m ρ c (Proc.devRef .tc main_arg2) = (m ((c : Thread nD τ).loc main_arg2)) :=
  ((by host_keep hostOps0 : W1 m ρ c (Proc.devRef .tc main_arg2) = W0 m ρ c (Proc.devRef .tc main_arg2))).trans rfl

set_option maxHeartbeats 4000000 in
/-- The encoder's bias as a row. -/
theorem v28_at1 (c : Dev nD) : W1 m ρ c (Proc.devRef .tc main_v28) = shapeCast S1x64 (m ((c : Thread nD τ).loc main_arg3)) shapeCasts_S64_S1x64 :=
  by
  show StableHlo.after hostOps0 (W0 m ρ c) (Proc.devRef .tc main_v28) = _
  after_results <;> rfl

set_option maxHeartbeats 4000000 in
/-- The zero bias vector of the graph-convolution products. -/
theorem v27_at1 (c : Dev nD) : W1 m ρ c (Proc.devRef .tc main_v27) = (broadcastInDim S64 ![] bcast_S_S64 (constant (F := Ideal) S_ .f32 0x00000000#32)) :=
  by
  show StableHlo.after hostOps0 (W0 m ρ c) (Proc.devRef .tc main_v27) = _
  after_results <;> rfl

set_option maxHeartbeats 4000000 in
/-- The edge sources with the self loops appended. -/
theorem v3_at1 (c : Dev nD) : W1 m ρ c (Proc.devRef .tc main_v3) = Cert.ReferenceIdeal.Read.val_main_v3 (m ((c : Thread nD τ).loc main_arg1)) :=
  by
  show StableHlo.after hostOps0 (W0 m ρ c) (Proc.devRef .tc main_v3) = _
  after_results <;> rfl

set_option maxHeartbeats 4000000 in
/-- The edge targets with the self loops appended. -/
theorem v6_at1 (c : Dev nD) : W1 m ρ c (Proc.devRef .tc main_v6) = Cert.ReferenceIdeal.Read.val_main_v6 (m ((c : Thread nD τ).loc main_arg1)) :=
  by
  show StableHlo.after hostOps0 (W0 m ρ c) (Proc.devRef .tc main_v6) = _
  after_results <;> rfl

set_option maxHeartbeats 4000000 in
/-- The symmetric degree normalisation of every edge. -/
theorem v26_at1 (c : Dev nD) : W1 m ρ c (Proc.devRef .tc main_v26) = Cert.ReferenceIdeal.Read.val_main_v26 (m ((c : Thread nD τ).loc main_arg1)) :=
  by
  show StableHlo.after hostOps0 (W0 m ρ c) (Proc.devRef .tc main_v26) = _
  after_results <;> rfl

set_option maxHeartbeats 4000000 in
/-- Region 0, the encoder. -/
theorem v29_at2 (c : Dev nD) : W2 m ρ c (Proc.devRef .tc main_v29) = Cert.ReferenceIdeal.Read.val_main_v31 (m ((c : Thread nD τ).loc main_arg0)) (m ((c : Thread nD τ).loc main_arg2)) (m ((c : Thread nD τ).loc main_arg3)) := by
  refine (W2_arr m ρ c 3).trans ?_
  refine (RegV.final0 (V1 m ρ) c).trans ?_
  show Cert.Layers.denseRelu (W1 m ρ c (Proc.devRef .tc main_arg0)) (W1 m ρ c (Proc.devRef .tc main_arg2)) (W1 m ρ c (Proc.devRef .tc main_v28)) = _
  rw [arg0_at1 m ρ c, arg2_at1 m ρ c, v28_at1 m ρ c]
  exact (Cert.ReferenceIdeal.RefLayers.encoder_eq _ _ _ _ (fun q => shapeCast_a_1a_apply _ _ 0 q)).symm

theorem v29_at3 (c : Dev nD) : W3 m ρ c (Proc.devRef .tc main_v29) = Cert.ReferenceIdeal.Read.val_main_v31 (m ((c : Thread nD τ).loc main_arg0)) (m ((c : Thread nD τ).loc main_arg2)) (m ((c : Thread nD τ).loc main_arg3)) :=
  ((by host_keep hostOps1 : W3 m ρ c (Proc.devRef .tc main_v29) = W2 m ρ c (Proc.devRef .tc main_v29))).trans (v29_at2 m ρ c)

/-- Argument 4 is still as launched at boundary 2: nothing before it writes an argument. -/
theorem arg4_at2 (c : Dev nD) : W2 m ρ c (Proc.devRef .tc main_arg4) = (m ((c : Thread nD τ).loc main_arg4)) :=
  ((reg_step0 m ρ c main_arg4 (by decide)).trans ((by host_keep hostOps0 : W1 m ρ c (Proc.devRef .tc main_arg4) = W0 m ρ c (Proc.devRef .tc main_arg4)))).trans rfl

set_option maxHeartbeats 4000000 in
/-- The first graph convolution's weights. -/
theorem v31_at3 (c : Dev nD) : W3 m ρ c (Proc.devRef .tc main_v31) = Cert.ReferenceIdeal.Read.val_main_v33 (m ((c : Thread nD τ).loc main_arg4)) :=
  by
  show StableHlo.after hostOps1 (W2 m ρ c) (Proc.devRef .tc main_v31) = _
  after_results <;> (rw [arg4_at2 m ρ c]) <;> rfl

theorem v27_at2 (c : Dev nD) : W2 m ρ c (Proc.devRef .tc main_v27) = (broadcastInDim S64 ![] bcast_S_S64 (constant (F := Ideal) S_ .f32 0x00000000#32)) :=
  (reg_step0 m ρ c main_v27 (by decide)).trans (v27_at1 m ρ c)

set_option maxHeartbeats 4000000 in
theorem v32_at3 (c : Dev nD) : W3 m ρ c (Proc.devRef .tc main_v32) = shapeCast S1x64 (broadcastInDim S64 ![] bcast_S_S64 (constant (F := Ideal) S_ .f32 0x00000000#32)) shapeCasts_S64_S1x64 :=
  by
  show StableHlo.after hostOps1 (W2 m ρ c) (Proc.devRef .tc main_v32) = _
  after_results <;> (rw [v27_at2 m ρ c]) <;> rfl

set_option maxHeartbeats 4000000 in
/-- Region 1, the first graph convolution's product. -/
theorem v33_at4 (c : Dev nD) : W4 m ρ c (Proc.devRef .tc main_v33) = Cert.ReferenceIdeal.Read.val_main_v34 (m ((c : Thread nD τ).loc main_arg0)) (m ((c : Thread nD τ).loc main_arg2)) (m ((c : Thread nD τ).loc main_arg3)) (m ((c : Thread nD τ).loc main_arg4)) := by
  refine (W4_arr m ρ c 3).trans ?_
  refine (RegV.final1 (V3 m ρ) c).trans ?_
  show Cert.Layers.dense (W3 m ρ c (Proc.devRef .tc main_v29)) (W3 m ρ c (Proc.devRef .tc main_v31)) (W3 m ρ c (Proc.devRef .tc main_v32)) = _
  rw [v29_at3 m ρ c, v31_at3 m ρ c, v32_at3 m ρ c]
  exact (Cert.ReferenceIdeal.RefLayers.conv_eq _ _ _ zero_row64).symm

end Cert.KernelIdeal.Chain

end
-- ==== Proof.RegionsB.lean ====
/-
  What each pipelined region of the idealized kernel leaves in its output array, as one function of the arrays it finds.
  A region walks the 50000 rows in ten blocks of 5000: at each grid point it stages a block of rows of its input, the whole
  weight matrix and the bias row, computes the block of outputs, and writes it back.  Entry `(p, q)` of the stored block is
  row `p` of the staged rows against column `q` of the weights (the first graph convolution's output and the second one's product); the staged row `p` of block `t` is row `5000·t + p`
  of the array, so what point `t` writes back is block `t` of the layer function applied to the whole arrays; the ten blocks
  tile the output array, which therefore ends holding that function.
-/
import proofs.«166900_j88373247083004_1_alg».proof.Proof.Gen.KernelIdeal.Frame
import proofs.«166900_j88373247083004_1_alg».proof.Proof.Layers
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegV

open Cert.KernelIdeal Cert.KernelIdeal.Gen Idealize.ShloMosaic Idealize.ShloMosaic.TcCoe Idealize.SL.Sem
open Idealize.ShloMosaic.Pipeline (Dat)
open Idealize.ShloMosaic.ValueIdx

theorem hz2_b : (![0, 0] : Fin 2 → Nat) = fun _ => 0 := funext fun a => by fin_cases a <;> rfl

/-- One grid point's stored block at row `p`, column `q`: the aggregated message plus the bias row's entry, clamped
    below at zero. -/
theorem pay2_apply (x0 : Vec Ideal S5000x64 .f32) (x1 : Vec Ideal S1x64 .f32) (p : Fin 5000) (q : Fin 64) :
    k2_pay1 (F := Ideal) x0 x1 (ix2 p q) = max (x0 (ix2 p q) + x1 (ix2 (0 : Fin 1) q)) 0 := by
  unfold k2_pay1
  simp only [shapeCast_self]
  rw [maximumf_apply, broadcast_apply]
  show max (_ + _) (Ideal.ofBits .f32 0x00000000#32) = _
  rw [Ideal.ofBits_zero_f32, broadcastTo_1b_ab_apply]

section Region2

/-- The printed index maps of region 2, decided over its ten grid points: the input's block and the output's block
    move together down the rows; the bias row is one block. -/
theorem idx_facts2 : ∀ t : Fin cfg2.N, win2_0.index t (0 : Fin 2) = win2_2.index t (0 : Fin 2) ∧ win2_0.index t (1 : Fin 2) = 0
    ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every block of rows is some grid point's. -/
theorem idx_onto2 : ∀ (q0 : Fin 10), ∃ t : Fin cfg2.N, win2_2.index t = ![q0.val, 0] :=
  (by decide +kernel : ∀ (q0 : Fin 10), ∃ t : Fin grid2.N, win2_2.index t = ![q0.val, 0])

variable (V : (c : Dev nD) → (b : Ref sig .tc) → Buf (Elt Ideal) ((c : Thread nD τ).loc b))

set_option maxHeartbeats 2000000 in
/-- What grid point `t` writes back is block `t` of the layer applied to the whole arrays the region finds. -/
theorem flushed2_eq (c : Dev nD) (t : Fin cfg2.N) :
    (dat2 V c).flushed 2 t = ((cfg2.win 2).blk t).view.read (Elt Ideal)
      (Cert.Layers.biasRelu (V c (Pipeline.arrRef spec2 0)) (V c (Pipeline.arrRef spec2 1))) := by
  show (cfg2.win 2).cut (grid2.coords t) ((dat2 V c).after 2 t) = _
  rw [after2_2]
  unfold out2_2
  rw [View.canon_unit_zero hz2_b]
  simp only [View.ld_unit_zero (S := S5000x64) hz2_b, View.ld_unit_zero (S := S1x64) hz2_b]
  obtain ⟨e0, e1, e2, e3, e6, e7⟩ := idx_facts2 t
  funext j
  obtain ⟨p, q, rfl⟩ : ∃ (p : Fin 5000) (q : Fin 64), j = ix2 p q := ⟨j 0, j 1, eq_ix2 j⟩
  have hr : win2_2.index t (0 : Fin 2) * 5000 + p.val < 50000 := by have := p.isLt; omega
  have h3 : ((cfg2.win 2).blk t).view.emb (ix2 p q) = ix2 (⟨win2_2.index t (0 : Fin 2) * 5000 + p.val, hr⟩ : Fin 50000) q := by
    funext a; apply Fin.ext
    match a with
    | ⟨0, _⟩ => show win2_2.index t (0 : Fin 2) * 5000 + 1 * p.val = win2_2.index t (0 : Fin 2) * 5000 + p.val; omega
    | ⟨1, _⟩ => show win2_2.index t (1 : Fin 2) * 64 + 1 * q.val = q.val; omega
  have h0 : ((cfg2.win 0).blk t).view.emb (ix2 p q) = ix2 (⟨win2_2.index t (0 : Fin 2) * 5000 + p.val, hr⟩ : Fin 50000) q := by
    funext a; apply Fin.ext
    match a with
    | ⟨0, _⟩ => show win2_0.index t (0 : Fin 2) * 5000 + 1 * p.val = win2_2.index t (0 : Fin 2) * 5000 + p.val; omega
    | ⟨1, _⟩ => show win2_0.index t (1 : Fin 2) * 64 + 1 * q.val = q.val; omega
  have h1 : ((cfg2.win 1).blk t).view.emb (ix2 (0 : Fin 1) q) = ix2 (0 : Fin 1) q := by
    funext a; apply Fin.ext
    match a with
    | ⟨0, _⟩ => show win2_1.index t (0 : Fin 2) * 1 + 1 * 0 = 0; omega
    | ⟨1, _⟩ => show win2_1.index t (1 : Fin 2) * 64 + 1 * q.val = q.val; omega
  show k2_pay1 (F := Ideal) (iblk2 V c 0 t) (iblk2 V c 1 t) (ix2 p q)
    = Cert.Layers.biasRelu (V c (Pipeline.arrRef spec2 0)) (V c (Pipeline.arrRef spec2 1)) (((cfg2.win 2).blk t).view.emb (ix2 p q))
  rw [h3, Cert.Layers.biasRelu_apply]
  refine (pay2_apply _ _ p q).trans ?_
  have e0 : iblk2 V c 0 t (ix2 p q) = V c (Pipeline.arrRef spec2 0) (ix2 (⟨win2_2.index t (0 : Fin 2) * 5000 + p.val, hr⟩ : Fin 50000) q) :=
    congrArg (V c (Pipeline.arrRef spec2 0)) h0
  have e1 : iblk2 V c 1 t (ix2 (0 : Fin 1) q) = V c (Pipeline.arrRef spec2 1) (ix2 (0 : Fin 1) q) :=
    congrArg (V c (Pipeline.arrRef spec2 1)) h1
  rw [e0, e1]

/-- An index of the output array is in point `t`'s block iff each coordinate is in the block's range on its axis. -/
theorem mem_blk2 (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v50).slice (win2_2.rect t)).set ↔ _
  rw [View.set_slice_whole, Rect.mem_set_unit]
  exact Iff.rfl

/-- The ten blocks of 5000 rows tile the output array: row `r` is in block `r / 5000`. -/
theorem cover2 (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := idx_onto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- After region 2 its output array holds the layer applied to the arrays the region found. -/
theorem final2 (c : Dev nD) : (dat2 V c).arrAt 2 cfg2.N
    = Cert.Layers.biasRelu (V c (Pipeline.arrRef spec2 0)) (V c (Pipeline.arrRef spec2 1)) :=
  (dat2 V c).arrAt_eq_of_cover 2 _ (fun t _ => flushed2_eq V c t) (cover2)

end Region2

/-- The left operand's row coordinate of the block product is the output's row. -/
theorem lhs3_0 (i : S5000x64.Idx) (r : dot_S5000x64_S64x64_S5000x64_1_0_0_1_n_n.contr.Idx) : (dot_S5000x64_S64x64_S5000x64_1_0_0_1_n_n.lhsIdx i r 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- The right operand's column coordinate of the block product is the output's column. -/
theorem rhs3_1 (i : S5000x64.Idx) (r : dot_S5000x64_S64x64_S5000x64_1_0_0_1_n_n.contr.Idx) : (dot_S5000x64_S64x64_S5000x64_1_0_0_1_n_n.rhsIdx i r 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- One grid point's stored block at row `p`, column `q`: the row of the activations' block times the column of the weights,
    summed over the 64 input features, plus the bias row's entry. At the ideal values the narrowing to bf16 changes nothing and the
    product accumulates into zero, so the entry is the plain sum. -/
theorem pay3_apply (x0 : Vec Ideal S5000x64 .f32) (x1 : Vec Ideal S64x64 .f32) (x2 : Vec Ideal S1x64 .f32) (p : Fin 5000) (q : Fin 64) :
    k3_pay1 (F := Ideal) x0 x1 x2 (ix2 p q) = (∑ k : Fin 64, x0 (ix2 p k) * x1 (ix2 k q)) + x2 (ix2 (0 : Fin 1) q) := by
  unfold k3_pay1
  simp only [shapeCast_self]
  rw [addf_apply, broadcastTo_1b_ab_apply]
  refine congrArg (· + x2 (ix2 (0 : Fin 1) q)) ?_
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs3_0 _ _
    | ⟨1, _⟩ => exact (dot_S5000x64_S64x64_S5000x64_1_0_0_1_n_n.lhsIdx_val_of_single rfl _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (dot_S5000x64_S64x64_S5000x64_1_0_0_1_n_n.rhsIdx_val_of_single rfl _ _).trans hk
    | ⟨1, _⟩ => exact rhs3_1 _ _)
  rw [truncf_apply, truncf_apply, el, er]

section Region3

/-- The printed index maps of region 3, decided over its ten grid points: the activations' block and the output's
    block move together down the rows, block `t` at rows `5000·t …`; the weights and the bias row are one block. -/
theorem idx_facts3 : ∀ t : Fin cfg3.N, win3_0.index t (0 : Fin 2) = win3_3.index t (0 : Fin 2) ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (1 : Fin 2) = 0 ∧ win3_3.index t (0 : Fin 2) ≤ 9 :=
  (by decide +kernel : ∀ t : Fin grid3.N, _)

/-- Every block of rows is some grid point's. -/
theorem idx_onto3 : ∀ (q0 : Fin 10), ∃ t : Fin cfg3.N, win3_3.index t = ![q0.val, 0] :=
  (by decide +kernel : ∀ (q0 : Fin 10), ∃ t : Fin grid3.N, win3_3.index t = ![q0.val, 0])

variable (V : (c : Dev nD) → (b : Ref sig .tc) → Buf (Elt Ideal) ((c : Thread nD τ).loc b))

set_option maxHeartbeats 2000000 in
/-- What grid point `t` writes back is block `t` of the layer applied to the whole arrays the region finds. -/
theorem flushed3_eq (c : Dev nD) (t : Fin cfg3.N) :
    (dat3 V c).flushed 3 t = ((cfg3.win 3).blk t).view.read (Elt Ideal)
      (Cert.Layers.dense (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero hz2_b]
  simp only [View.ld_unit_zero (S := S5000x64) hz2_b, View.ld_unit_zero (S := S64x64) hz2_b, View.ld_unit_zero (S := S1x64) hz2_b]
  obtain ⟨e0, e1, e2, e3, e4, e5, e6, e7⟩ := idx_facts3 t
  funext j
  obtain ⟨p, q, rfl⟩ : ∃ (p : Fin 5000) (q : Fin 64), j = ix2 p q := ⟨j 0, j 1, eq_ix2 j⟩
  have hr : win3_3.index t (0 : Fin 2) * 5000 + p.val < 50000 := by have := p.isLt; omega
  have h3 : ((cfg3.win 3).blk t).view.emb (ix2 p q) = ix2 (⟨win3_3.index t (0 : Fin 2) * 5000 + p.val, hr⟩ : Fin 50000) q := by
    funext a; apply Fin.ext
    match a with
    | ⟨0, _⟩ => show win3_3.index t (0 : Fin 2) * 5000 + 1 * p.val = win3_3.index t (0 : Fin 2) * 5000 + p.val; omega
    | ⟨1, _⟩ => show win3_3.index t (1 : Fin 2) * 64 + 1 * q.val = q.val; omega
  have h0 : ∀ k : Fin 64, ((cfg3.win 0).blk t).view.emb (ix2 p k) = ix2 (⟨win3_3.index t (0 : Fin 2) * 5000 + p.val, hr⟩ : Fin 50000) k := fun k => by
    funext a; apply Fin.ext
    match a with
    | ⟨0, _⟩ => show win3_0.index t (0 : Fin 2) * 5000 + 1 * p.val = win3_3.index t (0 : Fin 2) * 5000 + p.val; omega
    | ⟨1, _⟩ => show win3_0.index t (1 : Fin 2) * 64 + 1 * k.val = k.val; omega
  have h1 : ∀ k : Fin 64, ((cfg3.win 1).blk t).view.emb (ix2 k q) = ix2 k q := fun k => by
    funext a; apply Fin.ext
    match a with
    | ⟨0, _⟩ => show win3_1.index t (0 : Fin 2) * 64 + 1 * k.val = k.val; omega
    | ⟨1, _⟩ => show win3_1.index t (1 : Fin 2) * 64 + 1 * q.val = q.val; omega
  have h2 : ((cfg3.win 2).blk t).view.emb (ix2 (0 : Fin 1) q) = ix2 (0 : Fin 1) q := by
    funext a; apply Fin.ext
    match a with
    | ⟨0, _⟩ => show win3_2.index t (0 : Fin 2) * 1 + 1 * 0 = 0; omega
    | ⟨1, _⟩ => show win3_2.index t (1 : Fin 2) * 64 + 1 * q.val = q.val; omega
  show k3_pay1 (F := Ideal) (iblk3 V c 0 t) (iblk3 V c 1 t) (iblk3 V c 2 t) (ix2 p q)
    = Cert.Layers.dense (V c (Pipeline.arrRef spec3 0)) (V c (Pipeline.arrRef spec3 1)) (V c (Pipeline.arrRef spec3 2)) (((cfg3.win 3).blk t).view.emb (ix2 p q))
  rw [h3, Cert.Layers.dense_apply]
  refine (pay3_apply _ _ _ p q).trans ?_
  have e0 : ∀ k : Fin 64, iblk3 V c 0 t (ix2 p k) = V c (Pipeline.arrRef spec3 0) (ix2 (⟨win3_3.index t (0 : Fin 2) * 5000 + p.val, hr⟩ : Fin 50000) k) :=
    fun k => congrArg (V c (Pipeline.arrRef spec3 0)) (h0 k)
  have e1 : ∀ k : Fin 64, iblk3 V c 1 t (ix2 k q) = V c (Pipeline.arrRef spec3 1) (ix2 k q) :=
    fun k => congrArg (V c (Pipeline.arrRef spec3 1)) (h1 k)
  have e2 : iblk3 V c 2 t (ix2 (0 : Fin 1) q) = V c (Pipeline.arrRef spec3 2) (ix2 (0 : Fin 1) q) :=
    congrArg (V c (Pipeline.arrRef spec3 2)) h2
  simp only [e0, e1, e2]

/-- An index of the output array is in point `t`'s block iff each coordinate is in the block's range on its axis. -/
theorem mem_blk3 (t : Fin cfg3.N) (i : S50000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v54).slice (win3_3.rect t)).set ↔ _
  rw [View.set_slice_whole, Rect.mem_set_unit]
  exact Iff.rfl

/-- The ten blocks of 5000 rows tile the output array: row `r` is in block `r / 5000`. -/
theorem cover3 (i : S50000x64.Idx) : ∃ t : Fin cfg3.N, (cfg3.win 3).flush t = true ∧ i ∈ ((cfg3.win 3).blk t).view.set := by
  have hi0 : (i 0).val < 50000 := (i 0).isLt
  have hi1 : (i 1).val < 64 := (i 1).isLt
  obtain ⟨t, ht⟩ := idx_onto3 ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [mem_blk3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 64 ≤ (i 1).val ∧ (i 1).val < win3_3.index t (1 : Fin 2) * 64 + 64; omega

/-- After region 3 its output array holds the layer applied to the arrays the region found. -/
theorem final3 (c : Dev nD) : (dat3 V c).arrAt 3 cfg3.N
    = Cert.Layers.dense (V c (Pipeline.arrRef spec3 0)) (V c (Pipeline.arrRef spec3 1)) (V c (Pipeline.arrRef spec3 2)) :=
  (dat3 V c).arrAt_eq_of_cover 3 _ (fun t _ => flushed3_eq V c t) (cover3)

end Region3

end Cert.KernelIdeal.RegV

end
-- ==== Proof.ChainB.lean ====
/-
  The idealized kernel's buffers, boundary by boundary, through the first graph convolution's aggregation and output and
  the second one's product (boundaries 4–8); the statements are of the kinds the previous module explains.
-/
import proofs.«166900_j88373247083004_1_alg».proof.Proof.ChainA
import proofs.«166900_j88373247083004_1_alg».proof.Proof.RegionsB

set_option maxRecDepth 16384

noncomputable section

namespace Cert.KernelIdeal.Chain

open Cert.KernelIdeal Cert.KernelIdeal.Gen Idealize.ShloMosaic Idealize.ShloMosaic.TcCoe Idealize.SL.Sem
open Idealize.ShloMosaic.Pipeline (Dat)
open Idealize.ShloMosaic.StableHlo Idealize.ShloMosaic.ValueIdx

variable (m : (ℓ : Loc nD τ sig) → Buf (Elt Ideal) ℓ) (ρ : Dev nD → PrngReg)

theorem v3_at4 (c : Dev nD) : W4 m ρ c (Proc.devRef .tc main_v3) = Cert.ReferenceIdeal.Read.val_main_v3 (m ((c : Thread nD τ).loc main_arg1)) :=
  ((reg_step1 m ρ c main_v3 (by decide)).trans (((by host_keep hostOps1 : W3 m ρ c (Proc.devRef .tc main_v3) = W2 m ρ c (Proc.devRef .tc main_v3))).trans (reg_step0 m ρ c main_v3 (by decide)))).trans (v3_at1 m ρ c)

theorem v6_at4 (c : Dev nD) : W4 m ρ c (Proc.devRef .tc main_v6) = Cert.ReferenceIdeal.Read.val_main_v6 (m ((c : Thread nD τ).loc main_arg1)) :=
  ((reg_step1 m ρ c main_v6 (by decide)).trans (((by host_keep hostOps1 : W3 m ρ c (Proc.devRef .tc main_v6) = W2 m ρ c (Proc.devRef .tc main_v6))).trans (reg_step0 m ρ c main_v6 (by decide)))).trans (v6_at1 m ρ c)

theorem v26_at4 (c : Dev nD) : W4 m ρ c (Proc.devRef .tc main_v26) = Cert.ReferenceIdeal.Read.val_main_v26 (m ((c : Thread nD τ).loc main_arg1)) :=
  ((reg_step1 m ρ c main_v26 (by decide)).trans (((by host_keep hostOps1 : W3 m ρ c (Proc.devRef .tc main_v26) = W2 m ρ c (Proc.devRef .tc main_v26))).trans (reg_step0 m ρ c main_v26 (by decide)))).trans (v26_at1 m ρ c)

/-- Argument 5 is still as launched at boundary 4: nothing before it writes an argument. -/
theorem arg5_at4 (c : Dev nD) : W4 m ρ c (Proc.devRef .tc main_arg5) = (m ((c : Thread nD τ).loc main_arg5)) :=
  ((reg_step1 m ρ c main_arg5 (by decide)).trans (((by host_keep hostOps1 : W3 m ρ c (Proc.devRef .tc main_arg5) = W2 m ρ c (Proc.devRef .tc main_arg5))).trans ((reg_step0 m ρ c main_arg5 (by decide)).trans ((by host_keep hostOps0 : W1 m ρ c (Proc.devRef .tc main_arg5) = W0 m ρ c (Proc.devRef .tc main_arg5)))))).trans rfl

set_option maxHeartbeats 4000000 in
/-- Layer 1: the messages gathered along the edges, scaled and summed into their targets. -/
theorem v46_at5 (c : Dev nD) : W5 m ρ c (Proc.devRef .tc main_v46) = Cert.ReferenceIdeal.Read.val_main_v47 (m ((c : Thread nD τ).loc main_arg0)) (m ((c : Thread nD τ).loc main_arg1)) (m ((c : Thread nD τ).loc main_arg2)) (m ((c : Thread nD τ).loc main_arg3)) (m ((c : Thread nD τ).loc main_arg4)) :=
  by
  show StableHlo.after hostOps2 (W4 m ρ c) (Proc.devRef .tc main_v46) = _
  after_results <;> (rw [v33_at4 m ρ c, v3_at4 m ρ c, v6_at4 m ρ c, v26_at4 m ρ c]) <;> rfl

set_option maxHeartbeats 4000000 in
/-- Layer 1: the bias as a row. -/
theorem v49_at5 (c : Dev nD) : W5 m ρ c (Proc.devRef .tc main_v49) = shapeCast S1x64 (Cert.ReferenceIdeal.Read.val_main_v49 (m ((c : Thread nD τ).loc main_arg5))) shapeCasts_S64_S1x64 :=
  by
  show StableHlo.after hostOps2 (W4 m ρ c) (Proc.devRef .tc main_v49) = _
  after_results <;> (rw [arg5_at4 m ρ c]) <;> rfl

set_option maxHeartbeats 4000000 in
/-- Region 2: layer 1's output, the aggregated messages plus the bias, rectified. -/
theorem v50_at6 (c : Dev nD) : W6 m ρ c (Proc.devRef .tc main_v50) = Cert.ReferenceIdeal.Read.val_main_v53 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W6_arr m ρ c 2).trans ?_
  refine (RegV.final2 (V5 m ρ) c).trans ?_
  show Cert.Layers.biasRelu (W5 m ρ c (Proc.devRef .tc main_v46)) (W5 m ρ c (Proc.devRef .tc main_v49)) = _
  rw [v46_at5 m ρ c, v49_at5 m ρ c]
  exact (Cert.ReferenceIdeal.RefLayers.convOut_eq _ _ _ (fun q => shapeCast_a_1a_apply _ _ 0 q)).symm

theorem v50_at7 (c : Dev nD) : W7 m ρ c (Proc.devRef .tc main_v50) = Cert.ReferenceIdeal.Read.val_main_v53 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((by host_keep hostOps3 : W7 m ρ c (Proc.devRef .tc main_v50) = W6 m ρ c (Proc.devRef .tc main_v50))).trans (v50_at6 m ρ c)

/-- Argument 4 is still as launched at boundary 6. -/
theorem arg4_at6 (c : Dev nD) : W6 m ρ c (Proc.devRef .tc main_arg4) = (m ((c : Thread nD τ).loc main_arg4)) :=
  ((reg_step2 m ρ c main_arg4 (by decide)).trans (((by host_keep hostOps2 : W5 m ρ c (Proc.devRef .tc main_arg4) = W4 m ρ c (Proc.devRef .tc main_arg4))).trans ((reg_step1 m ρ c main_arg4 (by decide)).trans ((by host_keep hostOps1 : W3 m ρ c (Proc.devRef .tc main_arg4) = W2 m ρ c (Proc.devRef .tc main_arg4)))))).trans (arg4_at2 m ρ c)

set_option maxHeartbeats 4000000 in
/-- Layer 2: the weights. -/
theorem v52_at7 (c : Dev nD) : W7 m ρ c (Proc.devRef .tc main_v52) = Cert.ReferenceIdeal.Read.val_main_v55 (m ((c : Thread nD τ).loc main_arg4)) :=
  by
  show StableHlo.after hostOps3 (W6 m ρ c) (Proc.devRef .tc main_v52) = _
  after_results <;> (rw [arg4_at6 m ρ c]) <;> rfl

theorem v27_at6 (c : Dev nD) : W6 m ρ c (Proc.devRef .tc main_v27) = (broadcastInDim S64 ![] bcast_S_S64 (constant (F := Ideal) S_ .f32 0x00000000#32)) :=
  ((reg_step2 m ρ c main_v27 (by decide)).trans (((by host_keep hostOps2 : W5 m ρ c (Proc.devRef .tc main_v27) = W4 m ρ c (Proc.devRef .tc main_v27))).trans ((reg_step1 m ρ c main_v27 (by decide)).trans ((by host_keep hostOps1 : W3 m ρ c (Proc.devRef .tc main_v27) = W2 m ρ c (Proc.devRef .tc main_v27)))))).trans (v27_at2 m ρ c)

set_option maxHeartbeats 4000000 in
theorem v53_at7 (c : Dev nD) : W7 m ρ c (Proc.devRef .tc main_v53) = shapeCast S1x64 (broadcastInDim S64 ![] bcast_S_S64 (constant (F := Ideal) S_ .f32 0x00000000#32)) shapeCasts_S64_S1x64 :=
  by
  show StableHlo.after hostOps3 (W6 m ρ c) (Proc.devRef .tc main_v53) = _
  after_results <;> (rw [v27_at6 m ρ c]) <;> rfl

set_option maxHeartbeats 4000000 in
/-- Region 3: layer 2's product. -/
theorem v54_at8 (c : Dev nD) : W8 m ρ c (Proc.devRef .tc main_v54) = Cert.ReferenceIdeal.Read.val_main_v56 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W8_arr m ρ c 3).trans ?_
  refine (RegV.final3 (V7 m ρ) c).trans ?_
  show Cert.Layers.dense (W7 m ρ c (Proc.devRef .tc main_v50)) (W7 m ρ c (Proc.devRef .tc main_v52)) (W7 m ρ c (Proc.devRef .tc main_v53)) = _
  rw [v50_at7 m ρ c, v52_at7 m ρ c, v53_at7 m ρ c]
  exact (Cert.ReferenceIdeal.RefLayers.conv_eq _ _ _ zero_row64).symm

end Cert.KernelIdeal.Chain

end
-- ==== Proof.RegionsC.lean ====
/-
  What each pipelined region of the idealized kernel leaves in its output array, as one function of the arrays it finds.
  A region walks the 50000 rows in ten blocks of 5000: at each grid point it stages a block of rows of its input, the whole
  weight matrix and the bias row, computes the block of outputs, and writes it back.  Entry `(p, q)` of the stored block is
  row `p` of the staged rows against column `q` of the weights (the second graph convolution's output and the third one's product); the staged row `p` of block `t` is row `5000·t + p`
  of the array, so what point `t` writes back is block `t` of the layer function applied to the whole arrays; the ten blocks
  tile the output array, which therefore ends holding that function.
-/
import proofs.«166900_j88373247083004_1_alg».proof.Proof.Gen.KernelIdeal.Frame
import proofs.«166900_j88373247083004_1_alg».proof.Proof.Layers
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegV

open Cert.KernelIdeal Cert.KernelIdeal.Gen Idealize.ShloMosaic Idealize.ShloMosaic.TcCoe Idealize.SL.Sem
open Idealize.ShloMosaic.Pipeline (Dat)
open Idealize.ShloMosaic.ValueIdx

theorem hz2_c : (![0, 0] : Fin 2 → Nat) = fun _ => 0 := funext fun a => by fin_cases a <;> rfl

/-- One grid point's stored block at row `p`, column `q`: the aggregated message plus the bias row's entry, clamped
    below at zero. -/
theorem pay4_apply (x0 : Vec Ideal S5000x64 .f32) (x1 : Vec Ideal S1x64 .f32) (p : Fin 5000) (q : Fin 64) :
    k4_pay1 (F := Ideal) x0 x1 (ix2 p q) = max (x0 (ix2 p q) + x1 (ix2 (0 : Fin 1) q)) 0 := by
  unfold k4_pay1
  simp only [shapeCast_self]
  rw [maximumf_apply, broadcast_apply]
  show max (_ + _) (Ideal.ofBits .f32 0x00000000#32) = _
  rw [Ideal.ofBits_zero_f32, broadcastTo_1b_ab_apply]

section Region4

/-- The printed index maps of region 4, decided over its ten grid points: the input's block and the output's block
    move together down the rows; the bias row is one block. -/
theorem idx_facts4 : ∀ t : Fin cfg4.N, win4_0.index t (0 : Fin 2) = win4_2.index t (0 : Fin 2) ∧ win4_0.index t (1 : Fin 2) = 0
    ∧ win4_1.index t (0 : Fin 2) = 0 ∧ win4_1.index t (1 : Fin 2) = 0
    ∧ win4_2.index t (1 : Fin 2) = 0 ∧ win4_2.index t (0 : Fin 2) ≤ 9 :=
  (by decide +kernel : ∀ t : Fin grid4.N, _)

/-- Every block of rows is some grid point's. -/
theorem idx_onto4 : ∀ (q0 : Fin 10), ∃ t : Fin cfg4.N, win4_2.index t = ![q0.val, 0] :=
  (by decide +kernel : ∀ (q0 : Fin 10), ∃ t : Fin grid4.N, win4_2.index t = ![q0.val, 0])

variable (V : (c : Dev nD) → (b : Ref sig .tc) → Buf (Elt Ideal) ((c : Thread nD τ).loc b))

set_option maxHeartbeats 2000000 in
/-- What grid point `t` writes back is block `t` of the layer applied to the whole arrays the region finds. -/
theorem flushed4_eq (c : Dev nD) (t : Fin cfg4.N) :
    (dat4 V c).flushed 2 t = ((cfg4.win 2).blk t).view.read (Elt Ideal)
      (Cert.Layers.biasRelu (V c (Pipeline.arrRef spec4 0)) (V c (Pipeline.arrRef spec4 1))) := by
  show (cfg4.win 2).cut (grid4.coords t) ((dat4 V c).after 2 t) = _
  rw [after4_2]
  unfold out4_2
  rw [View.canon_unit_zero hz2_c]
  simp only [View.ld_unit_zero (S := S5000x64) hz2_c, View.ld_unit_zero (S := S1x64) hz2_c]
  obtain ⟨e0, e1, e2, e3, e6, e7⟩ := idx_facts4 t
  funext j
  obtain ⟨p, q, rfl⟩ : ∃ (p : Fin 5000) (q : Fin 64), j = ix2 p q := ⟨j 0, j 1, eq_ix2 j⟩
  have hr : win4_2.index t (0 : Fin 2) * 5000 + p.val < 50000 := by have := p.isLt; omega
  have h3 : ((cfg4.win 2).blk t).view.emb (ix2 p q) = ix2 (⟨win4_2.index t (0 : Fin 2) * 5000 + p.val, hr⟩ : Fin 50000) q := by
    funext a; apply Fin.ext
    match a with
    | ⟨0, _⟩ => show win4_2.index t (0 : Fin 2) * 5000 + 1 * p.val = win4_2.index t (0 : Fin 2) * 5000 + p.val; omega
    | ⟨1, _⟩ => show win4_2.index t (1 : Fin 2) * 64 + 1 * q.val = q.val; omega
  have h0 : ((cfg4.win 0).blk t).view.emb (ix2 p q) = ix2 (⟨win4_2.index t (0 : Fin 2) * 5000 + p.val, hr⟩ : Fin 50000) q := by
    funext a; apply Fin.ext
    match a with
    | ⟨0, _⟩ => show win4_0.index t (0 : Fin 2) * 5000 + 1 * p.val = win4_2.index t (0 : Fin 2) * 5000 + p.val; omega
    | ⟨1, _⟩ => show win4_0.index t (1 : Fin 2) * 64 + 1 * q.val = q.val; omega
  have h1 : ((cfg4.win 1).blk t).view.emb (ix2 (0 : Fin 1) q) = ix2 (0 : Fin 1) q := by
    funext a; apply Fin.ext
    match a with
    | ⟨0, _⟩ => show win4_1.index t (0 : Fin 2) * 1 + 1 * 0 = 0; omega
    | ⟨1, _⟩ => show win4_1.index t (1 : Fin 2) * 64 + 1 * q.val = q.val; omega
  show k4_pay1 (F := Ideal) (iblk4 V c 0 t) (iblk4 V c 1 t) (ix2 p q)
    = Cert.Layers.biasRelu (V c (Pipeline.arrRef spec4 0)) (V c (Pipeline.arrRef spec4 1)) (((cfg4.win 2).blk t).view.emb (ix2 p q))
  rw [h3, Cert.Layers.biasRelu_apply]
  refine (pay4_apply _ _ p q).trans ?_
  have e0 : iblk4 V c 0 t (ix2 p q) = V c (Pipeline.arrRef spec4 0) (ix2 (⟨win4_2.index t (0 : Fin 2) * 5000 + p.val, hr⟩ : Fin 50000) q) :=
    congrArg (V c (Pipeline.arrRef spec4 0)) h0
  have e1 : iblk4 V c 1 t (ix2 (0 : Fin 1) q) = V c (Pipeline.arrRef spec4 1) (ix2 (0 : Fin 1) q) :=
    congrArg (V c (Pipeline.arrRef spec4 1)) h1
  rw [e0, e1]

/-- An index of the output array is in point `t`'s block iff each coordinate is in the block's range on its axis. -/
theorem mem_blk4 (t : Fin cfg4.N) (i : S50000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v71).slice (win4_2.rect t)).set ↔ _
  rw [View.set_slice_whole, Rect.mem_set_unit]
  exact Iff.rfl

/-- The ten blocks of 5000 rows tile the output array: row `r` is in block `r / 5000`. -/
theorem cover4 (i : S50000x64.Idx) : ∃ t : Fin cfg4.N, (cfg4.win 2).flush t = true ∧ i ∈ ((cfg4.win 2).blk t).view.set := by
  have hi0 : (i 0).val < 50000 := (i 0).isLt
  have hi1 : (i 1).val < 64 := (i 1).isLt
  obtain ⟨t, ht⟩ := idx_onto4 ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_blk4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 64 ≤ (i 1).val ∧ (i 1).val < win4_2.index t (1 : Fin 2) * 64 + 64; omega

/-- After region 4 its output array holds the layer applied to the arrays the region found. -/
theorem final4 (c : Dev nD) : (dat4 V c).arrAt 2 cfg4.N
    = Cert.Layers.biasRelu (V c (Pipeline.arrRef spec4 0)) (V c (Pipeline.arrRef spec4 1)) :=
  (dat4 V c).arrAt_eq_of_cover 2 _ (fun t _ => flushed4_eq V c t) (cover4)

end Region4

/-- The left operand's row coordinate of the block product is the output's row. -/
theorem lhs5_0 (i : S5000x64.Idx) (r : dot_S5000x64_S64x64_S5000x64_1_0_0_1_n_n.contr.Idx) : (dot_S5000x64_S64x64_S5000x64_1_0_0_1_n_n.lhsIdx i r 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- The right operand's column coordinate of the block product is the output's column. -/
theorem rhs5_1 (i : S5000x64.Idx) (r : dot_S5000x64_S64x64_S5000x64_1_0_0_1_n_n.contr.Idx) : (dot_S5000x64_S64x64_S5000x64_1_0_0_1_n_n.rhsIdx i r 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- One grid point's stored block at row `p`, column `q`: the row of the activations' block times the column of the weights,
    summed over the 64 input features, plus the bias row's entry. At the ideal values the narrowing to bf16 changes nothing and the
    product accumulates into zero, so the entry is the plain sum. -/
theorem pay5_apply (x0 : Vec Ideal S5000x64 .f32) (x1 : Vec Ideal S64x64 .f32) (x2 : Vec Ideal S1x64 .f32) (p : Fin 5000) (q : Fin 64) :
    k5_pay1 (F := Ideal) x0 x1 x2 (ix2 p q) = (∑ k : Fin 64, x0 (ix2 p k) * x1 (ix2 k q)) + x2 (ix2 (0 : Fin 1) q) := by
  unfold k5_pay1
  simp only [shapeCast_self]
  rw [addf_apply, broadcastTo_1b_ab_apply]
  refine congrArg (· + x2 (ix2 (0 : Fin 1) q)) ?_
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs5_0 _ _
    | ⟨1, _⟩ => exact (dot_S5000x64_S64x64_S5000x64_1_0_0_1_n_n.lhsIdx_val_of_single rfl _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (dot_S5000x64_S64x64_S5000x64_1_0_0_1_n_n.rhsIdx_val_of_single rfl _ _).trans hk
    | ⟨1, _⟩ => exact rhs5_1 _ _)
  rw [truncf_apply, truncf_apply, el, er]

section Region5

/-- The printed index maps of region 5, decided over its ten grid points: the activations' block and the output's
    block move together down the rows, block `t` at rows `5000·t …`; the weights and the bias row are one block. -/
theorem idx_facts5 : ∀ t : Fin cfg5.N, win5_0.index t (0 : Fin 2) = win5_3.index t (0 : Fin 2) ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (1 : Fin 2) = 0 ∧ win5_3.index t (0 : Fin 2) ≤ 9 :=
  (by decide +kernel : ∀ t : Fin grid5.N, _)

/-- Every block of rows is some grid point's. -/
theorem idx_onto5 : ∀ (q0 : Fin 10), ∃ t : Fin cfg5.N, win5_3.index t = ![q0.val, 0] :=
  (by decide +kernel : ∀ (q0 : Fin 10), ∃ t : Fin grid5.N, win5_3.index t = ![q0.val, 0])

variable (V : (c : Dev nD) → (b : Ref sig .tc) → Buf (Elt Ideal) ((c : Thread nD τ).loc b))

set_option maxHeartbeats 2000000 in
/-- What grid point `t` writes back is block `t` of the layer applied to the whole arrays the region finds. -/
theorem flushed5_eq (c : Dev nD) (t : Fin cfg5.N) :
    (dat5 V c).flushed 3 t = ((cfg5.win 3).blk t).view.read (Elt Ideal)
      (Cert.Layers.dense (V c (Pipeline.arrRef spec5 0)) (V c (Pipeline.arrRef spec5 1)) (V c (Pipeline.arrRef spec5 2))) := by
  show (cfg5.win 3).cut (grid5.coords t) ((dat5 V c).after 3 t) = _
  rw [after5_3]
  unfold out5_3
  rw [View.canon_unit_zero hz2_c]
  simp only [View.ld_unit_zero (S := S5000x64) hz2_c, View.ld_unit_zero (S := S64x64) hz2_c, View.ld_unit_zero (S := S1x64) hz2_c]
  obtain ⟨e0, e1, e2, e3, e4, e5, e6, e7⟩ := idx_facts5 t
  funext j
  obtain ⟨p, q, rfl⟩ : ∃ (p : Fin 5000) (q : Fin 64), j = ix2 p q := ⟨j 0, j 1, eq_ix2 j⟩
  have hr : win5_3.index t (0 : Fin 2) * 5000 + p.val < 50000 := by have := p.isLt; omega
  have h3 : ((cfg5.win 3).blk t).view.emb (ix2 p q) = ix2 (⟨win5_3.index t (0 : Fin 2) * 5000 + p.val, hr⟩ : Fin 50000) q := by
    funext a; apply Fin.ext
    match a with
    | ⟨0, _⟩ => show win5_3.index t (0 : Fin 2) * 5000 + 1 * p.val = win5_3.index t (0 : Fin 2) * 5000 + p.val; omega
    | ⟨1, _⟩ => show win5_3.index t (1 : Fin 2) * 64 + 1 * q.val = q.val; omega
  have h0 : ∀ k : Fin 64, ((cfg5.win 0).blk t).view.emb (ix2 p k) = ix2 (⟨win5_3.index t (0 : Fin 2) * 5000 + p.val, hr⟩ : Fin 50000) k := fun k => by
    funext a; apply Fin.ext
    match a with
    | ⟨0, _⟩ => show win5_0.index t (0 : Fin 2) * 5000 + 1 * p.val = win5_3.index t (0 : Fin 2) * 5000 + p.val; omega
    | ⟨1, _⟩ => show win5_0.index t (1 : Fin 2) * 64 + 1 * k.val = k.val; omega
  have h1 : ∀ k : Fin 64, ((cfg5.win 1).blk t).view.emb (ix2 k q) = ix2 k q := fun k => by
    funext a; apply Fin.ext
    match a with
    | ⟨0, _⟩ => show win5_1.index t (0 : Fin 2) * 64 + 1 * k.val = k.val; omega
    | ⟨1, _⟩ => show win5_1.index t (1 : Fin 2) * 64 + 1 * q.val = q.val; omega
  have h2 : ((cfg5.win 2).blk t).view.emb (ix2 (0 : Fin 1) q) = ix2 (0 : Fin 1) q := by
    funext a; apply Fin.ext
    match a with
    | ⟨0, _⟩ => show win5_2.index t (0 : Fin 2) * 1 + 1 * 0 = 0; omega
    | ⟨1, _⟩ => show win5_2.index t (1 : Fin 2) * 64 + 1 * q.val = q.val; omega
  show k5_pay1 (F := Ideal) (iblk5 V c 0 t) (iblk5 V c 1 t) (iblk5 V c 2 t) (ix2 p q)
    = Cert.Layers.dense (V c (Pipeline.arrRef spec5 0)) (V c (Pipeline.arrRef spec5 1)) (V c (Pipeline.arrRef spec5 2)) (((cfg5.win 3).blk t).view.emb (ix2 p q))
  rw [h3, Cert.Layers.dense_apply]
  refine (pay5_apply _ _ _ p q).trans ?_
  have e0 : ∀ k : Fin 64, iblk5 V c 0 t (ix2 p k) = V c (Pipeline.arrRef spec5 0) (ix2 (⟨win5_3.index t (0 : Fin 2) * 5000 + p.val, hr⟩ : Fin 50000) k) :=
    fun k => congrArg (V c (Pipeline.arrRef spec5 0)) (h0 k)
  have e1 : ∀ k : Fin 64, iblk5 V c 1 t (ix2 k q) = V c (Pipeline.arrRef spec5 1) (ix2 k q) :=
    fun k => congrArg (V c (Pipeline.arrRef spec5 1)) (h1 k)
  have e2 : iblk5 V c 2 t (ix2 (0 : Fin 1) q) = V c (Pipeline.arrRef spec5 2) (ix2 (0 : Fin 1) q) :=
    congrArg (V c (Pipeline.arrRef spec5 2)) h2
  simp only [e0, e1, e2]

/-- An index of the output array is in point `t`'s block iff each coordinate is in the block's range on its axis. -/
theorem mem_blk5 (t : Fin cfg5.N) (i : S50000x64.Idx) :
    i ∈ ((cfg5.win 3).blk t).view.set ↔ ∀ a : Fin 2, win5_3.index t a * S5000x64.size a ≤ (i a).val ∧ (i a).val < win5_3.index t a * S5000x64.size a + S5000x64.size a := by
  show i ∈ ((View.whole main_v75).slice (win5_3.rect t)).set ↔ _
  rw [View.set_slice_whole, Rect.mem_set_unit]
  exact Iff.rfl

/-- The ten blocks of 5000 rows tile the output array: row `r` is in block `r / 5000`. -/
theorem cover5 (i : S50000x64.Idx) : ∃ t : Fin cfg5.N, (cfg5.win 3).flush t = true ∧ i ∈ ((cfg5.win 3).blk t).view.set := by
  have hi0 : (i 0).val < 50000 := (i 0).isLt
  have hi1 : (i 1).val < 64 := (i 1).isLt
  obtain ⟨t, ht⟩ := idx_onto5 ⟨(i 0).val / 5000, by omega⟩
  have q0 : win5_3.index t (0 : Fin 2) = (i 0).val / 5000 := congrFun ht 0
  have q1 : win5_3.index t (1 : Fin 2) = 0 := congrFun ht 1
  refine ⟨t, flush5_3 t, ?_⟩
  rw [mem_blk5]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 64 ≤ (i 1).val ∧ (i 1).val < win5_3.index t (1 : Fin 2) * 64 + 64; omega

/-- After region 5 its output array holds the layer applied to the arrays the region found. -/
theorem final5 (c : Dev nD) : (dat5 V c).arrAt 3 cfg5.N
    = Cert.Layers.dense (V c (Pipeline.arrRef spec5 0)) (V c (Pipeline.arrRef spec5 1)) (V c (Pipeline.arrRef spec5 2)) :=
  (dat5 V c).arrAt_eq_of_cover 3 _ (fun t _ => flushed5_eq V c t) (cover5)

end Region5

end Cert.KernelIdeal.RegV

end
-- ==== Proof.ChainC.lean ====
/-
  The idealized kernel's buffers, boundary by boundary, through the second graph convolution's aggregation and output and
  the third one's product (boundaries 8–12).
-/
import proofs.«166900_j88373247083004_1_alg».proof.Proof.ChainB
import proofs.«166900_j88373247083004_1_alg».proof.Proof.RegionsC

set_option maxRecDepth 16384

noncomputable section

namespace Cert.KernelIdeal.Chain

open Cert.KernelIdeal Cert.KernelIdeal.Gen Idealize.ShloMosaic Idealize.ShloMosaic.TcCoe Idealize.SL.Sem
open Idealize.ShloMosaic.Pipeline (Dat)
open Idealize.ShloMosaic.StableHlo Idealize.ShloMosaic.ValueIdx

variable (m : (ℓ : Loc nD τ sig) → Buf (Elt Ideal) ℓ) (ρ : Dev nD → PrngReg)

theorem v3_at8 (c : Dev nD) : W8 m ρ c (Proc.devRef .tc main_v3) = Cert.ReferenceIdeal.Read.val_main_v3 (m ((c : Thread nD τ).loc main_arg1)) :=
  ((reg_step3 m ρ c main_v3 (by decide)).trans (((by host_keep hostOps3 : W7 m ρ c (Proc.devRef .tc main_v3) = W6 m ρ c (Proc.devRef .tc main_v3))).trans ((reg_step2 m ρ c main_v3 (by decide)).trans ((by host_keep hostOps2 : W5 m ρ c (Proc.devRef .tc main_v3) = W4 m ρ c (Proc.devRef .tc main_v3)))))).trans (v3_at4 m ρ c)

theorem v6_at8 (c : Dev nD) : W8 m ρ c (Proc.devRef .tc main_v6) = Cert.ReferenceIdeal.Read.val_main_v6 (m ((c : Thread nD τ).loc main_arg1)) :=
  ((reg_step3 m ρ c main_v6 (by decide)).trans (((by host_keep hostOps3 : W7 m ρ c (Proc.devRef .tc main_v6) = W6 m ρ c (Proc.devRef .tc main_v6))).trans ((reg_step2 m ρ c main_v6 (by decide)).trans ((by host_keep hostOps2 : W5 m ρ c (Proc.devRef .tc main_v6) = W4 m ρ c (Proc.devRef .tc main_v6)))))).trans (v6_at4 m ρ c)

theorem v26_at8 (c : Dev nD) : W8 m ρ c (Proc.devRef .tc main_v26) = Cert.ReferenceIdeal.Read.val_main_v26 (m ((c : Thread nD τ).loc main_arg1)) :=
  ((reg_step3 m ρ c main_v26 (by decide)).trans (((by host_keep hostOps3 : W7 m ρ c (Proc.devRef .tc main_v26) = W6 m ρ c (Proc.devRef .tc main_v26))).trans ((reg_step2 m ρ c main_v26 (by decide)).trans ((by host_keep hostOps2 : W5 m ρ c (Proc.devRef .tc main_v26) = W4 m ρ c (Proc.devRef .tc main_v26)))))).trans (v26_at4 m ρ c)

/-- Argument 5 is still as launched at boundary 8. -/
theorem arg5_at8 (c : Dev nD) : W8 m ρ c (Proc.devRef .tc main_arg5) = (m ((c : Thread nD τ).loc main_arg5)) :=
  ((reg_step3 m ρ c main_arg5 (by decide)).trans (((by host_keep hostOps3 : W7 m ρ c (Proc.devRef .tc main_arg5) = W6 m ρ c (Proc.devRef .tc main_arg5))).trans ((reg_step2 m ρ c main_arg5 (by decide)).trans ((by host_keep hostOps2 : W5 m ρ c (Proc.devRef .tc main_arg5) = W4 m ρ c (Proc.devRef .tc main_arg5)))))).trans (arg5_at4 m ρ c)

set_option maxHeartbeats 4000000 in
/-- Layer 2: the messages gathered along the edges, scaled and summed into their targets. -/
theorem v67_at9 (c : Dev nD) : W9 m ρ c (Proc.devRef .tc main_v67) = Cert.ReferenceIdeal.Read.val_main_v69 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  by
  show StableHlo.after hostOps4 (W8 m ρ c) (Proc.devRef .tc main_v67) = _
  after_results <;> (rw [v54_at8 m ρ c, v3_at8 m ρ c, v6_at8 m ρ c, v26_at8 m ρ c]) <;> rfl

set_option maxHeartbeats 4000000 in
/-- Layer 2: the bias as a row. -/
theorem v70_at9 (c : Dev nD) : W9 m ρ c (Proc.devRef .tc main_v70) = shapeCast S1x64 (Cert.ReferenceIdeal.Read.val_main_v71 (m ((c : Thread nD τ).loc main_arg5))) shapeCasts_S64_S1x64 :=
  by
  show StableHlo.after hostOps4 (W8 m ρ c) (Proc.devRef .tc main_v70) = _
  after_results <;> (rw [arg5_at8 m ρ c]) <;> rfl

set_option maxHeartbeats 4000000 in
/-- Region 4: layer 2's output, the aggregated messages plus the bias, rectified. -/
theorem v71_at10 (c : Dev nD) : W10 m ρ c (Proc.devRef .tc main_v71) = Cert.ReferenceIdeal.Read.val_main_v75 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W10_arr m ρ c 2).trans ?_
  refine (RegV.final4 (V9 m ρ) c).trans ?_
  show Cert.Layers.biasRelu (W9 m ρ c (Proc.devRef .tc main_v67)) (W9 m ρ c (Proc.devRef .tc main_v70)) = _
  rw [v67_at9 m ρ c, v70_at9 m ρ c]
  exact (Cert.ReferenceIdeal.RefLayers.convOut_eq _ _ _ (fun q => shapeCast_a_1a_apply _ _ 0 q)).symm

theorem v71_at11 (c : Dev nD) : W11 m ρ c (Proc.devRef .tc main_v71) = Cert.ReferenceIdeal.Read.val_main_v75 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((by host_keep hostOps5 : W11 m ρ c (Proc.devRef .tc main_v71) = W10 m ρ c (Proc.devRef .tc main_v71))).trans (v71_at10 m ρ c)

/-- Argument 4 is still as launched at boundary 10. -/
theorem arg4_at10 (c : Dev nD) : W10 m ρ c (Proc.devRef .tc main_arg4) = (m ((c : Thread nD τ).loc main_arg4)) :=
  ((reg_step4 m ρ c main_arg4 (by decide)).trans (((by host_keep hostOps4 : W9 m ρ c (Proc.devRef .tc main_arg4) = W8 m ρ c (Proc.devRef .tc main_arg4))).trans ((reg_step3 m ρ c main_arg4 (by decide)).trans ((by host_keep hostOps3 : W7 m ρ c (Proc.devRef .tc main_arg4) = W6 m ρ c (Proc.devRef .tc main_arg4)))))).trans (arg4_at6 m ρ c)

set_option maxHeartbeats 4000000 in
/-- Layer 3: the weights. -/
theorem v73_at11 (c : Dev nD) : W11 m ρ c (Proc.devRef .tc main_v73) = Cert.ReferenceIdeal.Read.val_main_v77 (m ((c : Thread nD τ).loc main_arg4)) :=
  by
  show StableHlo.after hostOps5 (W10 m ρ c) (Proc.devRef .tc main_v73) = _
  after_results <;> (rw [arg4_at10 m ρ c]) <;> rfl

theorem v27_at10 (c : Dev nD) : W10 m ρ c (Proc.devRef .tc main_v27) = (broadcastInDim S64 ![] bcast_S_S64 (constant (F := Ideal) S_ .f32 0x00000000#32)) :=
  ((reg_step4 m ρ c main_v27 (by decide)).trans (((by host_keep hostOps4 : W9 m ρ c (Proc.devRef .tc main_v27) = W8 m ρ c (Proc.devRef .tc main_v27))).trans ((reg_step3 m ρ c main_v27 (by decide)).trans ((by host_keep hostOps3 : W7 m ρ c (Proc.devRef .tc main_v27) = W6 m ρ c (Proc.devRef .tc main_v27)))))).trans (v27_at6 m ρ c)

set_option maxHeartbeats 4000000 in
theorem v74_at11 (c : Dev nD) : W11 m ρ c (Proc.devRef .tc main_v74) = shapeCast S1x64 (broadcastInDim S64 ![] bcast_S_S64 (constant (F := Ideal) S_ .f32 0x00000000#32)) shapeCasts_S64_S1x64 :=
  by
  show StableHlo.after hostOps5 (W10 m ρ c) (Proc.devRef .tc main_v74) = _
  after_results <;> (rw [v27_at10 m ρ c]) <;> rfl

set_option maxHeartbeats 4000000 in
/-- Region 5: layer 3's product. -/
theorem v75_at12 (c : Dev nD) : W12 m ρ c (Proc.devRef .tc main_v75) = Cert.ReferenceIdeal.Read.val_main_v78 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W12_arr m ρ c 3).trans ?_
  refine (RegV.final5 (V11 m ρ) c).trans ?_
  show Cert.Layers.dense (W11 m ρ c (Proc.devRef .tc main_v71)) (W11 m ρ c (Proc.devRef .tc main_v73)) (W11 m ρ c (Proc.devRef .tc main_v74)) = _
  rw [v71_at11 m ρ c, v73_at11 m ρ c, v74_at11 m ρ c]
  exact (Cert.ReferenceIdeal.RefLayers.conv_eq _ _ _ zero_row64).symm

end Cert.KernelIdeal.Chain

end
-- ==== Proof.RegionsD.lean ====
/-
  What each pipelined region of the idealized kernel leaves in its output array, as one function of the arrays it finds.
  A region walks the 50000 rows in ten blocks of 5000: at each grid point it stages a block of rows of its input, the whole
  weight matrix and the bias row, computes the block of outputs, and writes it back.  Entry `(p, q)` of the stored block is
  row `p` of the staged rows against column `q` of the weights (the third graph convolution's output and the two heads); the staged row `p` of block `t` is row `5000·t + p`
  of the array, so what point `t` writes back is block `t` of the layer function applied to the whole arrays; the ten blocks
  tile the output array, which therefore ends holding that function.
-/
import proofs.«166900_j88373247083004_1_alg».proof.Proof.Gen.KernelIdeal.Frame
import proofs.«166900_j88373247083004_1_alg».proof.Proof.Layers
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegV

open Cert.KernelIdeal Cert.KernelIdeal.Gen Idealize.ShloMosaic Idealize.ShloMosaic.TcCoe Idealize.SL.Sem
open Idealize.ShloMosaic.Pipeline (Dat)
open Idealize.ShloMosaic.ValueIdx

theorem hz2_d : (![0, 0] : Fin 2 → Nat) = fun _ => 0 := funext fun a => by fin_cases a <;> rfl

/-- One grid point's stored block at row `p`, column `q`: the aggregated message plus the bias row's entry, clamped
    below at zero. -/
theorem pay6_apply (x0 : Vec Ideal S5000x64 .f32) (x1 : Vec Ideal S1x64 .f32) (p : Fin 5000) (q : Fin 64) :
    k6_pay1 (F := Ideal) x0 x1 (ix2 p q) = max (x0 (ix2 p q) + x1 (ix2 (0 : Fin 1) q)) 0 := by
  unfold k6_pay1
  simp only [shapeCast_self]
  rw [maximumf_apply, broadcast_apply]
  show max (_ + _) (Ideal.ofBits .f32 0x00000000#32) = _
  rw [Ideal.ofBits_zero_f32, broadcastTo_1b_ab_apply]

section Region6

/-- The printed index maps of region 6, decided over its ten grid points: the input's block and the output's block
    move together down the rows; the bias row is one block. -/
theorem idx_facts6 : ∀ t : Fin cfg6.N, win6_0.index t (0 : Fin 2) = win6_2.index t (0 : Fin 2) ∧ win6_0.index t (1 : Fin 2) = 0
    ∧ win6_1.index t (0 : Fin 2) = 0 ∧ win6_1.index t (1 : Fin 2) = 0
    ∧ win6_2.index t (1 : Fin 2) = 0 ∧ win6_2.index t (0 : Fin 2) ≤ 9 :=
  (by decide +kernel : ∀ t : Fin grid6.N, _)

/-- Every block of rows is some grid point's. -/
theorem idx_onto6 : ∀ (q0 : Fin 10), ∃ t : Fin cfg6.N, win6_2.index t = ![q0.val, 0] :=
  (by decide +kernel : ∀ (q0 : Fin 10), ∃ t : Fin grid6.N, win6_2.index t = ![q0.val, 0])

variable (V : (c : Dev nD) → (b : Ref sig .tc) → Buf (Elt Ideal) ((c : Thread nD τ).loc b))

set_option maxHeartbeats 2000000 in
/-- What grid point `t` writes back is block `t` of the layer applied to the whole arrays the region finds. -/
theorem flushed6_eq (c : Dev nD) (t : Fin cfg6.N) :
    (dat6 V c).flushed 2 t = ((cfg6.win 2).blk t).view.read (Elt Ideal)
      (Cert.Layers.biasRelu (V c (Pipeline.arrRef spec6 0)) (V c (Pipeline.arrRef spec6 1))) := by
  show (cfg6.win 2).cut (grid6.coords t) ((dat6 V c).after 2 t) = _
  rw [after6_2]
  unfold out6_2
  rw [View.canon_unit_zero hz2_d]
  simp only [View.ld_unit_zero (S := S5000x64) hz2_d, View.ld_unit_zero (S := S1x64) hz2_d]
  obtain ⟨e0, e1, e2, e3, e6, e7⟩ := idx_facts6 t
  funext j
  obtain ⟨p, q, rfl⟩ : ∃ (p : Fin 5000) (q : Fin 64), j = ix2 p q := ⟨j 0, j 1, eq_ix2 j⟩
  have hr : win6_2.index t (0 : Fin 2) * 5000 + p.val < 50000 := by have := p.isLt; omega
  have h3 : ((cfg6.win 2).blk t).view.emb (ix2 p q) = ix2 (⟨win6_2.index t (0 : Fin 2) * 5000 + p.val, hr⟩ : Fin 50000) q := by
    funext a; apply Fin.ext
    match a with
    | ⟨0, _⟩ => show win6_2.index t (0 : Fin 2) * 5000 + 1 * p.val = win6_2.index t (0 : Fin 2) * 5000 + p.val; omega
    | ⟨1, _⟩ => show win6_2.index t (1 : Fin 2) * 64 + 1 * q.val = q.val; omega
  have h0 : ((cfg6.win 0).blk t).view.emb (ix2 p q) = ix2 (⟨win6_2.index t (0 : Fin 2) * 5000 + p.val, hr⟩ : Fin 50000) q := by
    funext a; apply Fin.ext
    match a with
    | ⟨0, _⟩ => show win6_0.index t (0 : Fin 2) * 5000 + 1 * p.val = win6_2.index t (0 : Fin 2) * 5000 + p.val; omega
    | ⟨1, _⟩ => show win6_0.index t (1 : Fin 2) * 64 + 1 * q.val = q.val; omega
  have h1 : ((cfg6.win 1).blk t).view.emb (ix2 (0 : Fin 1) q) = ix2 (0 : Fin 1) q := by
    funext a; apply Fin.ext
    match a with
    | ⟨0, _⟩ => show win6_1.index t (0 : Fin 2) * 1 + 1 * 0 = 0; omega
    | ⟨1, _⟩ => show win6_1.index t (1 : Fin 2) * 64 + 1 * q.val = q.val; omega
  show k6_pay1 (F := Ideal) (iblk6 V c 0 t) (iblk6 V c 1 t) (ix2 p q)
    = Cert.Layers.biasRelu (V c (Pipeline.arrRef spec6 0)) (V c (Pipeline.arrRef spec6 1)) (((cfg6.win 2).blk t).view.emb (ix2 p q))
  rw [h3, Cert.Layers.biasRelu_apply]
  refine (pay6_apply _ _ p q).trans ?_
  have e0 : iblk6 V c 0 t (ix2 p q) = V c (Pipeline.arrRef spec6 0) (ix2 (⟨win6_2.index t (0 : Fin 2) * 5000 + p.val, hr⟩ : Fin 50000) q) :=
    congrArg (V c (Pipeline.arrRef spec6 0)) h0
  have e1 : iblk6 V c 1 t (ix2 (0 : Fin 1) q) = V c (Pipeline.arrRef spec6 1) (ix2 (0 : Fin 1) q) :=
    congrArg (V c (Pipeline.arrRef spec6 1)) h1
  rw [e0, e1]

/-- An index of the output array is in point `t`'s block iff each coordinate is in the block's range on its axis. -/
theorem mem_blk6 (t : Fin cfg6.N) (i : S50000x64.Idx) :
    i ∈ ((cfg6.win 2).blk t).view.set ↔ ∀ a : Fin 2, win6_2.index t a * S5000x64.size a ≤ (i a).val ∧ (i a).val < win6_2.index t a * S5000x64.size a + S5000x64.size a := by
  show i ∈ ((View.whole main_v92).slice (win6_2.rect t)).set ↔ _
  rw [View.set_slice_whole, Rect.mem_set_unit]
  exact Iff.rfl

/-- The ten blocks of 5000 rows tile the output array: row `r` is in block `r / 5000`. -/
theorem cover6 (i : S50000x64.Idx) : ∃ t : Fin cfg6.N, (cfg6.win 2).flush t = true ∧ i ∈ ((cfg6.win 2).blk t).view.set := by
  have hi0 : (i 0).val < 50000 := (i 0).isLt
  have hi1 : (i 1).val < 64 := (i 1).isLt
  obtain ⟨t, ht⟩ := idx_onto6 ⟨(i 0).val / 5000, by omega⟩
  have q0 : win6_2.index t (0 : Fin 2) = (i 0).val / 5000 := congrFun ht 0
  have q1 : win6_2.index t (1 : Fin 2) = 0 := congrFun ht 1
  refine ⟨t, flush6_2 t, ?_⟩
  rw [mem_blk6]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 64 ≤ (i 1).val ∧ (i 1).val < win6_2.index t (1 : Fin 2) * 64 + 64; omega

/-- After region 6 its output array holds the layer applied to the arrays the region found. -/
theorem final6 (c : Dev nD) : (dat6 V c).arrAt 2 cfg6.N
    = Cert.Layers.biasRelu (V c (Pipeline.arrRef spec6 0)) (V c (Pipeline.arrRef spec6 1)) :=
  (dat6 V c).arrAt_eq_of_cover 2 _ (fun t _ => flushed6_eq V c t) (cover6)

end Region6

/-- The left operand's row coordinate of the block product is the output's row. -/
theorem lhs7_0 (i : S5000x32.Idx) (r : dot_S5000x64_S64x32_S5000x32_1_0_0_1_n_n.contr.Idx) : (dot_S5000x64_S64x32_S5000x32_1_0_0_1_n_n.lhsIdx i r 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
/-- The right operand's column coordinate of the block product is the output's column. -/
theorem rhs7_1 (i : S5000x32.Idx) (r : dot_S5000x64_S64x32_S5000x32_1_0_0_1_n_n.contr.Idx) : (dot_S5000x64_S64x32_S5000x32_1_0_0_1_n_n.rhsIdx i r 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- One grid point's stored block at row `p`, column `q`: the row of the activations' block times the column of the weights,
    summed over the 64 input features, plus the bias row's entry, clamped below at zero. At the ideal values the narrowing to bf16 changes nothing and the
    product accumulates into zero, so the entry is the plain sum. -/
theorem pay7_apply (x0 : Vec Ideal S5000x64 .f32) (x1 : Vec Ideal S64x32 .f32) (x2 : Vec Ideal S1x32 .f32) (p : Fin 5000) (q : Fin 32) :
    k7_pay1 (F := Ideal) x0 x1 x2 (ix2 p q) = max ((∑ k : Fin 64, x0 (ix2 p k) * x1 (ix2 k q)) + x2 (ix2 (0 : Fin 1) q)) 0 := by
  unfold k7_pay1
  simp only [shapeCast_self]
  rw [maximumf_apply, broadcast_apply]
  show max (_ + _) (Ideal.ofBits .f32 0x00000000#32) = _
  rw [Ideal.ofBits_zero_f32, broadcastTo_1b_ab_apply]
  refine congrArg (fun z => max (z + x2 (ix2 (0 : Fin 1) q)) 0) ?_
  simp only [matmul]
  rw [Ideal.matmul_constant_zero_apply, ← Equiv.sum_comp (contrEquiv1 dot_S5000x64_S64x32_S5000x32_1_0_0_1_n_n 64 rfl rfl).symm]
  refine Finset.sum_congr rfl fun k _ => ?_
  have hk := contrEquiv1_symm_val dot_S5000x64_S64x32_S5000x32_1_0_0_1_n_n 64 rfl rfl k
  have el : dot_S5000x64_S64x32_S5000x32_1_0_0_1_n_n.lhsIdx (ix2 p q) ((contrEquiv1 dot_S5000x64_S64x32_S5000x32_1_0_0_1_n_n 64 rfl rfl).symm k) = ix2 p k := funext fun a => Fin.ext (by
    match a with
    | ⟨0, _⟩ => exact lhs7_0 _ _
    | ⟨1, _⟩ => exact (dot_S5000x64_S64x32_S5000x32_1_0_0_1_n_n.lhsIdx_val_of_single rfl _ _).trans hk)
  have er : dot_S5000x64_S64x32_S5000x32_1_0_0_1_n_n.rhsIdx (ix2 p q) ((contrEquiv1 dot_S5000x64_S64x32_S5000x32_1_0_0_1_n_n 64 rfl rfl).symm k) = ix2 k q := funext fun a => Fin.ext (by
    match a with
    | ⟨0, _⟩ => exact (dot_S5000x64_S64x32_S5000x32_1_0_0_1_n_n.rhsIdx_val_of_single rfl _ _).trans hk
    | ⟨1, _⟩ => exact rhs7_1 _ _)
  rw [truncf_apply, truncf_apply, el, er]

section Region7

/-- The printed index maps of region 7, decided over its ten grid points: the activations' block and the output's
    block move together down the rows, block `t` at rows `5000·t …`; the weights and the bias row are one block. -/
theorem idx_facts7 : ∀ t : Fin cfg7.N, win7_0.index t (0 : Fin 2) = win7_3.index t (0 : Fin 2) ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (1 : Fin 2) = 0 ∧ win7_3.index t (0 : Fin 2) ≤ 9 :=
  (by decide +kernel : ∀ t : Fin grid7.N, _)

/-- Every block of rows is some grid point's. -/
theorem idx_onto7 : ∀ (q0 : Fin 10), ∃ t : Fin cfg7.N, win7_3.index t = ![q0.val, 0] :=
  (by decide +kernel : ∀ (q0 : Fin 10), ∃ t : Fin grid7.N, win7_3.index t = ![q0.val, 0])

variable (V : (c : Dev nD) → (b : Ref sig .tc) → Buf (Elt Ideal) ((c : Thread nD τ).loc b))

set_option maxHeartbeats 2000000 in
/-- What grid point `t` writes back is block `t` of the layer applied to the whole arrays the region finds. -/
theorem flushed7_eq (c : Dev nD) (t : Fin cfg7.N) :
    (dat7 V c).flushed 3 t = ((cfg7.win 3).blk t).view.read (Elt Ideal)
      (Cert.Layers.denseRelu (V c (Pipeline.arrRef spec7 0)) (V c (Pipeline.arrRef spec7 1)) (V c (Pipeline.arrRef spec7 2))) := by
  show (cfg7.win 3).cut (grid7.coords t) ((dat7 V c).after 3 t) = _
  rw [after7_3]
  unfold out7_3
  rw [View.canon_unit_zero hz2_d]
  simp only [View.ld_unit_zero (S := S5000x64) hz2_d, View.ld_unit_zero (S := S64x32) hz2_d, View.ld_unit_zero (S := S1x32) hz2_d]
  obtain ⟨e0, e1, e2, e3, e4, e5, e6, e7⟩ := idx_facts7 t
  funext j
  obtain ⟨p, q, rfl⟩ : ∃ (p : Fin 5000) (q : Fin 32), j = ix2 p q := ⟨j 0, j 1, eq_ix2 j⟩
  have hr : win7_3.index t (0 : Fin 2) * 5000 + p.val < 50000 := by have := p.isLt; omega
  have h3 : ((cfg7.win 3).blk t).view.emb (ix2 p q) = ix2 (⟨win7_3.index t (0 : Fin 2) * 5000 + p.val, hr⟩ : Fin 50000) q := by
    funext a; apply Fin.ext
    match a with
    | ⟨0, _⟩ => show win7_3.index t (0 : Fin 2) * 5000 + 1 * p.val = win7_3.index t (0 : Fin 2) * 5000 + p.val; omega
    | ⟨1, _⟩ => show win7_3.index t (1 : Fin 2) * 32 + 1 * q.val = q.val; omega
  have h0 : ∀ k : Fin 64, ((cfg7.win 0).blk t).view.emb (ix2 p k) = ix2 (⟨win7_3.index t (0 : Fin 2) * 5000 + p.val, hr⟩ : Fin 50000) k := fun k => by
    funext a; apply Fin.ext
    match a with
    | ⟨0, _⟩ => show win7_0.index t (0 : Fin 2) * 5000 + 1 * p.val = win7_3.index t (0 : Fin 2) * 5000 + p.val; omega
    | ⟨1, _⟩ => show win7_0.index t (1 : Fin 2) * 64 + 1 * k.val = k.val; omega
  have h1 : ∀ k : Fin 64, ((cfg7.win 1).blk t).view.emb (ix2 k q) = ix2 k q := fun k => by
    funext a; apply Fin.ext
    match a with
    | ⟨0, _⟩ => show win7_1.index t (0 : Fin 2) * 64 + 1 * k.val = k.val; omega
    | ⟨1, _⟩ => show win7_1.index t (1 : Fin 2) * 32 + 1 * q.val = q.val; omega
  have h2 : ((cfg7.win 2).blk t).view.emb (ix2 (0 : Fin 1) q) = ix2 (0 : Fin 1) q := by
    funext a; apply Fin.ext
    match a with
    | ⟨0, _⟩ => show win7_2.index t (0 : Fin 2) * 1 + 1 * 0 = 0; omega
    | ⟨1, _⟩ => show win7_2.index t (1 : Fin 2) * 32 + 1 * q.val = q.val; omega
  show k7_pay1 (F := Ideal) (iblk7 V c 0 t) (iblk7 V c 1 t) (iblk7 V c 2 t) (ix2 p q)
    = Cert.Layers.denseRelu (V c (Pipeline.arrRef spec7 0)) (V c (Pipeline.arrRef spec7 1)) (V c (Pipeline.arrRef spec7 2)) (((cfg7.win 3).blk t).view.emb (ix2 p q))
  rw [h3, Cert.Layers.denseRelu_apply]
  refine (pay7_apply _ _ _ p q).trans ?_
  have e0 : ∀ k : Fin 64, iblk7 V c 0 t (ix2 p k) = V c (Pipeline.arrRef spec7 0) (ix2 (⟨win7_3.index t (0 : Fin 2) * 5000 + p.val, hr⟩ : Fin 50000) k) :=
    fun k => congrArg (V c (Pipeline.arrRef spec7 0)) (h0 k)
  have e1 : ∀ k : Fin 64, iblk7 V c 1 t (ix2 k q) = V c (Pipeline.arrRef spec7 1) (ix2 k q) :=
    fun k => congrArg (V c (Pipeline.arrRef spec7 1)) (h1 k)
  have e2 : iblk7 V c 2 t (ix2 (0 : Fin 1) q) = V c (Pipeline.arrRef spec7 2) (ix2 (0 : Fin 1) q) :=
    congrArg (V c (Pipeline.arrRef spec7 2)) h2
  simp only [e0, e1, e2]

/-- An index of the output array is in point `t`'s block iff each coordinate is in the block's range on its axis. -/
theorem mem_blk7 (t : Fin cfg7.N) (i : S50000x32.Idx) :
    i ∈ ((cfg7.win 3).blk t).view.set ↔ ∀ a : Fin 2, win7_3.index t a * S5000x32.size a ≤ (i a).val ∧ (i a).val < win7_3.index t a * S5000x32.size a + S5000x32.size a := by
  show i ∈ ((View.whole main_v94).slice (win7_3.rect t)).set ↔ _
  rw [View.set_slice_whole, Rect.mem_set_unit]
  exact Iff.rfl

/-- The ten blocks of 5000 rows tile the output array: row `r` is in block `r / 5000`. -/
theorem cover7 (i : S50000x32.Idx) : ∃ t : Fin cfg7.N, (cfg7.win 3).flush t = true ∧ i ∈ ((cfg7.win 3).blk t).view.set := by
  have hi0 : (i 0).val < 50000 := (i 0).isLt
  have hi1 : (i 1).val < 32 := (i 1).isLt
  obtain ⟨t, ht⟩ := idx_onto7 ⟨(i 0).val / 5000, by omega⟩
  have q0 : win7_3.index t (0 : Fin 2) = (i 0).val / 5000 := congrFun ht 0
  have q1 : win7_3.index t (1 : Fin 2) = 0 := congrFun ht 1
  refine ⟨t, flush7_3 t, ?_⟩
  rw [mem_blk7]
  intro a
  match a with
  | ⟨0, _⟩ => show win7_3.index t (0 : Fin 2) * 5000 ≤ (i 0).val ∧ (i 0).val < win7_3.index t (0 : Fin 2) * 5000 + 5000; omega
  | ⟨1, _⟩ => show win7_3.index t (1 : Fin 2) * 32 ≤ (i 1).val ∧ (i 1).val < win7_3.index t (1 : Fin 2) * 32 + 32; omega

/-- After region 7 its output array holds the layer applied to the arrays the region found. -/
theorem final7 (c : Dev nD) : (dat7 V c).arrAt 3 cfg7.N
    = Cert.Layers.denseRelu (V c (Pipeline.arrRef spec7 0)) (V c (Pipeline.arrRef spec7 1)) (V c (Pipeline.arrRef spec7 2)) :=
  (dat7 V c).arrAt_eq_of_cover 3 _ (fun t _ => flushed7_eq V c t) (cover7)

end Region7

/-- The left operand's row coordinate of the block product is the output's row. -/
theorem lhs8_0 (i : S5000x1.Idx) (r : dot_S5000x32_S32x1_S5000x1_1_0_0_1_n_n.contr.Idx) : (dot_S5000x32_S32x1_S5000x1_1_0_0_1_n_n.lhsIdx i r 0).val = (i 0).val := by
  unfold DotDims.lhsIdx
  rw [dif_neg (show ¬(0 : Fin S5000x32.rank) ∈ dot_S5000x32_S32x1_S5000x1_1_0_0_1_n_n.lhsBatch by decide), dif_pos (show (0 : Fin S5000x32.rank) ∈ dot_S5000x32_S32x1_S5000x1_1_0_0_1_n_n.lhsNonContracting by decide)]
  rfl
/-- The right operand's column coordinate of the block product is the output's column. -/
theorem rhs8_1 (i : S5000x1.Idx) (r : dot_S5000x32_S32x1_S5000x1_1_0_0_1_n_n.contr.Idx) : (dot_S5000x32_S32x1_S5000x1_1_0_0_1_n_n.rhsIdx i r 1).val = (i 1).val := by
  unfold DotDims.rhsIdx
  rw [dif_neg (show ¬(1 : Fin S32x1.rank) ∈ dot_S5000x32_S32x1_S5000x1_1_0_0_1_n_n.rhsBatch by decide), dif_pos (show (1 : Fin S32x1.rank) ∈ dot_S5000x32_S32x1_S5000x1_1_0_0_1_n_n.rhsNonContracting by decide)]
  rfl

/-- One grid point's stored block at row `p`, column `q`: the row of the activations' block times the column of the weights,
    summed over the 32 input features, plus the bias row's entry. At the ideal values the narrowing to bf16 changes nothing and the
    product accumulates into zero, so the entry is the plain sum. -/
theorem pay8_apply (x0 : Vec Ideal S5000x32 .f32) (x1 : Vec Ideal S32x1 .f32) (x2 : Vec Ideal S1x1 .f32) (p : Fin 5000) (q : Fin 1) :
    k8_pay1 (F := Ideal) x0 x1 x2 (ix2 p q) = (∑ k : Fin 32, x0 (ix2 p k) * x1 (ix2 k q)) + x2 (ix2 (0 : Fin 1) q) := by
  unfold k8_pay1
  simp only [shapeCast_self]
  rw [addf_apply, broadcastTo_1b_ab_apply]
  refine congrArg (· + x2 (ix2 (0 : Fin 1) q)) ?_
  simp only [matmul]
  rw [Ideal.matmul_constant_zero_apply, ← Equiv.sum_comp (contrEquiv1 dot_S5000x32_S32x1_S5000x1_1_0_0_1_n_n 32 rfl rfl).symm]
  refine Finset.sum_congr rfl fun k _ => ?_
  have hk := contrEquiv1_symm_val dot_S5000x32_S32x1_S5000x1_1_0_0_1_n_n 32 rfl rfl k
  have el : dot_S5000x32_S32x1_S5000x1_1_0_0_1_n_n.lhsIdx (ix2 p q) ((contrEquiv1 dot_S5000x32_S32x1_S5000x1_1_0_0_1_n_n 32 rfl rfl).symm k) = ix2 p k := funext fun a => Fin.ext (by
    match a with
    | ⟨0, _⟩ => exact lhs8_0 _ _
    | ⟨1, _⟩ => exact (dot_S5000x32_S32x1_S5000x1_1_0_0_1_n_n.lhsIdx_val_of_single rfl _ _).trans hk)
  have er : dot_S5000x32_S32x1_S5000x1_1_0_0_1_n_n.rhsIdx (ix2 p q) ((contrEquiv1 dot_S5000x32_S32x1_S5000x1_1_0_0_1_n_n 32 rfl rfl).symm k) = ix2 k q := funext fun a => Fin.ext (by
    match a with
    | ⟨0, _⟩ => exact (dot_S5000x32_S32x1_S5000x1_1_0_0_1_n_n.rhsIdx_val_of_single rfl _ _).trans hk
    | ⟨1, _⟩ => exact rhs8_1 _ _)
  rw [truncf_apply, truncf_apply, el, er]

section Region8

/-- The printed index maps of region 8, decided over its ten grid points: the activations' block and the output's
    block move together down the rows, block `t` at rows `5000·t …`; the weights and the bias row are one block. -/
theorem idx_facts8 : ∀ t : Fin cfg8.N, win8_0.index t (0 : Fin 2) = win8_3.index t (0 : Fin 2) ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (1 : Fin 2) = 0 ∧ win8_3.index t (0 : Fin 2) ≤ 9 :=
  (by decide +kernel : ∀ t : Fin grid8.N, _)

/-- Every block of rows is some grid point's. -/
theorem idx_onto8 : ∀ (q0 : Fin 10), ∃ t : Fin cfg8.N, win8_3.index t = ![q0.val, 0] :=
  (by decide +kernel : ∀ (q0 : Fin 10), ∃ t : Fin grid8.N, win8_3.index t = ![q0.val, 0])

variable (V : (c : Dev nD) → (b : Ref sig .tc) → Buf (Elt Ideal) ((c : Thread nD τ).loc b))

set_option maxHeartbeats 2000000 in
/-- What grid point `t` writes back is block `t` of the layer applied to the whole arrays the region finds. -/
theorem flushed8_eq (c : Dev nD) (t : Fin cfg8.N) :
    (dat8 V c).flushed 3 t = ((cfg8.win 3).blk t).view.read (Elt Ideal)
      (Cert.Layers.dense (V c (Pipeline.arrRef spec8 0)) (V c (Pipeline.arrRef spec8 1)) (V c (Pipeline.arrRef spec8 2))) := by
  show (cfg8.win 3).cut (grid8.coords t) ((dat8 V c).after 3 t) = _
  rw [after8_3]
  unfold out8_3
  rw [View.canon_unit_zero hz2_d]
  simp only [View.ld_unit_zero (S := S5000x32) hz2_d, View.ld_unit_zero (S := S32x1) hz2_d, View.ld_unit_zero (S := S1x1) hz2_d]
  obtain ⟨e0, e1, e2, e3, e4, e5, e6, e7⟩ := idx_facts8 t
  funext j
  obtain ⟨p, q, rfl⟩ : ∃ (p : Fin 5000) (q : Fin 1), j = ix2 p q := ⟨j 0, j 1, eq_ix2 j⟩
  have hr : win8_3.index t (0 : Fin 2) * 5000 + p.val < 50000 := by have := p.isLt; omega
  have h3 : ((cfg8.win 3).blk t).view.emb (ix2 p q) = ix2 (⟨win8_3.index t (0 : Fin 2) * 5000 + p.val, hr⟩ : Fin 50000) q := by
    funext a; apply Fin.ext
    match a with
    | ⟨0, _⟩ => show win8_3.index t (0 : Fin 2) * 5000 + 1 * p.val = win8_3.index t (0 : Fin 2) * 5000 + p.val; omega
    | ⟨1, _⟩ => show win8_3.index t (1 : Fin 2) * 1 + 1 * q.val = q.val; omega
  have h0 : ∀ k : Fin 32, ((cfg8.win 0).blk t).view.emb (ix2 p k) = ix2 (⟨win8_3.index t (0 : Fin 2) * 5000 + p.val, hr⟩ : Fin 50000) k := fun k => by
    funext a; apply Fin.ext
    match a with
    | ⟨0, _⟩ => show win8_0.index t (0 : Fin 2) * 5000 + 1 * p.val = win8_3.index t (0 : Fin 2) * 5000 + p.val; omega
    | ⟨1, _⟩ => show win8_0.index t (1 : Fin 2) * 32 + 1 * k.val = k.val; omega
  have h1 : ∀ k : Fin 32, ((cfg8.win 1).blk t).view.emb (ix2 k q) = ix2 k q := fun k => by
    funext a; apply Fin.ext
    match a with
    | ⟨0, _⟩ => show win8_1.index t (0 : Fin 2) * 32 + 1 * k.val = k.val; omega
    | ⟨1, _⟩ => show win8_1.index t (1 : Fin 2) * 1 + 1 * q.val = q.val; omega
  have h2 : ((cfg8.win 2).blk t).view.emb (ix2 (0 : Fin 1) q) = ix2 (0 : Fin 1) q := by
    funext a; apply Fin.ext
    match a with
    | ⟨0, _⟩ => show win8_2.index t (0 : Fin 2) * 1 + 1 * 0 = 0; omega
    | ⟨1, _⟩ => show win8_2.index t (1 : Fin 2) * 1 + 1 * q.val = q.val; omega
  show k8_pay1 (F := Ideal) (iblk8 V c 0 t) (iblk8 V c 1 t) (iblk8 V c 2 t) (ix2 p q)
    = Cert.Layers.dense (V c (Pipeline.arrRef spec8 0)) (V c (Pipeline.arrRef spec8 1)) (V c (Pipeline.arrRef spec8 2)) (((cfg8.win 3).blk t).view.emb (ix2 p q))
  rw [h3, Cert.Layers.dense_apply]
  refine (pay8_apply _ _ _ p q).trans ?_
  have e0 : ∀ k : Fin 32, iblk8 V c 0 t (ix2 p k) = V c (Pipeline.arrRef spec8 0) (ix2 (⟨win8_3.index t (0 : Fin 2) * 5000 + p.val, hr⟩ : Fin 50000) k) :=
    fun k => congrArg (V c (Pipeline.arrRef spec8 0)) (h0 k)
  have e1 : ∀ k : Fin 32, iblk8 V c 1 t (ix2 k q) = V c (Pipeline.arrRef spec8 1) (ix2 k q) :=
    fun k => congrArg (V c (Pipeline.arrRef spec8 1)) (h1 k)
  have e2 : iblk8 V c 2 t (ix2 (0 : Fin 1) q) = V c (Pipeline.arrRef spec8 2) (ix2 (0 : Fin 1) q) :=
    congrArg (V c (Pipeline.arrRef spec8 2)) h2
  simp only [e0, e1, e2]

/-- An index of the output array is in point `t`'s block iff each coordinate is in the block's range on its axis. -/
theorem mem_blk8 (t : Fin cfg8.N) (i : S50000x1.Idx) :
    i ∈ ((cfg8.win 3).blk t).view.set ↔ ∀ a : Fin 2, win8_3.index t a * S5000x1.size a ≤ (i a).val ∧ (i a).val < win8_3.index t a * S5000x1.size a + S5000x1.size a := by
  show i ∈ ((View.whole main_v96).slice (win8_3.rect t)).set ↔ _
  rw [View.set_slice_whole, Rect.mem_set_unit]
  exact Iff.rfl

/-- The ten blocks of 5000 rows tile the output array: row `r` is in block `r / 5000`. -/
theorem cover8 (i : S50000x1.Idx) : ∃ t : Fin cfg8.N, (cfg8.win 3).flush t = true ∧ i ∈ ((cfg8.win 3).blk t).view.set := by
  have hi0 : (i 0).val < 50000 := (i 0).isLt
  have hi1 : (i 1).val < 1 := (i 1).isLt
  obtain ⟨t, ht⟩ := idx_onto8 ⟨(i 0).val / 5000, by omega⟩
  have q0 : win8_3.index t (0 : Fin 2) = (i 0).val / 5000 := congrFun ht 0
  have q1 : win8_3.index t (1 : Fin 2) = 0 := congrFun ht 1
  refine ⟨t, flush8_3 t, ?_⟩
  rw [mem_blk8]
  intro a
  match a with
  | ⟨0, _⟩ => show win8_3.index t (0 : Fin 2) * 5000 ≤ (i 0).val ∧ (i 0).val < win8_3.index t (0 : Fin 2) * 5000 + 5000; omega
  | ⟨1, _⟩ => show win8_3.index t (1 : Fin 2) * 1 ≤ (i 1).val ∧ (i 1).val < win8_3.index t (1 : Fin 2) * 1 + 1; omega

/-- After region 8 its output array holds the layer applied to the arrays the region found. -/
theorem final8 (c : Dev nD) : (dat8 V c).arrAt 3 cfg8.N
    = Cert.Layers.dense (V c (Pipeline.arrRef spec8 0)) (V c (Pipeline.arrRef spec8 1)) (V c (Pipeline.arrRef spec8 2)) :=
  (dat8 V c).arrAt_eq_of_cover 3 _ (fun t _ => flushed8_eq V c t) (cover8)

end Region8

/-- The left operand's row coordinate of the block product is the output's row. -/
theorem lhs9_0 (i : S5000x32.Idx) (r : dot_S5000x64_S64x32_S5000x32_1_0_0_1_n_n.contr.Idx) : (dot_S5000x64_S64x32_S5000x32_1_0_0_1_n_n.lhsIdx i r 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
/-- The right operand's column coordinate of the block product is the output's column. -/
theorem rhs9_1 (i : S5000x32.Idx) (r : dot_S5000x64_S64x32_S5000x32_1_0_0_1_n_n.contr.Idx) : (dot_S5000x64_S64x32_S5000x32_1_0_0_1_n_n.rhsIdx i r 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- One grid point's stored block at row `p`, column `q`: the row of the activations' block times the column of the weights,
    summed over the 64 input features, plus the bias row's entry, clamped below at zero. At the ideal values the narrowing to bf16 changes nothing and the
    product accumulates into zero, so the entry is the plain sum. -/
theorem pay9_apply (x0 : Vec Ideal S5000x64 .f32) (x1 : Vec Ideal S64x32 .f32) (x2 : Vec Ideal S1x32 .f32) (p : Fin 5000) (q : Fin 32) :
    k9_pay1 (F := Ideal) x0 x1 x2 (ix2 p q) = max ((∑ k : Fin 64, x0 (ix2 p k) * x1 (ix2 k q)) + x2 (ix2 (0 : Fin 1) q)) 0 := by
  unfold k9_pay1
  simp only [shapeCast_self]
  rw [maximumf_apply, broadcast_apply]
  show max (_ + _) (Ideal.ofBits .f32 0x00000000#32) = _
  rw [Ideal.ofBits_zero_f32, broadcastTo_1b_ab_apply]
  refine congrArg (fun z => max (z + x2 (ix2 (0 : Fin 1) q)) 0) ?_
  simp only [matmul]
  rw [Ideal.matmul_constant_zero_apply, ← Equiv.sum_comp (contrEquiv1 dot_S5000x64_S64x32_S5000x32_1_0_0_1_n_n 64 rfl rfl).symm]
  refine Finset.sum_congr rfl fun k _ => ?_
  have hk := contrEquiv1_symm_val dot_S5000x64_S64x32_S5000x32_1_0_0_1_n_n 64 rfl rfl k
  have el : dot_S5000x64_S64x32_S5000x32_1_0_0_1_n_n.lhsIdx (ix2 p q) ((contrEquiv1 dot_S5000x64_S64x32_S5000x32_1_0_0_1_n_n 64 rfl rfl).symm k) = ix2 p k := funext fun a => Fin.ext (by
    match a with
    | ⟨0, _⟩ => exact lhs9_0 _ _
    | ⟨1, _⟩ => exact (dot_S5000x64_S64x32_S5000x32_1_0_0_1_n_n.lhsIdx_val_of_single rfl _ _).trans hk)
  have er : dot_S5000x64_S64x32_S5000x32_1_0_0_1_n_n.rhsIdx (ix2 p q) ((contrEquiv1 dot_S5000x64_S64x32_S5000x32_1_0_0_1_n_n 64 rfl rfl).symm k) = ix2 k q := funext fun a => Fin.ext (by
    match a with
    | ⟨0, _⟩ => exact (dot_S5000x64_S64x32_S5000x32_1_0_0_1_n_n.rhsIdx_val_of_single rfl _ _).trans hk
    | ⟨1, _⟩ => exact rhs9_1 _ _)
  rw [truncf_apply, truncf_apply, el, er]

section Region9

/-- The printed index maps of region 9, decided over its ten grid points: the activations' block and the output's
    block move together down the rows, block `t` at rows `5000·t …`; the weights and the bias row are one block. -/
theorem idx_facts9 : ∀ t : Fin cfg9.N, win9_0.index t (0 : Fin 2) = win9_3.index t (0 : Fin 2) ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (1 : Fin 2) = 0 ∧ win9_3.index t (0 : Fin 2) ≤ 9 :=
  (by decide +kernel : ∀ t : Fin grid9.N, _)

/-- Every block of rows is some grid point's. -/
theorem idx_onto9 : ∀ (q0 : Fin 10), ∃ t : Fin cfg9.N, win9_3.index t = ![q0.val, 0] :=
  (by decide +kernel : ∀ (q0 : Fin 10), ∃ t : Fin grid9.N, win9_3.index t = ![q0.val, 0])

variable (V : (c : Dev nD) → (b : Ref sig .tc) → Buf (Elt Ideal) ((c : Thread nD τ).loc b))

set_option maxHeartbeats 2000000 in
/-- What grid point `t` writes back is block `t` of the layer applied to the whole arrays the region finds. -/
theorem flushed9_eq (c : Dev nD) (t : Fin cfg9.N) :
    (dat9 V c).flushed 3 t = ((cfg9.win 3).blk t).view.read (Elt Ideal)
      (Cert.Layers.denseRelu (V c (Pipeline.arrRef spec9 0)) (V c (Pipeline.arrRef spec9 1)) (V c (Pipeline.arrRef spec9 2))) := by
  show (cfg9.win 3).cut (grid9.coords t) ((dat9 V c).after 3 t) = _
  rw [after9_3]
  unfold out9_3
  rw [View.canon_unit_zero hz2_d]
  simp only [View.ld_unit_zero (S := S5000x64) hz2_d, View.ld_unit_zero (S := S64x32) hz2_d, View.ld_unit_zero (S := S1x32) hz2_d]
  obtain ⟨e0, e1, e2, e3, e4, e5, e6, e7⟩ := idx_facts9 t
  funext j
  obtain ⟨p, q, rfl⟩ : ∃ (p : Fin 5000) (q : Fin 32), j = ix2 p q := ⟨j 0, j 1, eq_ix2 j⟩
  have hr : win9_3.index t (0 : Fin 2) * 5000 + p.val < 50000 := by have := p.isLt; omega
  have h3 : ((cfg9.win 3).blk t).view.emb (ix2 p q) = ix2 (⟨win9_3.index t (0 : Fin 2) * 5000 + p.val, hr⟩ : Fin 50000) q := by
    funext a; apply Fin.ext
    match a with
    | ⟨0, _⟩ => show win9_3.index t (0 : Fin 2) * 5000 + 1 * p.val = win9_3.index t (0 : Fin 2) * 5000 + p.val; omega
    | ⟨1, _⟩ => show win9_3.index t (1 : Fin 2) * 32 + 1 * q.val = q.val; omega
  have h0 : ∀ k : Fin 64, ((cfg9.win 0).blk t).view.emb (ix2 p k) = ix2 (⟨win9_3.index t (0 : Fin 2) * 5000 + p.val, hr⟩ : Fin 50000) k := fun k => by
    funext a; apply Fin.ext
    match a with
    | ⟨0, _⟩ => show win9_0.index t (0 : Fin 2) * 5000 + 1 * p.val = win9_3.index t (0 : Fin 2) * 5000 + p.val; omega
    | ⟨1, _⟩ => show win9_0.index t (1 : Fin 2) * 64 + 1 * k.val = k.val; omega
  have h1 : ∀ k : Fin 64, ((cfg9.win 1).blk t).view.emb (ix2 k q) = ix2 k q := fun k => by
    funext a; apply Fin.ext
    match a with
    | ⟨0, _⟩ => show win9_1.index t (0 : Fin 2) * 64 + 1 * k.val = k.val; omega
    | ⟨1, _⟩ => show win9_1.index t (1 : Fin 2) * 32 + 1 * q.val = q.val; omega
  have h2 : ((cfg9.win 2).blk t).view.emb (ix2 (0 : Fin 1) q) = ix2 (0 : Fin 1) q := by
    funext a; apply Fin.ext
    match a with
    | ⟨0, _⟩ => show win9_2.index t (0 : Fin 2) * 1 + 1 * 0 = 0; omega
    | ⟨1, _⟩ => show win9_2.index t (1 : Fin 2) * 32 + 1 * q.val = q.val; omega
  show k9_pay1 (F := Ideal) (iblk9 V c 0 t) (iblk9 V c 1 t) (iblk9 V c 2 t) (ix2 p q)
    = Cert.Layers.denseRelu (V c (Pipeline.arrRef spec9 0)) (V c (Pipeline.arrRef spec9 1)) (V c (Pipeline.arrRef spec9 2)) (((cfg9.win 3).blk t).view.emb (ix2 p q))
  rw [h3, Cert.Layers.denseRelu_apply]
  refine (pay9_apply _ _ _ p q).trans ?_
  have e0 : ∀ k : Fin 64, iblk9 V c 0 t (ix2 p k) = V c (Pipeline.arrRef spec9 0) (ix2 (⟨win9_3.index t (0 : Fin 2) * 5000 + p.val, hr⟩ : Fin 50000) k) :=
    fun k => congrArg (V c (Pipeline.arrRef spec9 0)) (h0 k)
  have e1 : ∀ k : Fin 64, iblk9 V c 1 t (ix2 k q) = V c (Pipeline.arrRef spec9 1) (ix2 k q) :=
    fun k => congrArg (V c (Pipeline.arrRef spec9 1)) (h1 k)
  have e2 : iblk9 V c 2 t (ix2 (0 : Fin 1) q) = V c (Pipeline.arrRef spec9 2) (ix2 (0 : Fin 1) q) :=
    congrArg (V c (Pipeline.arrRef spec9 2)) h2
  simp only [e0, e1, e2]

/-- An index of the output array is in point `t`'s block iff each coordinate is in the block's range on its axis. -/
theorem mem_blk9 (t : Fin cfg9.N) (i : S50000x32.Idx) :
    i ∈ ((cfg9.win 3).blk t).view.set ↔ ∀ a : Fin 2, win9_3.index t a * S5000x32.size a ≤ (i a).val ∧ (i a).val < win9_3.index t a * S5000x32.size a + S5000x32.size a := by
  show i ∈ ((View.whole main_v98).slice (win9_3.rect t)).set ↔ _
  rw [View.set_slice_whole, Rect.mem_set_unit]
  exact Iff.rfl

/-- The ten blocks of 5000 rows tile the output array: row `r` is in block `r / 5000`. -/
theorem cover9 (i : S50000x32.Idx) : ∃ t : Fin cfg9.N, (cfg9.win 3).flush t = true ∧ i ∈ ((cfg9.win 3).blk t).view.set := by
  have hi0 : (i 0).val < 50000 := (i 0).isLt
  have hi1 : (i 1).val < 32 := (i 1).isLt
  obtain ⟨t, ht⟩ := idx_onto9 ⟨(i 0).val / 5000, by omega⟩
  have q0 : win9_3.index t (0 : Fin 2) = (i 0).val / 5000 := congrFun ht 0
  have q1 : win9_3.index t (1 : Fin 2) = 0 := congrFun ht 1
  refine ⟨t, flush9_3 t, ?_⟩
  rw [mem_blk9]
  intro a
  match a with
  | ⟨0, _⟩ => show win9_3.index t (0 : Fin 2) * 5000 ≤ (i 0).val ∧ (i 0).val < win9_3.index t (0 : Fin 2) * 5000 + 5000; omega
  | ⟨1, _⟩ => show win9_3.index t (1 : Fin 2) * 32 ≤ (i 1).val ∧ (i 1).val < win9_3.index t (1 : Fin 2) * 32 + 32; omega

/-- After region 9 its output array holds the layer applied to the arrays the region found. -/
theorem final9 (c : Dev nD) : (dat9 V c).arrAt 3 cfg9.N
    = Cert.Layers.denseRelu (V c (Pipeline.arrRef spec9 0)) (V c (Pipeline.arrRef spec9 1)) (V c (Pipeline.arrRef spec9 2)) :=
  (dat9 V c).arrAt_eq_of_cover 3 _ (fun t _ => flushed9_eq V c t) (cover9)

end Region9

/-- The left operand's row coordinate of the block product is the output's row. -/
theorem lhs10_0 (i : S5000x1.Idx) (r : dot_S5000x32_S32x1_S5000x1_1_0_0_1_n_n.contr.Idx) : (dot_S5000x32_S32x1_S5000x1_1_0_0_1_n_n.lhsIdx i r 0).val = (i 0).val := by
  unfold DotDims.lhsIdx
  rw [dif_neg (show ¬(0 : Fin S5000x32.rank) ∈ dot_S5000x32_S32x1_S5000x1_1_0_0_1_n_n.lhsBatch by decide), dif_pos (show (0 : Fin S5000x32.rank) ∈ dot_S5000x32_S32x1_S5000x1_1_0_0_1_n_n.lhsNonContracting by decide)]
  rfl
/-- The right operand's column coordinate of the block product is the output's column. -/
theorem rhs10_1 (i : S5000x1.Idx) (r : dot_S5000x32_S32x1_S5000x1_1_0_0_1_n_n.contr.Idx) : (dot_S5000x32_S32x1_S5000x1_1_0_0_1_n_n.rhsIdx i r 1).val = (i 1).val := by
  unfold DotDims.rhsIdx
  rw [dif_neg (show ¬(1 : Fin S32x1.rank) ∈ dot_S5000x32_S32x1_S5000x1_1_0_0_1_n_n.rhsBatch by decide), dif_pos (show (1 : Fin S32x1.rank) ∈ dot_S5000x32_S32x1_S5000x1_1_0_0_1_n_n.rhsNonContracting by decide)]
  rfl

/-- One grid point's stored block at row `p`, column `q`: the row of the activations' block times the column of the weights,
    summed over the 32 input features, plus the bias row's entry. At the ideal values the narrowing to bf16 changes nothing and the
    product accumulates into zero, so the entry is the plain sum. -/
theorem pay10_apply (x0 : Vec Ideal S5000x32 .f32) (x1 : Vec Ideal S32x1 .f32) (x2 : Vec Ideal S1x1 .f32) (p : Fin 5000) (q : Fin 1) :
    k10_pay1 (F := Ideal) x0 x1 x2 (ix2 p q) = (∑ k : Fin 32, x0 (ix2 p k) * x1 (ix2 k q)) + x2 (ix2 (0 : Fin 1) q) := by
  unfold k10_pay1
  simp only [shapeCast_self]
  rw [addf_apply, broadcastTo_1b_ab_apply]
  refine congrArg (· + x2 (ix2 (0 : Fin 1) q)) ?_
  simp only [matmul]
  rw [Ideal.matmul_constant_zero_apply, ← Equiv.sum_comp (contrEquiv1 dot_S5000x32_S32x1_S5000x1_1_0_0_1_n_n 32 rfl rfl).symm]
  refine Finset.sum_congr rfl fun k _ => ?_
  have hk := contrEquiv1_symm_val dot_S5000x32_S32x1_S5000x1_1_0_0_1_n_n 32 rfl rfl k
  have el : dot_S5000x32_S32x1_S5000x1_1_0_0_1_n_n.lhsIdx (ix2 p q) ((contrEquiv1 dot_S5000x32_S32x1_S5000x1_1_0_0_1_n_n 32 rfl rfl).symm k) = ix2 p k := funext fun a => Fin.ext (by
    match a with
    | ⟨0, _⟩ => exact lhs10_0 _ _
    | ⟨1, _⟩ => exact (dot_S5000x32_S32x1_S5000x1_1_0_0_1_n_n.lhsIdx_val_of_single rfl _ _).trans hk)
  have er : dot_S5000x32_S32x1_S5000x1_1_0_0_1_n_n.rhsIdx (ix2 p q) ((contrEquiv1 dot_S5000x32_S32x1_S5000x1_1_0_0_1_n_n 32 rfl rfl).symm k) = ix2 k q := funext fun a => Fin.ext (by
    match a with
    | ⟨0, _⟩ => exact (dot_S5000x32_S32x1_S5000x1_1_0_0_1_n_n.rhsIdx_val_of_single rfl _ _).trans hk
    | ⟨1, _⟩ => exact rhs10_1 _ _)
  rw [truncf_apply, truncf_apply, el, er]

section Region10

/-- The printed index maps of region 10, decided over its ten grid points: the activations' block and the output's
    block move together down the rows, block `t` at rows `5000·t …`; the weights and the bias row are one block. -/
theorem idx_facts10 : ∀ t : Fin cfg10.N, win10_0.index t (0 : Fin 2) = win10_3.index t (0 : Fin 2) ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (1 : Fin 2) = 0 ∧ win10_3.index t (0 : Fin 2) ≤ 9 :=
  (by decide +kernel : ∀ t : Fin grid10.N, _)

/-- Every block of rows is some grid point's. -/
theorem idx_onto10 : ∀ (q0 : Fin 10), ∃ t : Fin cfg10.N, win10_3.index t = ![q0.val, 0] :=
  (by decide +kernel : ∀ (q0 : Fin 10), ∃ t : Fin grid10.N, win10_3.index t = ![q0.val, 0])

variable (V : (c : Dev nD) → (b : Ref sig .tc) → Buf (Elt Ideal) ((c : Thread nD τ).loc b))

set_option maxHeartbeats 2000000 in
/-- What grid point `t` writes back is block `t` of the layer applied to the whole arrays the region finds. -/
theorem flushed10_eq (c : Dev nD) (t : Fin cfg10.N) :
    (dat10 V c).flushed 3 t = ((cfg10.win 3).blk t).view.read (Elt Ideal)
      (Cert.Layers.dense (V c (Pipeline.arrRef spec10 0)) (V c (Pipeline.arrRef spec10 1)) (V c (Pipeline.arrRef spec10 2))) := by
  show (cfg10.win 3).cut (grid10.coords t) ((dat10 V c).after 3 t) = _
  rw [after10_3]
  unfold out10_3
  rw [View.canon_unit_zero hz2_d]
  simp only [View.ld_unit_zero (S := S5000x32) hz2_d, View.ld_unit_zero (S := S32x1) hz2_d, View.ld_unit_zero (S := S1x1) hz2_d]
  obtain ⟨e0, e1, e2, e3, e4, e5, e6, e7⟩ := idx_facts10 t
  funext j
  obtain ⟨p, q, rfl⟩ : ∃ (p : Fin 5000) (q : Fin 1), j = ix2 p q := ⟨j 0, j 1, eq_ix2 j⟩
  have hr : win10_3.index t (0 : Fin 2) * 5000 + p.val < 50000 := by have := p.isLt; omega
  have h3 : ((cfg10.win 3).blk t).view.emb (ix2 p q) = ix2 (⟨win10_3.index t (0 : Fin 2) * 5000 + p.val, hr⟩ : Fin 50000) q := by
    funext a; apply Fin.ext
    match a with
    | ⟨0, _⟩ => show win10_3.index t (0 : Fin 2) * 5000 + 1 * p.val = win10_3.index t (0 : Fin 2) * 5000 + p.val; omega
    | ⟨1, _⟩ => show win10_3.index t (1 : Fin 2) * 1 + 1 * q.val = q.val; omega
  have h0 : ∀ k : Fin 32, ((cfg10.win 0).blk t).view.emb (ix2 p k) = ix2 (⟨win10_3.index t (0 : Fin 2) * 5000 + p.val, hr⟩ : Fin 50000) k := fun k => by
    funext a; apply Fin.ext
    match a with
    | ⟨0, _⟩ => show win10_0.index t (0 : Fin 2) * 5000 + 1 * p.val = win10_3.index t (0 : Fin 2) * 5000 + p.val; omega
    | ⟨1, _⟩ => show win10_0.index t (1 : Fin 2) * 32 + 1 * k.val = k.val; omega
  have h1 : ∀ k : Fin 32, ((cfg10.win 1).blk t).view.emb (ix2 k q) = ix2 k q := fun k => by
    funext a; apply Fin.ext
    match a with
    | ⟨0, _⟩ => show win10_1.index t (0 : Fin 2) * 32 + 1 * k.val = k.val; omega
    | ⟨1, _⟩ => show win10_1.index t (1 : Fin 2) * 1 + 1 * q.val = q.val; omega
  have h2 : ((cfg10.win 2).blk t).view.emb (ix2 (0 : Fin 1) q) = ix2 (0 : Fin 1) q := by
    funext a; apply Fin.ext
    match a with
    | ⟨0, _⟩ => show win10_2.index t (0 : Fin 2) * 1 + 1 * 0 = 0; omega
    | ⟨1, _⟩ => show win10_2.index t (1 : Fin 2) * 1 + 1 * q.val = q.val; omega
  show k10_pay1 (F := Ideal) (iblk10 V c 0 t) (iblk10 V c 1 t) (iblk10 V c 2 t) (ix2 p q)
    = Cert.Layers.dense (V c (Pipeline.arrRef spec10 0)) (V c (Pipeline.arrRef spec10 1)) (V c (Pipeline.arrRef spec10 2)) (((cfg10.win 3).blk t).view.emb (ix2 p q))
  rw [h3, Cert.Layers.dense_apply]
  refine (pay10_apply _ _ _ p q).trans ?_
  have e0 : ∀ k : Fin 32, iblk10 V c 0 t (ix2 p k) = V c (Pipeline.arrRef spec10 0) (ix2 (⟨win10_3.index t (0 : Fin 2) * 5000 + p.val, hr⟩ : Fin 50000) k) :=
    fun k => congrArg (V c (Pipeline.arrRef spec10 0)) (h0 k)
  have e1 : ∀ k : Fin 32, iblk10 V c 1 t (ix2 k q) = V c (Pipeline.arrRef spec10 1) (ix2 k q) :=
    fun k => congrArg (V c (Pipeline.arrRef spec10 1)) (h1 k)
  have e2 : iblk10 V c 2 t (ix2 (0 : Fin 1) q) = V c (Pipeline.arrRef spec10 2) (ix2 (0 : Fin 1) q) :=
    congrArg (V c (Pipeline.arrRef spec10 2)) h2
  simp only [e0, e1, e2]

/-- An index of the output array is in point `t`'s block iff each coordinate is in the block's range on its axis. -/
theorem mem_blk10 (t : Fin cfg10.N) (i : S50000x1.Idx) :
    i ∈ ((cfg10.win 3).blk t).view.set ↔ ∀ a : Fin 2, win10_3.index t a * S5000x1.size a ≤ (i a).val ∧ (i a).val < win10_3.index t a * S5000x1.size a + S5000x1.size a := by
  show i ∈ ((View.whole main_v100).slice (win10_3.rect t)).set ↔ _
  rw [View.set_slice_whole, Rect.mem_set_unit]
  exact Iff.rfl

/-- The ten blocks of 5000 rows tile the output array: row `r` is in block `r / 5000`. -/
theorem cover10 (i : S50000x1.Idx) : ∃ t : Fin cfg10.N, (cfg10.win 3).flush t = true ∧ i ∈ ((cfg10.win 3).blk t).view.set := by
  have hi0 : (i 0).val < 50000 := (i 0).isLt
  have hi1 : (i 1).val < 1 := (i 1).isLt
  obtain ⟨t, ht⟩ := idx_onto10 ⟨(i 0).val / 5000, by omega⟩
  have q0 : win10_3.index t (0 : Fin 2) = (i 0).val / 5000 := congrFun ht 0
  have q1 : win10_3.index t (1 : Fin 2) = 0 := congrFun ht 1
  refine ⟨t, flush10_3 t, ?_⟩
  rw [mem_blk10]
  intro a
  match a with
  | ⟨0, _⟩ => show win10_3.index t (0 : Fin 2) * 5000 ≤ (i 0).val ∧ (i 0).val < win10_3.index t (0 : Fin 2) * 5000 + 5000; omega
  | ⟨1, _⟩ => show win10_3.index t (1 : Fin 2) * 1 ≤ (i 1).val ∧ (i 1).val < win10_3.index t (1 : Fin 2) * 1 + 1; omega

/-- After region 10 its output array holds the layer applied to the arrays the region found. -/
theorem final10 (c : Dev nD) : (dat10 V c).arrAt 3 cfg10.N
    = Cert.Layers.dense (V c (Pipeline.arrRef spec10 0)) (V c (Pipeline.arrRef spec10 1)) (V c (Pipeline.arrRef spec10 2)) :=
  (dat10 V c).arrAt_eq_of_cover 3 _ (fun t _ => flushed10_eq V c t) (cover10)

end Region10

end Cert.KernelIdeal.RegV

end
-- ==== Proof.ChainD.lean ====
/-
  The idealized kernel's buffers, boundary by boundary, through the third graph convolution's aggregation and output and the
  two heads (boundaries 12–22), down to the two result buffers at the end of the run: they hold the reference's own final
  stages of the launch arguments.
-/
import proofs.«166900_j88373247083004_1_alg».proof.Proof.ChainC
import proofs.«166900_j88373247083004_1_alg».proof.Proof.RegionsD

set_option maxRecDepth 16384

noncomputable section

namespace Cert.KernelIdeal.Chain

open Cert.KernelIdeal Cert.KernelIdeal.Gen Idealize.ShloMosaic Idealize.ShloMosaic.TcCoe Idealize.SL.Sem
open Idealize.ShloMosaic.Pipeline (Dat)
open Idealize.ShloMosaic.StableHlo Idealize.ShloMosaic.ValueIdx

variable (m : (ℓ : Loc nD τ sig) → Buf (Elt Ideal) ℓ) (ρ : Dev nD → PrngReg)

theorem v3_at12 (c : Dev nD) : W12 m ρ c (Proc.devRef .tc main_v3) = Cert.ReferenceIdeal.Read.val_main_v3 (m ((c : Thread nD τ).loc main_arg1)) :=
  ((reg_step5 m ρ c main_v3 (by decide)).trans (((by host_keep hostOps5 : W11 m ρ c (Proc.devRef .tc main_v3) = W10 m ρ c (Proc.devRef .tc main_v3))).trans ((reg_step4 m ρ c main_v3 (by decide)).trans ((by host_keep hostOps4 : W9 m ρ c (Proc.devRef .tc main_v3) = W8 m ρ c (Proc.devRef .tc main_v3)))))).trans (v3_at8 m ρ c)

theorem v6_at12 (c : Dev nD) : W12 m ρ c (Proc.devRef .tc main_v6) = Cert.ReferenceIdeal.Read.val_main_v6 (m ((c : Thread nD τ).loc main_arg1)) :=
  ((reg_step5 m ρ c main_v6 (by decide)).trans (((by host_keep hostOps5 : W11 m ρ c (Proc.devRef .tc main_v6) = W10 m ρ c (Proc.devRef .tc main_v6))).trans ((reg_step4 m ρ c main_v6 (by decide)).trans ((by host_keep hostOps4 : W9 m ρ c (Proc.devRef .tc main_v6) = W8 m ρ c (Proc.devRef .tc main_v6)))))).trans (v6_at8 m ρ c)

theorem v26_at12 (c : Dev nD) : W12 m ρ c (Proc.devRef .tc main_v26) = Cert.ReferenceIdeal.Read.val_main_v26 (m ((c : Thread nD τ).loc main_arg1)) :=
  ((reg_step5 m ρ c main_v26 (by decide)).trans (((by host_keep hostOps5 : W11 m ρ c (Proc.devRef .tc main_v26) = W10 m ρ c (Proc.devRef .tc main_v26))).trans ((reg_step4 m ρ c main_v26 (by decide)).trans ((by host_keep hostOps4 : W9 m ρ c (Proc.devRef .tc main_v26) = W8 m ρ c (Proc.devRef .tc main_v26)))))).trans (v26_at8 m ρ c)

/-- Argument 5 is still as launched at boundary 12. -/
theorem arg5_at12 (c : Dev nD) : W12 m ρ c (Proc.devRef .tc main_arg5) = (m ((c : Thread nD τ).loc main_arg5)) :=
  ((reg_step5 m ρ c main_arg5 (by decide)).trans (((by host_keep hostOps5 : W11 m ρ c (Proc.devRef .tc main_arg5) = W10 m ρ c (Proc.devRef .tc main_arg5))).trans ((reg_step4 m ρ c main_arg5 (by decide)).trans ((by host_keep hostOps4 : W9 m ρ c (Proc.devRef .tc main_arg5) = W8 m ρ c (Proc.devRef .tc main_arg5)))))).trans (arg5_at8 m ρ c)

set_option maxHeartbeats 4000000 in
/-- Layer 3: the messages gathered along the edges, scaled and summed into their targets. -/
theorem v88_at13 (c : Dev nD) : W13 m ρ c (Proc.devRef .tc main_v88) = Cert.ReferenceIdeal.Read.val_main_v91 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  by
  show StableHlo.after hostOps6 (W12 m ρ c) (Proc.devRef .tc main_v88) = _
  after_results <;> (rw [v75_at12 m ρ c, v3_at12 m ρ c, v6_at12 m ρ c, v26_at12 m ρ c]) <;> rfl

set_option maxHeartbeats 4000000 in
/-- Layer 3: the bias as a row. -/
theorem v91_at13 (c : Dev nD) : W13 m ρ c (Proc.devRef .tc main_v91) = shapeCast S1x64 (Cert.ReferenceIdeal.Read.val_main_v93 (m ((c : Thread nD τ).loc main_arg5))) shapeCasts_S64_S1x64 :=
  by
  show StableHlo.after hostOps6 (W12 m ρ c) (Proc.devRef .tc main_v91) = _
  after_results <;> (rw [arg5_at12 m ρ c]) <;> rfl

set_option maxHeartbeats 4000000 in
/-- Region 6: layer 3's output, the aggregated messages plus the bias, rectified. -/
theorem v92_at14 (c : Dev nD) : W14 m ρ c (Proc.devRef .tc main_v92) = Cert.ReferenceIdeal.Read.val_main_v97 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W14_arr m ρ c 2).trans ?_
  refine (RegV.final6 (V13 m ρ) c).trans ?_
  show Cert.Layers.biasRelu (W13 m ρ c (Proc.devRef .tc main_v88)) (W13 m ρ c (Proc.devRef .tc main_v91)) = _
  rw [v88_at13 m ρ c, v91_at13 m ρ c]
  exact (Cert.ReferenceIdeal.RefLayers.convOut_eq _ _ _ (fun q => shapeCast_a_1a_apply _ _ 0 q)).symm

/-- Argument 7 is still as launched at boundary 14: nothing before it writes an argument. -/
theorem arg7_at14 (c : Dev nD) : W14 m ρ c (Proc.devRef .tc main_arg7) = (m ((c : Thread nD τ).loc main_arg7)) :=
  ((reg_step6 m ρ c main_arg7 (by decide)).trans (((by host_keep hostOps6 : W13 m ρ c (Proc.devRef .tc main_arg7) = W12 m ρ c (Proc.devRef .tc main_arg7))).trans ((reg_step5 m ρ c main_arg7 (by decide)).trans (((by host_keep hostOps5 : W11 m ρ c (Proc.devRef .tc main_arg7) = W10 m ρ c (Proc.devRef .tc main_arg7))).trans ((reg_step4 m ρ c main_arg7 (by decide)).trans (((by host_keep hostOps4 : W9 m ρ c (Proc.devRef .tc main_arg7) = W8 m ρ c (Proc.devRef .tc main_arg7))).trans ((reg_step3 m ρ c main_arg7 (by decide)).trans (((by host_keep hostOps3 : W7 m ρ c (Proc.devRef .tc main_arg7) = W6 m ρ c (Proc.devRef .tc main_arg7))).trans ((reg_step2 m ρ c main_arg7 (by decide)).trans (((by host_keep hostOps2 : W5 m ρ c (Proc.devRef .tc main_arg7) = W4 m ρ c (Proc.devRef .tc main_arg7))).trans ((reg_step1 m ρ c main_arg7 (by decide)).trans (((by host_keep hostOps1 : W3 m ρ c (Proc.devRef .tc main_arg7) = W2 m ρ c (Proc.devRef .tc main_arg7))).trans ((reg_step0 m ρ c main_arg7 (by decide)).trans ((by host_keep hostOps0 : W1 m ρ c (Proc.devRef .tc main_arg7) = W0 m ρ c (Proc.devRef .tc main_arg7)))))))))))))))).trans rfl

theorem v92_at15 (c : Dev nD) : W15 m ρ c (Proc.devRef .tc main_v92) = Cert.ReferenceIdeal.Read.val_main_v97 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((by host_keep hostOps7 : W15 m ρ c (Proc.devRef .tc main_v92) = W14 m ρ c (Proc.devRef .tc main_v92))).trans (v92_at14 m ρ c)

/-- Argument 6 is still as launched at boundary 15: nothing before it writes an argument. -/
theorem arg6_at15 (c : Dev nD) : W15 m ρ c (Proc.devRef .tc main_arg6) = (m ((c : Thread nD τ).loc main_arg6)) :=
  (((by host_keep hostOps7 : W15 m ρ c (Proc.devRef .tc main_arg6) = W14 m ρ c (Proc.devRef .tc main_arg6))).trans ((reg_step6 m ρ c main_arg6 (by decide)).trans (((by host_keep hostOps6 : W13 m ρ c (Proc.devRef .tc main_arg6) = W12 m ρ c (Proc.devRef .tc main_arg6))).trans ((reg_step5 m ρ c main_arg6 (by decide)).trans (((by host_keep hostOps5 : W11 m ρ c (Proc.devRef .tc main_arg6) = W10 m ρ c (Proc.devRef .tc main_arg6))).trans ((reg_step4 m ρ c main_arg6 (by decide)).trans (((by host_keep hostOps4 : W9 m ρ c (Proc.devRef .tc main_arg6) = W8 m ρ c (Proc.devRef .tc main_arg6))).trans ((reg_step3 m ρ c main_arg6 (by decide)).trans (((by host_keep hostOps3 : W7 m ρ c (Proc.devRef .tc main_arg6) = W6 m ρ c (Proc.devRef .tc main_arg6))).trans ((reg_step2 m ρ c main_arg6 (by decide)).trans (((by host_keep hostOps2 : W5 m ρ c (Proc.devRef .tc main_arg6) = W4 m ρ c (Proc.devRef .tc main_arg6))).trans ((reg_step1 m ρ c main_arg6 (by decide)).trans (((by host_keep hostOps1 : W3 m ρ c (Proc.devRef .tc main_arg6) = W2 m ρ c (Proc.devRef .tc main_arg6))).trans ((reg_step0 m ρ c main_arg6 (by decide)).trans ((by host_keep hostOps0 : W1 m ρ c (Proc.devRef .tc main_arg6) = W0 m ρ c (Proc.devRef .tc main_arg6))))))))))))))))).trans rfl

set_option maxHeartbeats 4000000 in
/-- The demand head's hidden bias as a row. -/
theorem v93_at15 (c : Dev nD) : W15 m ρ c (Proc.devRef .tc main_v93) = shapeCast S1x32 (m ((c : Thread nD τ).loc main_arg7)) shapeCasts_S32_S1x32 :=
  by
  show StableHlo.after hostOps7 (W14 m ρ c) (Proc.devRef .tc main_v93) = _
  after_results <;> (rw [arg7_at14 m ρ c]) <;> rfl

set_option maxHeartbeats 4000000 in
/-- Region 7: the demand head's hidden layer. -/
theorem v94_at16 (c : Dev nD) : W16 m ρ c (Proc.devRef .tc main_v94) = Cert.ReferenceIdeal.Read.val_main_v102 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W16_arr m ρ c 3).trans ?_
  refine (RegV.final7 (V15 m ρ) c).trans ?_
  show Cert.Layers.denseRelu (W15 m ρ c (Proc.devRef .tc main_v92)) (W15 m ρ c (Proc.devRef .tc main_arg6)) (W15 m ρ c (Proc.devRef .tc main_v93)) = _
  rw [v92_at15 m ρ c, arg6_at15 m ρ c, v93_at15 m ρ c]
  exact (Cert.ReferenceIdeal.RefLayers.hidden_eq _ _ _ _ (fun q => shapeCast_a_1a_apply _ _ 0 q)).symm

/-- Argument 9 is still as launched at boundary 16: nothing before it writes an argument. -/
theorem arg9_at16 (c : Dev nD) : W16 m ρ c (Proc.devRef .tc main_arg9) = (m ((c : Thread nD τ).loc main_arg9)) :=
  ((reg_step7 m ρ c main_arg9 (by decide)).trans (((by host_keep hostOps7 : W15 m ρ c (Proc.devRef .tc main_arg9) = W14 m ρ c (Proc.devRef .tc main_arg9))).trans ((reg_step6 m ρ c main_arg9 (by decide)).trans (((by host_keep hostOps6 : W13 m ρ c (Proc.devRef .tc main_arg9) = W12 m ρ c (Proc.devRef .tc main_arg9))).trans ((reg_step5 m ρ c main_arg9 (by decide)).trans (((by host_keep hostOps5 : W11 m ρ c (Proc.devRef .tc main_arg9) = W10 m ρ c (Proc.devRef .tc main_arg9))).trans ((reg_step4 m ρ c main_arg9 (by decide)).trans (((by host_keep hostOps4 : W9 m ρ c (Proc.devRef .tc main_arg9) = W8 m ρ c (Proc.devRef .tc main_arg9))).trans ((reg_step3 m ρ c main_arg9 (by decide)).trans (((by host_keep hostOps3 : W7 m ρ c (Proc.devRef .tc main_arg9) = W6 m ρ c (Proc.devRef .tc main_arg9))).trans ((reg_step2 m ρ c main_arg9 (by decide)).trans (((by host_keep hostOps2 : W5 m ρ c (Proc.devRef .tc main_arg9) = W4 m ρ c (Proc.devRef .tc main_arg9))).trans ((reg_step1 m ρ c main_arg9 (by decide)).trans (((by host_keep hostOps1 : W3 m ρ c (Proc.devRef .tc main_arg9) = W2 m ρ c (Proc.devRef .tc main_arg9))).trans ((reg_step0 m ρ c main_arg9 (by decide)).trans ((by host_keep hostOps0 : W1 m ρ c (Proc.devRef .tc main_arg9) = W0 m ρ c (Proc.devRef .tc main_arg9)))))))))))))))))).trans rfl

theorem v94_at17 (c : Dev nD) : W17 m ρ c (Proc.devRef .tc main_v94) = Cert.ReferenceIdeal.Read.val_main_v102 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  ((by host_keep hostOps8 : W17 m ρ c (Proc.devRef .tc main_v94) = W16 m ρ c (Proc.devRef .tc main_v94))).trans (v94_at16 m ρ c)

/-- Argument 8 is still as launched at boundary 17: nothing before it writes an argument. -/
theorem arg8_at17 (c : Dev nD) : W17 m ρ c (Proc.devRef .tc main_arg8) = (m ((c : Thread nD τ).loc main_arg8)) :=
  (((by host_keep hostOps8 : W17 m ρ c (Proc.devRef .tc main_arg8) = W16 m ρ c (Proc.devRef .tc main_arg8))).trans ((reg_step7 m ρ c main_arg8 (by decide)).trans (((by host_keep hostOps7 : W15 m ρ c (Proc.devRef .tc main_arg8) = W14 m ρ c (Proc.devRef .tc main_arg8))).trans ((reg_step6 m ρ c main_arg8 (by decide)).trans (((by host_keep hostOps6 : W13 m ρ c (Proc.devRef .tc main_arg8) = W12 m ρ c (Proc.devRef .tc main_arg8))).trans ((reg_step5 m ρ c main_arg8 (by decide)).trans (((by host_keep hostOps5 : W11 m ρ c (Proc.devRef .tc main_arg8) = W10 m ρ c (Proc.devRef .tc main_arg8))).trans ((reg_step4 m ρ c main_arg8 (by decide)).trans (((by host_keep hostOps4 : W9 m ρ c (Proc.devRef .tc main_arg8) = W8 m ρ c (Proc.devRef .tc main_arg8))).trans ((reg_step3 m ρ c main_arg8 (by decide)).trans (((by host_keep hostOps3 : W7 m ρ c (Proc.devRef .tc main_arg8) = W6 m ρ c (Proc.devRef .tc main_arg8))).trans ((reg_step2 m ρ c main_arg8 (by decide)).trans (((by host_keep hostOps2 : W5 m ρ c (Proc.devRef .tc main_arg8) = W4 m ρ c (Proc.devRef .tc main_arg8))).trans ((reg_step1 m ρ c main_arg8 (by decide)).trans (((by host_keep hostOps1 : W3 m ρ c (Proc.devRef .tc main_arg8) = W2 m ρ c (Proc.devRef .tc main_arg8))).trans ((reg_step0 m ρ c main_arg8 (by decide)).trans ((by host_keep hostOps0 : W1 m ρ c (Proc.devRef .tc main_arg8) = W0 m ρ c (Proc.devRef .tc main_arg8))))))))))))))))))).trans rfl

set_option maxHeartbeats 4000000 in
/-- The demand head's output bias as a row. -/
theorem v95_at17 (c : Dev nD) : W17 m ρ c (Proc.devRef .tc main_v95) = shapeCast S1x1 (m ((c : Thread nD τ).loc main_arg9)) shapeCasts_S1_S1x1 :=
  by
  show StableHlo.after hostOps8 (W16 m ρ c) (Proc.devRef .tc main_v95) = _
  after_results <;> (rw [arg9_at16 m ρ c]) <;> rfl

set_option maxHeartbeats 4000000 in
/-- Region 8: the demand head's output layer. -/
theorem v96_at18 (c : Dev nD) : W18 m ρ c (Proc.devRef .tc main_v96) = Cert.ReferenceIdeal.Read.val_main_v106 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W18_arr m ρ c 3).trans ?_
  refine (RegV.final8 (V17 m ρ) c).trans ?_
  show Cert.Layers.dense (W17 m ρ c (Proc.devRef .tc main_v94)) (W17 m ρ c (Proc.devRef .tc main_arg8)) (W17 m ρ c (Proc.devRef .tc main_v95)) = _
  rw [v94_at17 m ρ c, arg8_at17 m ρ c, v95_at17 m ρ c]
  exact (Cert.ReferenceIdeal.RefLayers.output_eq _ _ _ _ (fun q => shapeCast_a_1a_apply _ _ 0 q)).symm

/-- Argument 11 is still as launched at boundary 18: nothing before it writes an argument. -/
theorem arg11_at18 (c : Dev nD) : W18 m ρ c (Proc.devRef .tc main_arg11) = (m ((c : Thread nD τ).loc main_arg11)) :=
  ((reg_step8 m ρ c main_arg11 (by decide)).trans (((by host_keep hostOps8 : W17 m ρ c (Proc.devRef .tc main_arg11) = W16 m ρ c (Proc.devRef .tc main_arg11))).trans ((reg_step7 m ρ c main_arg11 (by decide)).trans (((by host_keep hostOps7 : W15 m ρ c (Proc.devRef .tc main_arg11) = W14 m ρ c (Proc.devRef .tc main_arg11))).trans ((reg_step6 m ρ c main_arg11 (by decide)).trans (((by host_keep hostOps6 : W13 m ρ c (Proc.devRef .tc main_arg11) = W12 m ρ c (Proc.devRef .tc main_arg11))).trans ((reg_step5 m ρ c main_arg11 (by decide)).trans (((by host_keep hostOps5 : W11 m ρ c (Proc.devRef .tc main_arg11) = W10 m ρ c (Proc.devRef .tc main_arg11))).trans ((reg_step4 m ρ c main_arg11 (by decide)).trans (((by host_keep hostOps4 : W9 m ρ c (Proc.devRef .tc main_arg11) = W8 m ρ c (Proc.devRef .tc main_arg11))).trans ((reg_step3 m ρ c main_arg11 (by decide)).trans (((by host_keep hostOps3 : W7 m ρ c (Proc.devRef .tc main_arg11) = W6 m ρ c (Proc.devRef .tc main_arg11))).trans ((reg_step2 m ρ c main_arg11 (by decide)).trans (((by host_keep hostOps2 : W5 m ρ c (Proc.devRef .tc main_arg11) = W4 m ρ c (Proc.devRef .tc main_arg11))).trans ((reg_step1 m ρ c main_arg11 (by decide)).trans (((by host_keep hostOps1 : W3 m ρ c (Proc.devRef .tc main_arg11) = W2 m ρ c (Proc.devRef .tc main_arg11))).trans ((reg_step0 m ρ c main_arg11 (by decide)).trans ((by host_keep hostOps0 : W1 m ρ c (Proc.devRef .tc main_arg11) = W0 m ρ c (Proc.devRef .tc main_arg11)))))))))))))))))))).trans rfl

theorem v92_at19 (c : Dev nD) : W19 m ρ c (Proc.devRef .tc main_v92) = Cert.ReferenceIdeal.Read.val_main_v97 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (((by host_keep hostOps9 : W19 m ρ c (Proc.devRef .tc main_v92) = W18 m ρ c (Proc.devRef .tc main_v92))).trans ((reg_step8 m ρ c main_v92 (by decide)).trans (((by host_keep hostOps8 : W17 m ρ c (Proc.devRef .tc main_v92) = W16 m ρ c (Proc.devRef .tc main_v92))).trans (reg_step7 m ρ c main_v92 (by decide))))).trans (v92_at15 m ρ c)

/-- Argument 10 is still as launched at boundary 19: nothing before it writes an argument. -/
theorem arg10_at19 (c : Dev nD) : W19 m ρ c (Proc.devRef .tc main_arg10) = (m ((c : Thread nD τ).loc main_arg10)) :=
  (((by host_keep hostOps9 : W19 m ρ c (Proc.devRef .tc main_arg10) = W18 m ρ c (Proc.devRef .tc main_arg10))).trans ((reg_step8 m ρ c main_arg10 (by decide)).trans (((by host_keep hostOps8 : W17 m ρ c (Proc.devRef .tc main_arg10) = W16 m ρ c (Proc.devRef .tc main_arg10))).trans ((reg_step7 m ρ c main_arg10 (by decide)).trans (((by host_keep hostOps7 : W15 m ρ c (Proc.devRef .tc main_arg10) = W14 m ρ c (Proc.devRef .tc main_arg10))).trans ((reg_step6 m ρ c main_arg10 (by decide)).trans (((by host_keep hostOps6 : W13 m ρ c (Proc.devRef .tc main_arg10) = W12 m ρ c (Proc.devRef .tc main_arg10))).trans ((reg_step5 m ρ c main_arg10 (by decide)).trans (((by host_keep hostOps5 : W11 m ρ c (Proc.devRef .tc main_arg10) = W10 m ρ c (Proc.devRef .tc main_arg10))).trans ((reg_step4 m ρ c main_arg10 (by decide)).trans (((by host_keep hostOps4 : W9 m ρ c (Proc.devRef .tc main_arg10) = W8 m ρ c (Proc.devRef .tc main_arg10))).trans ((reg_step3 m ρ c main_arg10 (by decide)).trans (((by host_keep hostOps3 : W7 m ρ c (Proc.devRef .tc main_arg10) = W6 m ρ c (Proc.devRef .tc main_arg10))).trans ((reg_step2 m ρ c main_arg10 (by decide)).trans (((by host_keep hostOps2 : W5 m ρ c (Proc.devRef .tc main_arg10) = W4 m ρ c (Proc.devRef .tc main_arg10))).trans ((reg_step1 m ρ c main_arg10 (by decide)).trans (((by host_keep hostOps1 : W3 m ρ c (Proc.devRef .tc main_arg10) = W2 m ρ c (Proc.devRef .tc main_arg10))).trans ((reg_step0 m ρ c main_arg10 (by decide)).trans ((by host_keep hostOps0 : W1 m ρ c (Proc.devRef .tc main_arg10) = W0 m ρ c (Proc.devRef .tc main_arg10))))))))))))))))))))).trans rfl

set_option maxHeartbeats 4000000 in
/-- The inventory head's hidden bias as a row. -/
theorem v97_at19 (c : Dev nD) : W19 m ρ c (Proc.devRef .tc main_v97) = shapeCast S1x32 (m ((c : Thread nD τ).loc main_arg11)) shapeCasts_S32_S1x32 :=
  by
  show StableHlo.after hostOps9 (W18 m ρ c) (Proc.devRef .tc main_v97) = _
  after_results <;> (rw [arg11_at18 m ρ c]) <;> rfl

set_option maxHeartbeats 4000000 in
/-- Region 9: the inventory head's hidden layer. -/
theorem v98_at20 (c : Dev nD) : W20 m ρ c (Proc.devRef .tc main_v98) = Cert.ReferenceIdeal.Read.val_main_v111 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) := by
  refine (W20_arr m ρ c 3).trans ?_
  refine (RegV.final9 (V19 m ρ) c).trans ?_
  show Cert.Layers.denseRelu (W19 m ρ c (Proc.devRef .tc main_v92)) (W19 m ρ c (Proc.devRef .tc main_arg10)) (W19 m ρ c (Proc.devRef .tc main_v97)) = _
  rw [v92_at19 m ρ c, arg10_at19 m ρ c, v97_at19 m ρ c]
  exact (Cert.ReferenceIdeal.RefLayers.hidden_eq _ _ _ _ (fun q => shapeCast_a_1a_apply _ _ 0 q)).symm

/-- Argument 13 is still as launched at boundary 20: nothing before it writes an argument. -/
theorem arg13_at20 (c : Dev nD) : W20 m ρ c (Proc.devRef .tc main_arg13) = (m ((c : Thread nD τ).loc main_arg13)) :=
  ((reg_step9 m ρ c main_arg13 (by decide)).trans (((by host_keep hostOps9 : W19 m ρ c (Proc.devRef .tc main_arg13) = W18 m ρ c (Proc.devRef .tc main_arg13))).trans ((reg_step8 m ρ c main_arg13 (by decide)).trans (((by host_keep hostOps8 : W17 m ρ c (Proc.devRef .tc main_arg13) = W16 m ρ c (Proc.devRef .tc main_arg13))).trans ((reg_step7 m ρ c main_arg13 (by decide)).trans (((by host_keep hostOps7 : W15 m ρ c (Proc.devRef .tc main_arg13) = W14 m ρ c (Proc.devRef .tc main_arg13))).trans ((reg_step6 m ρ c main_arg13 (by decide)).trans (((by host_keep hostOps6 : W13 m ρ c (Proc.devRef .tc main_arg13) = W12 m ρ c (Proc.devRef .tc main_arg13))).trans ((reg_step5 m ρ c main_arg13 (by decide)).trans (((by host_keep hostOps5 : W11 m ρ c (Proc.devRef .tc main_arg13) = W10 m ρ c (Proc.devRef .tc main_arg13))).trans ((reg_step4 m ρ c main_arg13 (by decide)).trans (((by host_keep hostOps4 : W9 m ρ c (Proc.devRef .tc main_arg13) = W8 m ρ c (Proc.devRef .tc main_arg13))).trans ((reg_step3 m ρ c main_arg13 (by decide)).trans (((by host_keep hostOps3 : W7 m ρ c (Proc.devRef .tc main_arg13) = W6 m ρ c (Proc.devRef .tc main_arg13))).trans ((reg_step2 m ρ c main_arg13 (by decide)).trans (((by host_keep hostOps2 : W5 m ρ c (Proc.devRef .tc main_arg13) = W4 m ρ c (Proc.devRef .tc main_arg13))).trans ((reg_step1 m ρ c main_arg13 (by decide)).trans (((by host_keep hostOps1 : W3 m ρ c (Proc.devRef .tc main_arg13) = W2 m ρ c (Proc.devRef .tc main_arg13))).trans ((reg_step0 m ρ c main_arg13 (by decide)).trans ((by host_keep hostOps0 : W1 m ρ c (Proc.devRef .tc main_arg13) = W0 m ρ c (Proc.devRef .tc main_arg13)))))))))))))))))))))).trans rfl

theorem v98_at21 (c : Dev nD) : W21 m ρ c (Proc.devRef .tc main_v98) = Cert.ReferenceIdeal.Read.val_main_v111 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) :=
  ((by host_keep hostOps10 : W21 m ρ c (Proc.devRef .tc main_v98) = W20 m ρ c (Proc.devRef .tc main_v98))).trans (v98_at20 m ρ c)

/-- Argument 12 is still as launched at boundary 21: nothing before it writes an argument. -/
theorem arg12_at21 (c : Dev nD) : W21 m ρ c (Proc.devRef .tc main_arg12) = (m ((c : Thread nD τ).loc main_arg12)) :=
  (((by host_keep hostOps10 : W21 m ρ c (Proc.devRef .tc main_arg12) = W20 m ρ c (Proc.devRef .tc main_arg12))).trans ((reg_step9 m ρ c main_arg12 (by decide)).trans (((by host_keep hostOps9 : W19 m ρ c (Proc.devRef .tc main_arg12) = W18 m ρ c (Proc.devRef .tc main_arg12))).trans ((reg_step8 m ρ c main_arg12 (by decide)).trans (((by host_keep hostOps8 : W17 m ρ c (Proc.devRef .tc main_arg12) = W16 m ρ c (Proc.devRef .tc main_arg12))).trans ((reg_step7 m ρ c main_arg12 (by decide)).trans (((by host_keep hostOps7 : W15 m ρ c (Proc.devRef .tc main_arg12) = W14 m ρ c (Proc.devRef .tc main_arg12))).trans ((reg_step6 m ρ c main_arg12 (by decide)).trans (((by host_keep hostOps6 : W13 m ρ c (Proc.devRef .tc main_arg12) = W12 m ρ c (Proc.devRef .tc main_arg12))).trans ((reg_step5 m ρ c main_arg12 (by decide)).trans (((by host_keep hostOps5 : W11 m ρ c (Proc.devRef .tc main_arg12) = W10 m ρ c (Proc.devRef .tc main_arg12))).trans ((reg_step4 m ρ c main_arg12 (by decide)).trans (((by host_keep hostOps4 : W9 m ρ c (Proc.devRef .tc main_arg12) = W8 m ρ c (Proc.devRef .tc main_arg12))).trans ((reg_step3 m ρ c main_arg12 (by decide)).trans (((by host_keep hostOps3 : W7 m ρ c (Proc.devRef .tc main_arg12) = W6 m ρ c (Proc.devRef .tc main_arg12))).trans ((reg_step2 m ρ c main_arg12 (by decide)).trans (((by host_keep hostOps2 : W5 m ρ c (Proc.devRef .tc main_arg12) = W4 m ρ c (Proc.devRef .tc main_arg12))).trans ((reg_step1 m ρ c main_arg12 (by decide)).trans (((by host_keep hostOps1 : W3 m ρ c (Proc.devRef .tc main_arg12) = W2 m ρ c (Proc.devRef .tc main_arg12))).trans ((reg_step0 m ρ c main_arg12 (by decide)).trans ((by host_keep hostOps0 : W1 m ρ c (Proc.devRef .tc main_arg12) = W0 m ρ c (Proc.devRef .tc main_arg12))))))))))))))))))))))).trans rfl

set_option maxHeartbeats 4000000 in
/-- The inventory head's output bias as a row. -/
theorem v99_at21 (c : Dev nD) : W21 m ρ c (Proc.devRef .tc main_v99) = shapeCast S1x1 (m ((c : Thread nD τ).loc main_arg13)) shapeCasts_S1_S1x1 :=
  by
  show StableHlo.after hostOps10 (W20 m ρ c) (Proc.devRef .tc main_v99) = _
  after_results <;> (rw [arg13_at20 m ρ c]) <;> rfl

set_option maxHeartbeats 4000000 in
/-- Region 10: the inventory head's output layer. -/
theorem v100_at22 (c : Dev nD) : W22 m ρ c (Proc.devRef .tc main_v100) = Cert.ReferenceIdeal.Read.val_main_v115 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (m ((c : Thread nD τ).loc main_arg12)) (m ((c : Thread nD τ).loc main_arg13)) := by
  refine (W22_arr m ρ c 3).trans ?_
  refine (RegV.final10 (V21 m ρ) c).trans ?_
  show Cert.Layers.dense (W21 m ρ c (Proc.devRef .tc main_v98)) (W21 m ρ c (Proc.devRef .tc main_arg12)) (W21 m ρ c (Proc.devRef .tc main_v99)) = _
  rw [v98_at21 m ρ c, arg12_at21 m ρ c, v99_at21 m ρ c]
  exact (Cert.ReferenceIdeal.RefLayers.output_eq _ _ _ _ (fun q => shapeCast_a_1a_apply _ _ 0 q)).symm

/-- The demand result is not touched by the inventory head. -/
theorem v96_at22 (c : Dev nD) : W22 m ρ c (Proc.devRef .tc main_v96) = Cert.ReferenceIdeal.Read.val_main_v106 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  ((reg_step10 m ρ c main_v96 (by decide)).trans (((by host_keep hostOps10 : W21 m ρ c (Proc.devRef .tc main_v96) = W20 m ρ c (Proc.devRef .tc main_v96))).trans ((reg_step9 m ρ c main_v96 (by decide)).trans ((by host_keep hostOps9 : W19 m ρ c (Proc.devRef .tc main_v96) = W18 m ρ c (Proc.devRef .tc main_v96)))))).trans (v96_at18 m ρ c)

end Cert.KernelIdeal.Chain

end
-- ==== Proof.lean ====
/-
  The certificate of the graph-convolution network: a Pallas kernel of eleven pipelined regions (an encoder, three graph
  convolutions each a weight product and a biased rectification around a host-side gather / scatter-add over the edges, and
  two two-layer heads) against its plain reference.

  At the ideal values the narrowing of a region's operands to bf16 is the identity and its matrix product accumulates
  exact sums, so every region computes the textbook layer function of the arrays it finds (`Cert.Layers`), the ten row
  blocks of 5000 rows tiling its output (the region modules).  The reference computes the same layer functions with host
  operations (`RefLayers`); the two differ only in how the bias reaches the rows (a reshape against a broadcast) and in the
  zero bias the kernel adds after a graph convolution's product (`x + 0 = x` on all extended reals).  Everything between
  the regions — the self loops, the degree normalisation, the gathers and the scatter-adds — is the same host text in both
  programs.  Following each buffer through the kernel's 23 boundaries (the chain modules) shows that the two result buffers
  end at the reference's own final stages of the launch arguments, and the reference's run ends there too.  No step uses
  the finiteness of the inputs.  The ideal pass rewrote nothing, so `preserves` has no conjunct.
-/
import proofs.«166900_j88373247083004_1_alg».proof.Defs
import proofs.«166900_j88373247083004_1_alg».proof.Proof.Gen.Kernel
import proofs.«166900_j88373247083004_1_alg».proof.Proof.Gen.Kernel.Frame
import proofs.«166900_j88373247083004_1_alg».proof.Proof.Gen.KernelIdeal
import proofs.«166900_j88373247083004_1_alg».proof.Proof.Gen.KernelIdeal.Frame
import proofs.«166900_j88373247083004_1_alg».proof.Proof.Gen.ReferenceIdeal
import proofs.«166900_j88373247083004_1_alg».proof.Proof.Gen.ReferenceIdeal.Run
import proofs.«166900_j88373247083004_1_alg».proof.Proof.Gen.ReferenceIdeal.Read
import proofs.«166900_j88373247083004_1_alg».proof.Proof.Gen.Pre_finite_inputs
import proofs.«166900_j88373247083004_1_alg».proof.Proof.KernelRun
import proofs.«166900_j88373247083004_1_alg».proof.Proof.ChainD
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- Both runs end with the two results at the reference's final stages of the (agreeing) launch arguments. -/
theorem algebraic : Cert.algebraic_KernelIdeal_ReferenceIdeal := by
  intro m ρ m' ρ' _ hagree
  refine ⟨fun c => Cert.ReferenceIdeal.Read.val_main_v106 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.ReferenceIdeal.Read.val_main_v115 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.Chain.v96_at22 m ρ c), (h c).2.1.trans (Cert.KernelIdeal.Chain.v100_at22 m ρ c), (h c).2.2⟩)
      (Cert.KernelIdeal.RunV.run_vals (F := Ideal) m ρ)
  · refine (θ_run Cert.ReferenceIdeal.defs _ _).mono (fun r h c => ?_) (Cert.ReferenceIdeal.Value.run (F := Ideal) m' ρ')
    obtain ⟨a0, a1, a2, a3, a4, a5, a6, a7, a8, a9, a10, a11, a12, a13⟩ := hagree c
    refine ⟨?_, ?_, (h c).2.2⟩
    · rw [(h c).1, Cert.ReferenceIdeal.Read.val_main_v106_eq, a0, a1, a2, a3, a4, a5, a6, a7, a8, a9]
    · rw [(h c).2.1, Cert.ReferenceIdeal.Read.val_main_v115_eq, a0, a1, a2, a3, a4, a5, a10, a11, a12, a13]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
